-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x1024 : Shape := ⟨3, ![256, 2, 1024]⟩
abbrev S256x2x3 : Shape := ⟨3, ![256, 2, 3]⟩
abbrev S256 : Shape := ⟨1, ![256]⟩
abbrev S80x256x3 : Shape := ⟨3, ![80, 256, 3]⟩
abbrev S80 : Shape := ⟨1, ![80]⟩
abbrev S256x81920 : Shape := ⟨2, ![256, 81920]⟩
abbrev S10x256 : Shape := ⟨2, ![10, 256]⟩
abbrev S10 : Shape := ⟨1, ![10]⟩
abbrev S_ : Shape := ⟨0, ![]⟩

class Facts : Prop where
  bcast_S_S256x2x1024 : S_.BroadcastsInDim S256x2x1024 (![] : Fin 0 → Fin S256x2x1024.rank)
  reducesTo_S256x2x1024_S_d0_1_2 : S256x2x1024.ReducesTo [0, 1, 2] S_
  h_S_ : 0 < S_.numel
  bcast_S_S256x2x3 : S_.BroadcastsInDim S256x2x3 (![] : Fin 0 → Fin S256x2x3.rank)
  reducesTo_S256x2x3_S_d0_1_2 : S256x2x3.ReducesTo [0, 1, 2] S_
  bcast_S_S256 : S_.BroadcastsInDim S256 (![] : Fin 0 → Fin S256.rank)
  reducesTo_S256_S_d0 : S256.ReducesTo [0] S_
  bcast_S_S80x256x3 : S_.BroadcastsInDim S80x256x3 (![] : Fin 0 → Fin S80x256x3.rank)
  reducesTo_S80x256x3_S_d0_1_2 : S80x256x3.ReducesTo [0, 1, 2] S_
  bcast_S_S80 : S_.BroadcastsInDim S80 (![] : Fin 0 → Fin S80.rank)
  reducesTo_S80_S_d0 : S80.ReducesTo [0] S_
  bcast_S_S256x81920 : S_.BroadcastsInDim S256x81920 (![] : Fin 0 → Fin S256x81920.rank)
  reducesTo_S256x81920_S_d0_1 : S256x81920.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S256 .f32) (main_arg12 : FVec F S256 .f32) (main_arg13 : FVec F S10x256 .f32) (main_arg14 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S10x256 .f32 := Host.absf main_arg13
  let main_cst_24 : FVec F S_ .f32 := constant S_ .f32 0x7F800000#32
  let main_v65 : FVec F S10x256 .f32 := broadcastInDim S10x256 ![] bcast_S_S10x256 main_cst_24
  let main_v66 : IVec S10x256 1 := cmpf .olt main_v64 main_v65
  let main_c_25 : IVec S_ 1 := constantI S_ 1 1#1
  let main_v67 : IVec S_ 1 := (fun x v => Host.reduce IntOp.andi x v reducesTo_S10x256_S_d0_1 h_S_) main_v66 main_c_25
  fn_part4 (F := F) main_arg14 main_v63 main_v67

def fn_part2 {F : FTy → Type} [FloatOps F] (main_arg7 : FVec F S80 .f32) (main_arg8 : FVec F S80 .f32) (main_arg9 : FVec F S256x81920 .f32) (main_arg10 : FVec F S256 .f32) (main_arg11 : FVec F S256 .f32) (main_arg12 : FVec F S256 .f32) (main_arg13 : FVec F S10x256 .f32) (main_arg14 : FVec F S10 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S256x81920 .f32 := Host.absf main_arg9
  let main_cst_16 : FVec F S_ .f32 := constant S_ .f32 0x7F800000#32
  let main_v45 : FVec F S256x81920 .f32 := broadcastInDim S256x81920 ![] bcast_S_S256x81920 main_cst_16
  let main_v46 : IVec S256x81920 1 := cmpf .olt main_v44 main_v45
  let main_c_17 : IVec S_ 1 := constantI S_ 1 1#1
  let main_v47 : IVec S_ 1 := (fun x v => Host.reduce IntOp.andi x v reducesTo_S256x81920_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S80x256x3 .f32) (main_arg6 : FVec F S80 .f32) (main_arg7 : FVec F S80 .f32) (main_arg8 : FVec F S80 .f32) (main_arg9 : FVec F S256x81920 .f32) (main_arg10 : FVec F S256 .f32) (main_arg11 : FVec F S256 .f32) (main_arg12 : FVec F S256 .f32) (main_arg13 : FVec F S10x256 .f32) (main_arg14 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S80x256x3 .f32 := Host.absf main_arg5
  let main_cst_8 : FVec F S_ .f32 := constant S_ .f32 0x7F800000#32
  let main_v25 : FVec F S80x256x3 .f32 := broadcastInDim S80x256x3 ![] bcast_S_S80x256x3 main_cst_8
  let main_v26 : IVec S80x256x3 1 := cmpf .olt main_v24 main_v25
  let main_c_9 : IVec S_ 1 := constantI S_ 1 1#1
  let main_v27 : IVec S_ 1 := (fun x v => Host.reduce IntOp.andi x v reducesTo_S80x256x3_S_d0_1_2 h_S_) main_v26 main_c_9
  let main_v28 : IVec S_ 1 := andi main_v23 main_v27
  let main_v29 : FVec F S80 .f32 := Host.absf main_arg6
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S256x2x1024 .f32) (main_arg1 : FVec F S256x2x3 .f32) (main_arg2 : FVec F S256 .f32) (main_arg3 : FVec F S256 .f32) (main_arg4 : FVec F S256 .f32) (main_arg5 : FVec F S80x256x3 .f32) (main_arg6 : FVec F S80 .f32) (main_arg7 : FVec F S80 .f32) (main_arg8 : FVec F S80 .f32) (main_arg9 : FVec F S256x81920 .f32) (main_arg10 : FVec F S256 .f32) (main_arg11 : FVec F S256 .f32) (main_arg12 : FVec F S256 .f32) (main_arg13 : FVec F S10x256 .f32) (main_arg14 : FVec F S10 .f32) : IVec S_ 1 :=
  let main_v0 : FVec F S256x2x1024 .f32 := Host.absf main_arg0
  let main_cst : FVec F S_ .f32 := constant S_ .f32 0x7F800000#32
  let main_v1 : FVec F S256x2x1024 .f32 := broadcastInDim S256x2x1024 ![] bcast_S_S256x2x1024 main_cst
  let main_v2 : IVec S256x2x1024 1 := cmpf .olt main_v0 main_v1
  let main_c : IVec S_ 1 := constantI S_ 1 1#1
  let main_v3 : IVec S_ 1 := (fun x v => Host.reduce IntOp.andi x v reducesTo_S256x2x1024_S_d0_1_2 h_S_) main_v2 main_c
  let main_v4 : FVec F S256x2x3 .f32 := Host.absf main_arg1
  let main_cst_0 : FVec F S_ .f32 := constant S_ .f32 0x7F800000#32
  let main_v5 : FVec F S256x2x3 .f32 := broadcastInDim S256x2x3 ![] bcast_S_S256x2x3 main_cst_0
  let main_v6 : IVec S256x2x3 1 := cmpf .olt main_v4 main_v5
  let main_c_1 : IVec S_ 1 := constantI S_ 1 1#1
  let main_v7 : IVec S_ 1 := (fun x v => Host.reduce IntOp.andi x v reducesTo_S256x2x3_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S256x2x1024 : Shape := ⟨3, ![256, 2, 1024]⟩
abbrev S256x2x3 : Shape := ⟨3, ![256, 2, 3]⟩
abbrev S256 : Shape := ⟨1, ![256]⟩
abbrev S80x256x3 : Shape := ⟨3, ![80, 256, 3]⟩
abbrev S80 : Shape := ⟨1, ![80]⟩
abbrev S256x81920 : Shape := ⟨2, ![256, 81920]⟩
abbrev S10x256 : Shape := ⟨2, ![10, 256]⟩
abbrev S10 : Shape := ⟨1, ![10]⟩
abbrev S_ : Shape := ⟨0, ![]⟩
abbrev S256x1 : Shape := ⟨2, ![256, 1]⟩
abbrev S80x1 : Shape := ⟨2, ![80, 1]⟩
abbrev S1x256 : Shape := ⟨2, ![1, 256]⟩
abbrev S3x2x256 : Shape := ⟨3, ![3, 2, 256]⟩
abbrev S6x256 : Shape := ⟨2, ![6, 256]⟩
abbrev S256x6 : Shape := ⟨2, ![256, 6]⟩
abbrev S3x80x256 : Shape := ⟨3, ![3, 80, 256]⟩
abbrev S240x256 : Shape := ⟨2, ![240, 256]⟩
abbrev S256x2x1026 : Shape := ⟨3, ![256, 2, 1026]⟩
abbrev S256x1x1024 : Shape := ⟨3, ![256, 1, 1024]⟩
abbrev S256x1024 : Shape := ⟨2, ![256, 1024]⟩
abbrev S256x6x1024 : Shape := ⟨3, ![256, 6, 1024]⟩
abbrev S256x80x1024 : Shape := ⟨3, ![256, 80, 1024]⟩
abbrev S1x6x1024 : Shape := ⟨3, ![1, 6, 1024]⟩
abbrev S1x80x1024 : Shape := ⟨3, ![1, 80, 1024]⟩
abbrev S6x1024 : Shape := ⟨2, ![6, 1024]⟩
abbrev S240x1024 : Shape := ⟨2, ![240, 1024]⟩
abbrev S80x1024 : Shape := ⟨2, ![80, 1024]⟩
abbrev S80x1023 : Shape := ⟨2, ![80, 1023]⟩
abbrev S2x256x256 : Shape := ⟨3, ![2, 256, 256]⟩
abbrev S256x8192 : Shape := ⟨2, ![256, 8192]⟩
abbrev S1x256x256 : Shape := ⟨3, ![1, 256, 256]⟩
abbrev S256x256 : Shape := ⟨2, ![256, 256]⟩
abbrev S256x10 : Shape := ⟨2, ![256, 10]⟩
abbrev S1x10 : Shape := ⟨2, ![1, 10]⟩

abbrev nBuf : Space → Nat
  | .hbm => 76
  | .vmem => 23
  | .smem => 0
  | _ => 0

abbrev bufTy : (tb : Table) → Fin (tcTables nBuf tb) → BufTy
  | .hbm, ⟨0, _⟩ => ⟨S256x2x1024, .f32⟩
  | .hbm, ⟨1, _⟩ => ⟨S256x2x3, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S80x256x3, .f32⟩
  | .hbm, ⟨6, _⟩ => ⟨S80, .f32⟩
  | .hbm, ⟨7, _⟩ => ⟨S80, .f32⟩
  | .hbm, ⟨8, _⟩ => ⟨S80, .f32⟩
  | .hbm, ⟨9, _⟩ => ⟨S256x81920, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S10x256, .f32⟩
  | .hbm, ⟨14, _⟩ => ⟨S10, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S80, .f32⟩
  | .hbm, ⟨28, _⟩ => ⟨S80, .f32⟩
  | .hbm, ⟨29, _⟩ => ⟨S80, .f32⟩
  | .hbm, ⟨30, _⟩ => ⟨S80, .f32⟩
  | .hbm, ⟨31, _⟩ => ⟨S80x1, .f32⟩
  | .hbm, ⟨32, _⟩ => ⟨S80x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S1x256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S3x2x256, .f32⟩
  | .hbm, ⟨44, _⟩ => ⟨S6x256, .f32⟩
  | .hbm, ⟨45, _⟩ => ⟨S256x6, .f32⟩
  | .hbm, ⟨46, _⟩ => ⟨S3x80x256, .f32⟩
  | .hbm, ⟨47, _⟩ => ⟨S240x256, .f32⟩
  | .hbm, ⟨48, _⟩ => ⟨S_, .i32⟩
  | .hbm, ⟨49, _⟩ => ⟨S_, .f32⟩
  | .hbm, ⟨50, _⟩ => ⟨S256x2x1026, .f32⟩
  | .hbm, ⟨51, _⟩ => ⟨S256x1x1024, .f32⟩
  | .hbm, ⟨52, _⟩ => ⟨S256x1024, .f32⟩
  | .hbm, ⟨53, _⟩ => ⟨S256x1x1024, .f32⟩
  | .hbm, ⟨54, _⟩ => ⟨S256x1024, .f32⟩
  | .hbm, ⟨55, _⟩ => ⟨S256x1x1024, .f32⟩
  | .hbm, ⟨56, _⟩ => ⟨S256x1024, .f32⟩
  | .hbm, ⟨57, _⟩ => ⟨S256x1x1024, .f32⟩
  | .hbm, ⟨58, _⟩ => ⟨S256x1024, .f32⟩
  | .hbm, ⟨59, _⟩ => ⟨S256x1x1024, .f32⟩
  | .hbm, ⟨60, _⟩ => ⟨S256x1024, .f32⟩
  | .hbm, ⟨61, _⟩ => ⟨S256x1x1024, .f32⟩
  | .hbm, ⟨62, _⟩ => ⟨S256x1024, .f32⟩
  | .hbm, ⟨63, _⟩ => ⟨S256x1x1024, .f32⟩
  | .hbm, ⟨64, _⟩ => ⟨S256x1x1024, .f32⟩
  | .hbm, ⟨65, _⟩ => ⟨S256x1x1024, .f32⟩
  | .hbm, ⟨66, _⟩ => ⟨S256x1x1024, .f32⟩
  | .hbm, ⟨67, _⟩ => ⟨S256x1x1024, .f32⟩
  | .hbm, ⟨68, _⟩ => ⟨S256x1x1024, .f32⟩
  | .hbm, ⟨69, _⟩ => ⟨S256x6x1024, .f32⟩
  | .hbm, ⟨70, _⟩ => ⟨S256x80x1024, .bf16⟩
  | .hbm, ⟨71, _⟩ => ⟨S256x81920, .bf16⟩
  | .hbm, ⟨72, _⟩ => ⟨S2x256x256, .f32⟩
  | .hbm, ⟨73, _⟩ => ⟨S256x10, .f32⟩
  | .hbm, ⟨74, _⟩ => ⟨S1x10, .f32⟩
  | .hbm, ⟨75, _⟩ => ⟨S256x10, .f32⟩
  | .local _ .vmem, ⟨0, _⟩ => ⟨S1x6x1024, .f32⟩
  | .local _ .vmem, ⟨1, _⟩ => ⟨S1x6x1024, .f32⟩
  | .local _ .vmem, ⟨2, _⟩ => ⟨S256x6, .f32⟩
  | .local _ .vmem, ⟨3, _⟩ => ⟨S256x1, .f32⟩
  | .local _ .vmem, ⟨4, _⟩ => ⟨S256x1, .f32⟩
  | .local _ .vmem, ⟨5, _⟩ => ⟨S240x256, .f32⟩
  | .local _ .vmem, ⟨6, _⟩ => ⟨S80x1, .f32⟩
  | .local _ .vmem, ⟨7, _⟩ => ⟨S80x1, .f32⟩
  | .local _ .vmem, ⟨8, _⟩ => ⟨S1x80x1024, .bf16⟩
  | .local _ .vmem, ⟨9, _⟩ => ⟨S1x80x1024, .bf16⟩
  | .local _ .vmem, ⟨10, _⟩ => ⟨S256x8192, .bf16⟩
  | .local _ .vmem, ⟨11, _⟩ => ⟨S256x8192, .bf16⟩
  | .local _ .vmem, ⟨12, _⟩ => ⟨S256x8192, .f32⟩
  | .local _ .vmem, ⟨13, _⟩ => ⟨S256x8192, .f32⟩
  | .local _ .vmem, ⟨14, _⟩ => ⟨S1x256x256, .f32⟩
  | .local _ .vmem, ⟨15, _⟩ => ⟨S1x256x256, .f32⟩
  | .local _ .vmem, ⟨16, _⟩ => ⟨S256x256, .f32⟩
  | .local _ .vmem, ⟨17, _⟩ => ⟨S2x256x256, .f32⟩
  | .local _ .vmem, ⟨18, _⟩ => ⟨S1x256, .f32⟩
  | .local _ .vmem, ⟨19, _⟩ => ⟨S1x256, .f32⟩
  | .local _ .vmem, ⟨20, _⟩ => ⟨S256x10, .f32⟩
  | .local _ .vmem, ⟨21, _⟩ => ⟨S1x10, .f32⟩
  | .local _ .vmem, ⟨22, _⟩ => ⟨S256x10, .f32⟩
  | _, _ => ⟨S256x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S240x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x80x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := .none

abbrev stage2_0 : Fin 1 → Memref sig .tc .vmem S2x256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

class Facts₀ : Prop where
  bcast_S_S256 : S_.BroadcastsInDim S256 (![] : Fin 0 → Fin S256.rank)
  shapeCasts_S256_S256x1 : S256.ShapeCasts S256x1
  bcast_S_S80 : S_.BroadcastsInDim S80 (![] : Fin 0 → Fin S80.rank)
  shapeCasts_S80_S80x1 : S80.ShapeCasts S80x1
  shapeCasts_S256_S1x256 : S256.ShapeCasts S1x256
  shapeCasts_S1x256_S256 : S1x256.ShapeCasts S256
  transposes_S256x2x3_S3x2x256_2_1_0 : S256x2x3.Transposes [2, 1, 0] S3x2x256
  shapeCasts_S3x2x256_S6x256 : S3x2x256.ShapeCasts S6x256
  transposes_S6x256_S256x6_1_0 : S6x256.Transposes [1, 0] S256x6
  transposes_S80x256x3_S3x80x256_2_0_1 : S80x256x3.Transposes [2, 0, 1] S3x80x256
  shapeCasts_S3x80x256_S240x256 : S3x80x256.ShapeCasts S240x256
  pads_S256x2x1024_S256x2x1026_000_000_110 : S256x2x1024.Pads (![0, 0, 1] : Fin 3 → Nat) ![0, 0, 1] ![0, 0, 0] S256x2x1026
  h_S_ : 0 < S_.numel
  slices_S256x2x1026_S256x1x1024_0_0_0 : S256x2x1026.Slices ![0, 0, 0] S256x1x1024
  shapeCasts_S256x1x1024_S256x1024 : S256x1x1024.ShapeCasts S256x1024
  slices_S256x2x1026_S256x1x1024_0_1_0 : S256x2x1026.Slices ![0, 1, 0] S256x1x1024
  slices_S256x2x1026_S256x1x1024_0_0_1 : S256x2x1026.Slices ![0, 0, 1] S256x1x1024
  slices_S256x2x1026_S256x1x1024_0_1_1 : S256x2x1026.Slices ![0, 1, 1] S256x1x1024
  slices_S256x2x1026_S256x1x1024_0_0_2 : S256x2x1026.Slices ![0, 0, 2] S256x1x1024
  slices_S256x2x1026_S256x1x1024_0_1_2 : S256x2x1026.Slices ![0, 1, 2] S256x1x1024
  bcast_S256x1024_S256x1x1024_0_2 : S256x1024.BroadcastsInDim S256x1x1024 (![0, 2] : Fin 2 → Fin S256x1x1024.rank)
  concatenates_S256x1x1024_S256x1x1024_S256x1x1024_S256x1x1024_S256x1x1024_S256x1x1024_S256x6x1024_d1 : Shape.Concatenates [S256x1x1024, S256x1x1024, S256x1x1024, S256x1x1024, S256x1x1024, S256x1x1024] S256x6x1024 1
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S1x6x1024_S1x6x1024_0_0_0 : ∀ a, (![0, 0, 0] : Fin 3 → Nat) a + S1x6x1024.size a ≤ S1x6x1024.size a
  h_S1x6x1024 : 0 < S1x6x1024.numel
  shapeCasts_S1x6x1024_S6x1024 : S1x6x1024.ShapeCasts S6x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S240x256_S240x256_0_0 : ∀ a, (![0, 0] : Fin 2 → Nat) a + S240x256.size a ≤ S240x256.size a
  h_S240x256 : 0 < S240x256.numel
  shapeCasts_S240x256_S240x256 : S240x256.ShapeCasts S240x256
  slices_S240x1024_o0_0_S80x1024 : S240x1024.Slices ![0, 0] S80x1024
  slices_S240x1024_o80_0_S80x1024 : S240x1024.Slices ![80, 0] S80x1024
  slices_S240x1024_o160_0_S80x1024 : S240x1024.Slices ![160, 0] S80x1024
  slices_S80x1024_o0_0_S80x1023 : S80x1024.Slices ![0, 0] S80x1023
  concatenates_S80x1_S80x1023_S80x1024_d1 : Shape.Concatenates [S80x1, S80x1023] S80x1024 1
  slices_S80x1024_o0_1_S80x1023 : S80x1024.Slices ![0, 1] S80x1023
  concatenates_S80x1023_S80x1_S80x1024_d1 : Shape.Concatenates [S80x1023, S80x1] S80x1024 1
  inb_S80x1_S80x1_0_0 : ∀ a, (![0, 0] : Fin 2 → Nat) a + S80x1.size a ≤ S80x1.size a
  h_S80x1 : 0 < S80x1.numel
  shapeCasts_S80x1_S80x1 : S80x1.ShapeCasts S80x1
  broadcasts_S80x1_S80x1024 : S80x1.Broadcasts S80x1024
  bitsLt_bf16_f32 : FTy.bits .bf16 < FTy.bits .f32
  inb_S1x80x1024_S1x80x1024_0_0_0 : ∀ a, (![0, 0, 0] : Fin 3 → Nat) a + S1x80x1024.size a ≤ S1x80x1024.size a
  h_S1x80x1024 : 0 < S1x80x1024.numel
  shapeCasts_S1x80x1024_S80x1024 : S1x80x1024.ShapeCasts S80x1024
  shapeCasts_S80x1024_S1x80x1024 : S80x1024.ShapeCasts S1x80x1024
  packedbf16_S1x80x1024_S1x80x1024_0_0_0 : (Rect.unit (s := S1x80x1024) ![0, 0, 0] S1x80x1024.size inb_S1x80x1024_S1x80x1024_0_0_0).PackedRows (EltTy.packing .bf16)
  shapeCasts_S256x80x1024_S256x81920 : S256x80x1024.ShapeCasts S256x81920
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  transposes_S10x256_S256x10_1_0 : S10x256.Transposes [1, 0] S256x10
  shapeCasts_S10_S1x10 : S10.ShapeCasts S1x10
  inb_S2x256x256_S1x256x256_0_0_0 : ∀ a, (![0, 0, 0] : Fin 3 → Nat) a + S1x256x256.size a ≤ S2x256x256.size a
  inb_S2x256x256_S1x256x256_1_0_0 : ∀ a, (![1, 0, 0] : Fin 3 → Nat) a + S1x256x256.size a ≤ S2x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  dot_S256x6_S6x1024_S256x1024_1_0_0_1_n_n_wf : DotDims.WF S256x6 S6x1024 S256x1024 [1] [0] [0] [1] [] []
  dot_S240x256_S256x1024_S240x1024_1_0_0_1_n_n_wf : DotDims.WF S240x256 S256x1024 S240x1024 [1] [0] [0] [1] [] []
  dot_S256x8192_S256x8192_S256x256_1_1_0_0_n_n_wf : DotDims.WF S256x8192 S256x8192 S256x256 [1] [1] [0] [0] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x1024.size a ≤ S256x6x1024.size a
  hwx0_0 : ∀ i : grid0.Coords, EltTy.bits .f32 = 32 ∨ (Rect.block (s := S256x6x1024) S1x6x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S256x6.size a
  hwx0_1 : ∀ i : grid0.Coords, EltTy.bits .f32 = 32 ∨ (Rect.block (s := S256x6) S256x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S240x256.size a ≤ S240x256.size a
  hwx0_4 : ∀ i : grid0.Coords, EltTy.bits .f32 = 32 ∨ (Rect.block (s := S240x256) S240x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80x1.size a ≤ S80x1.size a
  hwx0_5 : ∀ i : grid0.Coords, EltTy.bits .f32 = 32 ∨ (Rect.block (s := S80x1) S80x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x1.size a ≤ S80x1.size a
  hwx0_6 : ∀ i : grid0.Coords, EltTy.bits .f32 = 32 ∨ (Rect.block (s := S80x1) S80x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x80x1024.size a ≤ S256x80x1024.size a
  hwx0_7 : ∀ i : grid0.Coords, EltTy.bits .bf16 = 32 ∨ (Rect.block (s := S256x80x1024) S1x80x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S256x81920.size a
  hwx1_0 : ∀ i : grid1.Coords, EltTy.bits .bf16 = 32 ∨ (Rect.block (s := S256x81920) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S256x81920.size a
  hwx1_1 : ∀ i : grid1.Coords, EltTy.bits .f32 = 32 ∨ (Rect.block (s := S256x81920) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S2x256x256.size a
  hwx1_2 : ∀ i : grid1.Coords, EltTy.bits .f32 = 32 ∨ (Rect.block (s := S2x256x256) S1x256x256.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole

variable [Facts₀]

def dot_S256x6_S6x1024_S256x1024_1_0_0_1_n_n : DotDims S256x6 S6x1024 S256x1024 where
  lhsContracting := [1]
  rhsContracting := [0]
  lhsNonContracting := [0]
  rhsNonContracting := [1]
  lhsBatch := []
  rhsBatch := []
  wf := dot_S256x6_S6x1024_S256x1024_1_0_0_1_n_n_wf
def dot_S240x256_S256x1024_S240x1024_1_0_0_1_n_n : DotDims S240x256 S256x1024 S240x1024 where
  lhsContracting := [1]
  rhsContracting := [0]
  lhsNonContracting := [0]
  rhsNonContracting := [1]
  lhsBatch := []
  rhsBatch := []
  wf := dot_S240x256_S256x1024_S240x1024_1_0_0_1_n_n_wf
def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v49) S1x6x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S256x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S240x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S80x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S80x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x80x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v51) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.whole (Memref.whole main_v52) false false (stage2_0 0) (sem2_0 0) (Memref.isWhole_whole _) (hstage2_0 0)

abbrev win2_1 : Pipeline.Window sig grid2 :=
  Pipeline.Window.whole (Memref.whole main_v20) false false (stage2_1 0) (sem2_1 0) (Memref.isWhole_whole _) (hstage2_1 0)

abbrev win2_2 : Pipeline.Window sig grid2 :=
  Pipeline.Window.whole (Memref.whole main_v24) false false (stage2_2 0) (sem2_2 0) (Memref.isWhole_whole _) (hstage2_2 0)

abbrev win2_3 : Pipeline.Window sig grid2 :=
  Pipeline.Window.whole (Memref.whole main_v53) false false (stage2_3 0) (sem2_3 0) (Memref.isWhole_whole _) (hstage2_3 0)

abbrev win2_4 : Pipeline.Window sig grid2 :=
  Pipeline.Window.whole (Memref.whole main_v54) false false (stage2_4 0) (sem2_4 0) (Memref.isWhole_whole _) (hstage2_4 0)

abbrev win2_5 : Pipeline.Window sig grid2 :=
  Pipeline.Window.whole (Memref.whole main_v55) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S256x2x1024 : Shape := ⟨3, ![256, 2, 1024]⟩
abbrev S256x2x3 : Shape := ⟨3, ![256, 2, 3]⟩
abbrev S256 : Shape := ⟨1, ![256]⟩
abbrev S80x256x3 : Shape := ⟨3, ![80, 256, 3]⟩
abbrev S80 : Shape := ⟨1, ![80]⟩
abbrev S256x81920 : Shape := ⟨2, ![256, 81920]⟩
abbrev S10x256 : Shape := ⟨2, ![10, 256]⟩
abbrev S10 : Shape := ⟨1, ![10]⟩
abbrev S_ : Shape := ⟨0, ![]⟩
abbrev S1x256 : Shape := ⟨2, ![1, 256]⟩
abbrev S1x80 : Shape := ⟨2, ![1, 80]⟩
abbrev S3x2x256 : Shape := ⟨3, ![3, 2, 256]⟩
abbrev S6x256 : Shape := ⟨2, ![6, 256]⟩
abbrev S3x256x80 : Shape := ⟨3, ![3, 256, 80]⟩
abbrev S256x80x1024 : Shape := ⟨3, ![256, 80, 1024]⟩
abbrev S1024x80x256 : Shape := ⟨3, ![1024, 80, 256]⟩
abbrev S81920x256 : Shape := ⟨2, ![81920, 256]⟩
abbrev S256x10 : Shape := ⟨2, ![256, 10]⟩
abbrev S256x1024x2 : Shape := ⟨3, ![256, 1024, 2]⟩
abbrev S256x1026x2 : Shape := ⟨3, ![256, 1026, 2]⟩
abbrev S256x1024x6 : Shape := ⟨3, ![256, 1024, 6]⟩
abbrev S256x1024x80 : Shape := ⟨3, ![256, 1024, 80]⟩
abbrev S1x1024x6 : Shape := ⟨3, ![1, 1024, 6]⟩
abbrev S1x1024x80 : Shape := ⟨3, ![1, 1024, 80]⟩
abbrev S1026x256 : Shape := ⟨2, ![1026, 256]⟩
abbrev S1024x6 : Shape := ⟨2, ![1024, 6]⟩
abbrev S1024x256 : Shape := ⟨2, ![1024, 256]⟩
abbrev S1x256x80 : Shape := ⟨3, ![1, 256, 80]⟩
abbrev S256x80 : Shape := ⟨2, ![256, 80]⟩
abbrev S1024x80 : Shape := ⟨2, ![1024, 80]⟩
abbrev S1x10 : Shape := ⟨2, ![1, 10]⟩
abbrev S256x8192 : Shape := ⟨2, ![256, 8192]⟩
abbrev S8192x256 : Shape := ⟨2, ![8192, 256]⟩
abbrev S256x256 : Shape := ⟨2, ![256, 256]⟩

abbrev nBuf : Space → Nat
  | .hbm => 62
  | .vmem => 21
  | .smem => 0
  | _ => 0

abbrev bufTy : (tb : Table) → Fin (tcTables nBuf tb) → BufTy
  | .hbm, ⟨0, _⟩ => ⟨S256x2x1024, .f32⟩
  | .hbm, ⟨1, _⟩ => ⟨S256x2x3, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S80x256x3, .f32⟩
  | .hbm, ⟨6, _⟩ => ⟨S80, .f32⟩
  | .hbm, ⟨7, _⟩ => ⟨S80, .f32⟩
  | .hbm, ⟨8, _⟩ => ⟨S80, .f32⟩
  | .hbm, ⟨9, _⟩ => ⟨S256x81920, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S10x256, .f32⟩
  | .hbm, ⟨14, _⟩ => ⟨S10, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S80, .f32⟩
  | .hbm, ⟨28, _⟩ => ⟨S80, .f32⟩
  | .hbm, ⟨29, _⟩ => ⟨S80, .f32⟩
  | .hbm, ⟨30, _⟩ => ⟨S80, .f32⟩
  | .hbm, ⟨31, _⟩ => ⟨S1x80, .f32⟩
  | .hbm, ⟨32, _⟩ => ⟨S1x80, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S1x256, .f32⟩
  | .hbm, ⟨42, _⟩ => ⟨S3x2x256, .f32⟩
  | .hbm, ⟨43, _⟩ => ⟨S6x256, .f32⟩
  | .hbm, ⟨44, _⟩ => ⟨S3x256x80, .f32⟩
  | .hbm, ⟨45, _⟩ => ⟨S256x80x1024, .f32⟩
  | .hbm, ⟨46, _⟩ => ⟨S1024x80x256, .f32⟩
  | .hbm, ⟨47, _⟩ => ⟨S81920x256, .f32⟩
  | .hbm, ⟨48, _⟩ => ⟨S81920x256, .bf16⟩
  | .hbm, ⟨49, _⟩ => ⟨S256x10, .f32⟩
  | .hbm, ⟨50, _⟩ => ⟨S256x1024x2, .f32⟩
  | .hbm, ⟨51, _⟩ => ⟨S_, .i32⟩
  | .hbm, ⟨52, _⟩ => ⟨S_, .f32⟩
  | .hbm, ⟨53, _⟩ => ⟨S256x1026x2, .f32⟩
  | .hbm, ⟨54, _⟩ => ⟨S256x1024x2, .f32⟩
  | .hbm, ⟨55, _⟩ => ⟨S256x1024x2, .f32⟩
  | .hbm, ⟨56, _⟩ => ⟨S256x1024x2, .f32⟩
  | .hbm, ⟨57, _⟩ => ⟨S256x1024x6, .f32⟩
  | .hbm, ⟨58, _⟩ => ⟨S256x1024x80, .f32⟩
  | .hbm, ⟨59, _⟩ => ⟨S256x81920, .f32⟩
  | .hbm, ⟨60, _⟩ => ⟨S1x10, .f32⟩
  | .hbm, ⟨61, _⟩ => ⟨S256x10, .f32⟩
  | .local _ .vmem, ⟨0, _⟩ => ⟨S1x1024x6, .f32⟩
  | .local _ .vmem, ⟨1, _⟩ => ⟨S1x1024x6, .f32⟩
  | .local _ .vmem, ⟨2, _⟩ => ⟨S6x256, .f32⟩
  | .local _ .vmem, ⟨3, _⟩ => ⟨S1x256, .f32⟩
  | .local _ .vmem, ⟨4, _⟩ => ⟨S1x256, .f32⟩
  | .local _ .vmem, ⟨5, _⟩ => ⟨S3x256x80, .f32⟩
  | .local _ .vmem, ⟨6, _⟩ => ⟨S1x80, .f32⟩
  | .local _ .vmem, ⟨7, _⟩ => ⟨S1x80, .f32⟩
  | .local _ .vmem, ⟨8, _⟩ => ⟨S1x1024x80, .f32⟩
  | .local _ .vmem, ⟨9, _⟩ => ⟨S1x1024x80, .f32⟩
  | .local _ .vmem, ⟨10, _⟩ => ⟨S1026x256, .f32⟩
  | .local _ .vmem, ⟨11, _⟩ => ⟨S256x8192, .f32⟩
  | .local _ .vmem, ⟨12, _⟩ => ⟨S256x8192, .f32⟩
  | .local _ .vmem, ⟨13, _⟩ => ⟨S8192x256, .bf16⟩
  | .local _ .vmem, ⟨14, _⟩ => ⟨S8192x256, .bf16⟩
  | .local _ .vmem, ⟨15, _⟩ => ⟨S1x256, .f32⟩
  | .local _ .vmem, ⟨16, _⟩ => ⟨S1x256, .f32⟩
  | .local _ .vmem, ⟨17, _⟩ => ⟨S256x10, .f32⟩
  | .local _ .vmem, ⟨18, _⟩ => ⟨S1x10, .f32⟩
  | .local _ .vmem, ⟨19, _⟩ => ⟨S256x10, .f32⟩
  | .local _ .vmem, ⟨20, _⟩ => ⟨S256x256, .f32⟩
  | _, _ => ⟨S256x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S256 : S_.BroadcastsInDim S256 (![] : Fin 0 → Fin S256.rank)
  shapeCasts_S256_S1x256 : S256.ShapeCasts S1x256
  bcast_S_S80 : S_.BroadcastsInDim S80 (![] : Fin 0 → Fin S80.rank)
  shapeCasts_S80_S1x80 : S80.ShapeCasts S1x80
  transposes_S256x2x3_S3x2x256_2_1_0 : S256x2x3.Transposes [2, 1, 0] S3x2x256
  shapeCasts_S3x2x256_S6x256 : S3x2x256.ShapeCasts S6x256
  transposes_S80x256x3_S3x256x80_2_1_0 : S80x256x3.Transposes [2, 1, 0] S3x256x80
  shapeCasts_S256x81920_S256x80x1024 : S256x81920.ShapeCasts S256x80x1024
  transposes_S256x80x1024_S1024x80x256_2_1_0 : S256x80x1024.Transposes [2, 1, 0] S1024x80x256
  shapeCasts_S1024x80x256_S81920x256 : S1024x80x256.ShapeCasts S81920x256
  bitsLt_bf16_f32 : FTy.bits .bf16 < FTy.bits .f32
  transposes_S10x256_S256x10_1_0 : S10x256.Transposes [1, 0] S256x10
  transposes_S256x2x1024_S256x1024x2_0_2_1 : S256x2x1024.Transposes [0, 2, 1] S256x1024x2
  pads_S256x1024x2_S256x1026x2_000_110_000 : S256x1024x2.Pads (![0, 1, 0] : Fin 3 → Nat) ![0, 1, 0] ![0, 0, 0] S256x1026x2
  h_S_ : 0 < S_.numel
  slices_S256x1026x2_S256x1024x2_0_0_0 : S256x1026x2.Slices ![0, 0, 0] S256x1024x2
  slices_S256x1026x2_S256x1024x2_0_1_0 : S256x1026x2.Slices ![0, 1, 0] S256x1024x2
  slices_S256x1026x2_S256x1024x2_0_2_0 : S256x1026x2.Slices ![0, 2, 0] S256x1024x2
  concatenates_S256x1024x2_S256x1024x2_S256x1024x2_S256x1024x6_d2 : Shape.Concatenates [S256x1024x2, S256x1024x2, S256x1024x2] S256x1024x6 2
  inb_S1x1024x6_S1x1024x6_0_0_0 : ∀ a, (![0, 0, 0] : Fin 3 → Nat) a + S1x1024x6.size a ≤ S1x1024x6.size a
  h_S1x1024x6 : 0 < S1x1024x6.numel
  shapeCasts_S1x1024x6_S1024x6 : S1x1024x6.ShapeCasts S1024x6
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1026x256_S1026x256_0_0 : ∀ a, (![0, 0] : Fin 2 → Nat) a + S1026x256.size a ≤ S1026x256.size a
  h_S1026x256 : 0 < S1026x256.numel
  shapeCasts_S1026x256_S1026x256 : S1026x256.ShapeCasts S1026x256
  inb_S1026x256_S1024x256_1_0 : ∀ a, (![1, 0] : Fin 2 → Nat) a + S1024x256.size a ≤ S1026x256.size a
  h_S1024x256 : 0 < S1024x256.numel
  shapeCasts_S1024x256_S1024x256 : S1024x256.ShapeCasts S1024x256
  inb_S1026x256_S1024x256_0_0 : ∀ a, (![0, 0] : Fin 2 → Nat) a + S1024x256.size a ≤ S1026x256.size a
  inb_S3x256x80_S1x256x80_0_0_0 : ∀ a, (![0, 0, 0] : Fin 3 → Nat) a + S1x256x80.size a ≤ S3x256x80.size a
  h_S1x256x80 : 0 < S1x256x80.numel
  shapeCasts_S1x256x80_S256x80 : S1x256x80.ShapeCasts S256x80
  inb_S3x256x80_S1x256x80_1_0_0 : ∀ a, (![1, 0, 0] : Fin 3 → Nat) a + S1x256x80.size a ≤ S3x256x80.size a
  inb_S1026x256_S1024x256_2_0 : ∀ a, (![2, 0] : Fin 2 → Nat) a + S1024x256.size a ≤ S1026x256.size a
  inb_S3x256x80_S1x256x80_2_0_0 : ∀ a, (![2, 0, 0] : Fin 3 → Nat) a + S1x256x80.size a ≤ S3x256x80.size a
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S1024x80 : S1x80.Broadcasts S1024x80
  inb_S1x1024x80_S1x1024x80_0_0_0 : ∀ a, (![0, 0, 0] : Fin 3 → Nat) a + S1x1024x80.size a ≤ S1x1024x80.size a
  h_S1x1024x80 : 0 < S1x1024x80.numel
  shapeCasts_S1x1024x80_S1024x80 : S1x1024x80.ShapeCasts S1024x80
  shapeCasts_S1024x80_S1x1024x80 : S1024x80.ShapeCasts S1x1024x80
  shapeCasts_S256x1024x80_S256x81920 : S256x1024x80.ShapeCasts S256x81920
  shapeCasts_S10_S1x10 : S10.ShapeCasts S1x10
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  broadcasts_S1x256_S256x256 : S1x256.Broadcasts S256x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  dot_S1024x6_S6x256_S1024x256_1_0_0_1_n_n_wf : DotDims.WF S1024x6 S6x256 S1024x256 [1] [0] [0] [1] [] []
  dot_S1024x256_S256x80_S1024x80_1_0_0_1_n_n_wf : DotDims.WF S1024x256 S256x80 S1024x80 [1] [0] [0] [1] [] []
  dot_S256x8192_S8192x256_S256x256_1_0_0_1_n_n_wf : DotDims.WF S256x8192 S8192x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x6.size a ≤ S256x1024x6.size a
  hwx0_0 : ∀ i : grid0.Coords, EltTy.bits .f32 = 32 ∨ (Rect.block (s := S256x1024x6) S1x1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x256.size a ≤ S6x256.size a
  hwx0_1 : ∀ i : grid0.Coords, EltTy.bits .f32 = 32 ∨ (Rect.block (s := S6x256) S6x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256x80.size a ≤ S3x256x80.size a
  hwx0_4 : ∀ i : grid0.Coords, EltTy.bits .f32 = 32 ∨ (Rect.block (s := S3x256x80) S3x256x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x80.size a ≤ S1x80.size a
  hwx0_6 : ∀ i : grid0.Coords, EltTy.bits .f32 = 32 ∨ (Rect.block (s := S1x80) S1x80.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x80.size a ≤ S256x1024x80.size a
  hwx0_7 : ∀ i : grid0.Coords, EltTy.bits .f32 = 32 ∨ (Rect.block (s := S256x1024x80) S1x1024x80.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S256x81920.size a
  hwx1_0 : ∀ i : grid1.Coords, EltTy.bits .f32 = 32 ∨ (Rect.block (s := S256x81920) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S81920x256.size a
  hwx1_1 : ∀ i : grid1.Coords, EltTy.bits .bf16 = 32 ∨ (Rect.block (s := S81920x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x10.size a ≤ S256x10.size a
  hwx1_4 : ∀ i : grid1.Coords, EltTy.bits .f32 = 32 ∨ (Rect.block (s := S256x10) S256x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x10.size a ≤ S256x10.size a
  hwx1_6 : ∀ i : grid1.Coords, EltTy.bits .f32 = 32 ∨ (Rect.block (s := S256x10) S256x10.size (cc1_transform_6 i) (hinb1_6 i)).WholeWords (EltTy.packing .f32)

variable [Facts₀]

def dot_S1024x6_S6x256_S1024x256_1_0_0_1_n_n : DotDims S1024x6 S6x256 S1024x256 where
  lhsContracting := [1]
  rhsContracting := [0]
  lhsNonContracting := [0]
  rhsNonContracting := [1]
  lhsBatch := []
  rhsBatch := []
  wf := dot_S1024x6_S6x256_S1024x256_1_0_0_1_n_n_wf
def dot_S1024x256_S256x80_S1024x80_1_0_0_1_n_n : DotDims S1024x256 S256x80 S1024x80 where
  lhsContracting := [1]
  rhsContracting := [0]
  lhsNonContracting := [0]
  rhsNonContracting := [1]
  lhsBatch := []
  rhsBatch := []
  wf := dot_S1024x256_S256x80_S1024x80_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v37) S1x1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S6x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S3x256x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x1024x80.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S256x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S256x10.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== Proof.KConv.lean ====
/-
  The first kernel region of the program: one batch element per grid point. The body reads the element's six
  shifted input rows [1,6,1024], the first convolution's weights [256,6] with its folded scale and shift columns
  [256,1], the second convolution's three taps stacked as [240,256] with their scale and shift columns [80,1], and
  stores one [1,80,1024] block: both convolutions, each followed by its affine map and a clamp at zero.
  Here: what the body leaves in the output block as a function of the seven input blocks, the body's run, and the
  proof data of the pipeline at any contents `V` of the buffers when the region is entered. Nothing is specific
  to a number format.
-/
import proofs.«177748_g2000301280579440_pallasbulk_580_2_alg».proof.Proof.Gen.Kernel.Launch
import proofs.«177748_g2000301280579440_pallasbulk_580_2_alg».proof.Proof.Gen.Kernel.Skeleton
import proofs.«177748_g2000301280579440_pallasbulk_580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: an
    unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: an
    unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there: an
    unfetched window's block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not it was fetched there: an
    unfetched window's block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether or not it was fetched there: an
    unfetched window's block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether or not it was fetched there: an
    unfetched window's block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S1x6x1024 := Rect.unit (s := S1x6x1024) ![0, 0, 0] S1x6x1024.size inb_S1x6x1024_S1x6x1024_0_0_0
abbrev r0_1 : Rect S256x6 := Rect.unit (s := S256x6) ![0, 0] S256x6.size inb_S256x6_S256x6_0_0
abbrev r0_2 : Rect S256x1 := Rect.unit (s := S256x1) ![0, 0] S256x1.size inb_S256x1_S256x1_0_0
abbrev r0_3 : Rect S256x1 := Rect.unit (s := S256x1) ![0, 0] S256x1.size inb_S256x1_S256x1_0_0
abbrev r0_4 : Rect S240x256 := Rect.unit (s := S240x256) ![0, 0] S240x256.size inb_S240x256_S240x256_0_0
abbrev r0_5 : Rect S80x1 := Rect.unit (s := S80x1) ![0, 0] S80x1.size inb_S80x1_S80x1_0_0
abbrev r0_6 : Rect S80x1 := Rect.unit (s := S80x1) ![0, 0] S80x1.size inb_S80x1_S80x1_0_0
abbrev r0_7 : Rect S1x80x1024 := Rect.unit (s := S1x80x1024) ![0, 0, 0] S1x80x1024.size inb_S1x80x1024_S1x80x1024_0_0_0

/-! ## What the body leaves in the output block -/

/-- The output block after the body, from the seven input blocks: its one store, of the body's value. -/
def out0_7 (x0 : Vec F S1x6x1024 .f32) (x1 : Vec F S256x6 .f32) (x2 : Vec F S256x1 .f32) (x3 : Vec F S256x1 .f32)
    (x4 : Vec F S240x256 .f32) (x5 : Vec F S80x1 .f32) (x6 : Vec F S80x1 .f32) : Vec F S1x80x1024 .bf16 :=
  View.canon [⟨r0_7, k0_pay1 (k0_pay2 (View.ld x1 r0_1) (View.ld x0 r0_0) (View.ld x2 r0_2) (View.ld x3 r0_3) (View.ld x4 r0_4) (View.ld x5 r0_5) (View.ld x6 r0_6))⟩]

/-- The one store takes the whole block. -/
theorem cover0_7 (p0 : Vec F S1x80x1024 .bf16) (y : S1x80x1024.Idx) :
    ∃ pc ∈ ([⟨r0_7, p0⟩] : List (View.Piece (Elt F) S1x80x1024 .bf16)), y ∈ pc.1.set :=
  View.cover_of_tiled [⟨r0_7, p0⟩] S1x80x1024.size (by rfl) y

/-! ## The body's run -/

set_option maxHeartbeats 4000000 in
/-- The body on whole staging buffers, the inputs' at contents `x0 … x6` and the output's at anything, runs to the
    continuation with the inputs' as they were and the output's at `out0_7` of them. -/
theorem sound_kernel0 (c : Dev nD) (E : Set ℕ) (i : grid0.Coords)
    (arg1 : Memref sig .tc .vmem S1x6x1024 .f32) (harg1 : arg1.IsWhole) (arg2 : Memref sig .tc .vmem S256x6 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S240x256 .f32) (harg5 : arg5.IsWhole) (arg6 : Memref sig .tc .vmem S80x1 .f32) (harg6 : arg6.IsWhole)
    (arg7 : Memref sig .tc .vmem S80x1 .f32) (harg7 : arg7.IsWhole) (arg8 : Memref sig .tc .vmem S1x80x1024 .bf16) (harg8 : arg8.IsWhole)
    (x0 : Vec F S1x6x1024 .f32) (x1 : Vec F S256x6 .f32) (x2 : Vec F S256x1 .f32) (x3 : Vec F S256x1 .f32)
    (x4 : Vec F S240x256 .f32) (x5 : Vec F S80x1 .f32) (x6 : Vec F S80x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__conv_kernel i arg1 harg1 arg2 harg2 arg3 harg3 arg4 harg4 arg5 harg5 arg6 harg6 arg7 harg7 arg8 harg8) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of this pipeline on core `c`: the arrays as the region finds them; after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the run above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.KFcRuns.lean ====
import proofs.«177748_g2000301280579440_pallasbulk_580_2_alg».proof.Proof.Gen.Kernel.Launch
import proofs.«177748_g2000301280579440_pallasbulk_580_2_alg».proof.Proof.Gen.Kernel.Skeleton
import proofs.«177748_g2000301280579440_pallasbulk_580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the first fully connected layer, grid 2 × 5): what its three control cases share -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional of the body (zero the accumulator), from the grid coordinates. -/
abbrev cond1_0 (i : grid1.Coords) : Prop := (Scalar.cmpi .ne (Scalar.extui (Scalar.cmpi .eq (BitVec.ofNat 32 (i 1).val) 0#32)) 0#32) = 1#1
/-- It holds where the inner coordinate is 0. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional of the body (copy the accumulator out). -/
abbrev cond1_1 (i : grid1.Coords) : Prop := k1_cond2 i = 1#1
/-- It holds where the inner coordinate is 4. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is not copied out, the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is copied out, the output window is live. -/
theorem liveAt1_2 : ∀ t : Fin cfg1.N, cond1_1 (grid1.coords t) → cfg1.idle 2 (grid1.coords t) = false := by decide +kernel

/-! ## The memrefs the body is called with -/

abbrev VO1_2 : View sig .tc .vmem S1x256x256 .f32 := (Memref.whole cc1_stg2_0 : Memref sig .tc .vmem S1x256x256 .f32).view
abbrev ms1_0 (t : Fin cfg1.N) : Memref sig .tc .vmem S256x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S256x256 .f32 := Memref.whole cc1_scratch0
abbrev VS1_0 : View sig .tc .vmem S256x256 .f32 := scM1_0.view

/-- The scoped buffers of the core other than the region's staging buffers and the accumulator, at some contents each. -/
def rest1 (c : Dev nD) : sProp 𝕄 :=
  Pipeline.scopedRestBut (Ix := Unit) (Name := ℕ) (U := UR sig nD τ) (Lvl := ℕ) (Val := Elt F) spec1 c [cc1_scratch0]

/-- The region's invariant with the accumulator split off as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole, Idealize.SL.BI.bigSepL_singleton]; try rfl

end Cert.Kernel.Hand

end
-- ==== Proof.KFcRunA.lean ====
/-
  Region 1 of the program (the first fully connected layer, grid 2 × 5), the body's run where the inner grid coordinate
  is 0: the accumulator, entering at anything, is zeroed and the product of the operand block and the weight block
  added onto it; nothing is copied to the output block, whose buffer is handed back as found.
-/
import proofs.«177748_g2000301280579440_pallasbulk_580_2_alg».proof.Proof.KFcRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 0 (the accumulator zeroed, then the block's product added; nothing copied
    out): on whole memrefs — the operands' at their blocks, the output's at contents handed back untouched, the
    accumulator at anything — it runs to the continuation holding the operands' as they were and the accumulator with
    the listed pieces written. The pieces are what the symbolic run of the body finds. -/
noncomputable def kernelRun1_A (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨[], ?_, fun xi2 E K => ?run⟩
  case run =>
    simp only [cc1__fc1_kernel_eq_skeleton]; unfold cc1__fc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KFcRunB.lean ====
/-
  Region 1 of the program (the first fully connected layer, grid 2 × 5), the body's run where the inner grid coordinate
  is 1, 2 or 3: the product of the operand block and the weight block is added onto the accumulator, entering at what
  the point before left; nothing is copied to the output block, whose buffer is handed back as found.
-/
import proofs.«177748_g2000301280579440_pallasbulk_580_2_alg».proof.Proof.KFcRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 1, 2 or 3 (the block's product added onto the accumulator; nothing copied
    out): the accumulator enters at the contents `xs0` the point before left. -/
noncomputable def kernelRun1_B (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨[], ?_, fun xi2 E K => ?run⟩
  case run =>
    simp only [cc1__fc1_kernel_eq_skeleton]; unfold cc1__fc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KFcRunC.lean ====
/-
  Region 1 of the program (the first fully connected layer, grid 2 × 5), the body's run where the inner grid coordinate
  is 4: the product of the operand block and the weight block is added onto the accumulator, entering at what the point
  before left, and the accumulator is copied to the output block, whose buffer enters at anything.
-/
import proofs.«177748_g2000301280579440_pallasbulk_580_2_alg».proof.Proof.KFcRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 4 (the block's product added onto the accumulator, then the accumulator
    copied to the output block): the accumulator enters at the contents `xs0` the point before left, the output's
    memref at anything. -/
noncomputable def kernelRun1_C (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) :
    Σ' (L2 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨?_, ?_, fun E K => ?run⟩
  case run =>
    simp only [cc1__fc1_kernel_eq_skeleton]; unfold cc1__fc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KFc.lean ====
import proofs.«177748_g2000301280579440_pallasbulk_580_2_alg».proof.Proof.KFcRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the first fully connected layer — proof data, body obligation, invariant -/

section Region1
variable (V : (c : Dev nD) → (b : Ref sig .tc) → Buf (Elt F) ((c : Thread nD τ).loc b))

/-! ## What each case leaves in the accumulator and in the output block -/

/-- Inner coordinate 0: the pieces written into the accumulator cover it. -/
theorem scover1_A_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) (y : S256x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S256x256.size (by sl_kernel_rfl) y

/-- Inner coordinate 0: what the accumulator holds afterwards. -/
def sout1_A_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) : Vec F S256x256 .f32 :=
  VS1_0.read (Elt F) (VS1_0.writes (Elt F) VS1_0.junk (kernelRun1_A c i arg2 harg2 arg3 harg3 arg4 harg4 arg5 harg5 hc0 hc1 x0 x1).2.1)

/-- Inner coordinate 1, 2, 3: the pieces written into the accumulator cover it. -/
theorem scover1_B_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) (y : S256x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S256x256.size (by sl_kernel_rfl) y

/-- Inner coordinate 1, 2, 3: what the accumulator holds afterwards, over what it held. -/
def sout1_B_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) : Vec F S256x256 .f32 :=
  VS1_0.read (Elt F) (VS1_0.writes (Elt F) VS1_0.junk (kernelRun1_B c i arg2 harg2 arg3 harg3 arg4 harg4 arg5 harg5 hc0 hc1 x0 x1 xs0).2.1)

/-- Inner coordinate 4: the pieces written into the output block cover it. -/
theorem cover1_C_2 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) (y : S1x256x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x256x256.size (by sl_kernel_rfl) y

/-- Inner coordinate 4: what the output block holds afterwards. -/
def out1_C_2 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) : Vec F S1x256x256 .f32 :=
  VO1_2.read (Elt F) (VO1_2.writes (Elt F) VO1_2.junk (kernelRun1_C c i arg2 harg2 arg3 harg3 arg4 harg4 arg5 harg5 hc0 hc1 x0 x1 xs0).1)

/-- Inner coordinate 4: the pieces written into the accumulator cover it. -/
theorem scover1_C_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) (y : S256x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S256x256.size (by sl_kernel_rfl) y

/-- Inner coordinate 4: what the accumulator holds afterwards, over what it held. -/
def sout1_C_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) : Vec F S256x256 .f32 :=
  VS1_0.read (Elt F) (VS1_0.writes (Elt F) VS1_0.junk (kernelRun1_C c i arg2 harg2 arg3 harg3 arg4 harg4 arg5 harg5 hc0 hc1 x0 x1 xs0).2.1)

/-- A placeholder for the output block where the body stores nothing into it: nothing consults it there (the window
    is idle and not written back). -/
def idleOut1 : Vec F S1x256x256 .f32 := VO1_2.read (Elt F) VO1_2.junk

/-! ## What the output block and the accumulator hold after each point -/

/-- After a point with inner coordinate 0. -/
def ptA (c : Dev nD) (t : Fin cfg1.N) (h0 : t.val % 5 = 0) : Vec F S1x256x256 .f32 × Vec F S256x256 .f32 :=
  (idleOut1, sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))

/-- After a point with inner coordinate 1, 2 or 3, the accumulator having held `acc`. -/
def ptB (c : Dev nD) (t : Fin cfg1.N) (h0 : ¬t.val % 5 = 0) (h1 : ¬t.val % 5 = 4) (acc : Vec F S256x256 .f32) : Vec F S1x256x256 .f32 × Vec F S256x256 .f32 :=
  (idleOut1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) acc)

/-- After a point with inner coordinate 4, the accumulator having held `acc`. -/
def ptC (c : Dev nD) (t : Fin cfg1.N) (h0 : ¬t.val % 5 = 0) (h1 : t.val % 5 = 4) (acc : Vec F S256x256 .f32) : Vec F S1x256x256 .f32 × Vec F S256x256 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc)

/-- THE ACCUMULATION: the output block and the accumulator after the body at position `n`. The accumulator restarts
    wherever the inner coordinate is 0. -/
def outsAt1 (c : Dev nD) : (n : ℕ) → n < cfg1.N → Vec F S1x256x256 .f32 × Vec F S256x256 .f32
  | 0, hn => ptA V c ⟨0, hn⟩ (Nat.zero_mod _)
  | n + 1, hn =>
    if h0 : (n + 1) % 5 = 0 then ptA V c ⟨n + 1, hn⟩ h0
    else if h1 : (n + 1) % 5 = 4 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 5 = 0) :
    outsAt1 V c t.val t.isLt = ptA V c t h0 := by
  obtain ⟨n, hn⟩ := t
  cases n with
  | zero => rfl
  | succ n => exact dif_pos h0

theorem outsAt1_B (c : Dev nD) (t : Fin cfg1.N) (h0 : ¬t.val % 5 = 0) (h1 : ¬t.val % 5 = 4) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 5 = 0) (h1 : t.val % 5 = 4) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region's invariant before position `n`: before the first point what the launch hands over; afterwards the
    accumulator at what the point before left in it, the other scoped buffers at anything, the generator register at
    some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ rest1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of the region on core `c`: the arrays as the region finds them (`V`); after the body at point `t`
    each operand's buffer at its block and the output's at `outsAt1`; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at a point with inner coordinate 0: the accumulator is handed over at anything (at the region's first
    point by the launch's invariant, later at what the point before left, forgotten) and taken back at this point's
    contents; the output's buffer is handed back as found. -/
theorem sound_body1_A (c : Dev nD) (t : Fin cfg1.N) (h0 : t.val % 5 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : ¬cond1_1 (grid1.coords t) := fun h => by have := (hcond1_1 t).mp h; omega
  rw [Dat.leavesExact_idle (dat1 V c) 2 t (idleAt1_2 t hc1) (noFlush1_2 t hc1)]
  rw [outsAt1_A V c t h0]
  unfold ptA sout1_A_0; (try dsimp only)
  by_cases hz : t.val = 0
  · rw [PhiS_castSucc V c t, PhiS_zero V c _ _ hz, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_0 t).mpr h0) hc1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ )
        iexact HR
      iexact Hg
    isplitl [Ho]; · iexact Ho
    isplitl [H0]; · iexact H0
    isplitl [H1]; · iexact H1
    iexists _; iexact H2
  · rw [PhiS_castSucc V c t, PhiS_pos V c _ _ hz]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_0 t).mpr h0) hc1 (iblk1 V c 0 t) (iblk1 V c 1 t)).2.2 _ Set.univ _)
    isplitl [H0]; · iexact H0
    isplitl [H1]; · iexact H1
    isplitl [H2]; · iexact H2
    isplitl [HS0]; · iexists _; iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ )
        iexact HR
      iexact Hg
    isplitl [Ho]; · iexact Ho
    isplitl [H0]; · iexact H0
    isplitl [H1]; · iexact H1
    iexists _; iexact H2

set_option maxHeartbeats 4800000 in
/-- The body at a point with inner coordinate 1, 2 or 3: the accumulator is handed over at what the point before left
    and taken back at this point's contents; the output's buffer is handed back as found. -/
theorem sound_body1_B (c : Dev nD) (t : Fin cfg1.N) (h0 : ¬t.val % 5 = 0) (h1 : ¬t.val % 5 = 4) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : ¬cond1_1 (grid1.coords t) := fun h => h1 ((hcond1_1 t).mp h)
  have hz : t.val ≠ 0 := fun h => h0 (by rw [h])
  rw [Dat.leavesExact_idle (dat1 V c) 2 t (idleAt1_2 t hc1) (noFlush1_2 t hc1)]
  rw [outsAt1_B V c t h0 h1]
  unfold ptB sout1_B_0; (try dsimp only)
  rw [PhiS_castSucc V c t, PhiS_pos V c _ _ hz]
  iintro ⟨⟨⟨HS0, HR⟩, Hg⟩, Ho, ⟨%d0, H0⟩, ⟨%d1, H1⟩, ⟨%d2, H2⟩⟩
  iapply ((kernelRun1_B c (grid1.coords t) _ _ _ _ _ _ _ _ (fun h => h0 ((hcond1_0 t).mp h)) hc1 (iblk1 V c 0 t) (iblk1 V c 1 t) _).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_B_0 c _ _ _ _ _ _ _ _ _ _ _ _ _ _ )
      iexact HR
    iexact Hg
  isplitl [Ho]; · iexact Ho
  isplitl [H0]; · iexact H0
  isplitl [H1]; · iexact H1
  iexists _; iexact H2

set_option maxHeartbeats 4800000 in
/-- The body at a point with inner coordinate 4: the accumulator is handed over at what the point before left and taken
    back at this point's contents; the output's buffer, at anything, is taken back at the copied accumulator. -/
theorem sound_body1_C (c : Dev nD) (t : Fin cfg1.N) (h0 : ¬t.val % 5 = 0) (h1 : t.val % 5 = 4) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : cond1_1 (grid1.coords t) := (hcond1_1 t).mpr h1
  have hz : t.val ≠ 0 := fun h => h0 (by rw [h])
  rw [show (dat1 V c).leavesExact 2 t = owns (c : Thread nD τ) (ms1_2 t) fullShare ((dat1 V c).after 2 t) from by
    unfold Dat.leavesExact; rw [liveAt1_2 t hc1], after1_2]
  rw [outsAt1_C V c t h0 h1]
  unfold ptC out1_C_2 sout1_C_0; (try dsimp only)
  rw [PhiS_castSucc V c t, PhiS_pos V c _ _ hz]
  iintro ⟨⟨⟨HS0, HR⟩, Hg⟩, Ho, ⟨%d0, H0⟩, ⟨%d1, H1⟩, ⟨%d2, H2⟩⟩
  iapply ((kernelRun1_C c (grid1.coords t) _ _ _ _ _ _ _ _ (fun h => h0 ((hcond1_0 t).mp h)) hc1 (iblk1 V c 0 t) (iblk1 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_C_0 c _ _ _ _ _ _ _ _ _ _ _ _ _ _)
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_C_2 c _ _ _ _ _ _ _ _ _ _ _ _ _ _)

/-- The body at any point, by the inner coordinate. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 5 = 0
  · exact sound_body1_A V c t h0
  · by_cases h1 : t.val % 5 = 4
    · exact sound_body1_C V c t h0 h1
    · exact sound_body1_B V c t h0 h1

/-! ## The body obligation at every point, and the invariant at the region's entry and exit -/

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 10 := N_1; omega)

end Region1

end Cert.Kernel.Hand

end
-- ==== Proof.KHead.lean ====
/-
  The last kernel region of the program: one call, no grid. The body adds the two partial sums [2,256,256] of the
  wide layer, applies the folded scale and shift rows [1,256] and a clamp at zero, multiplies by the last layer's
  weights [256,10], adds the bias row [1,10] and clamps at zero: one store of the whole [256,10] result.
  Here: what the body leaves in the result block as a function of the five input blocks, the body's run, and the
  proof data of the pipeline at any contents `V` of the buffers when the region is entered. Nothing is specific
  to a number format.
-/
import proofs.«177748_g2000301280579440_pallasbulk_580_2_alg».proof.Proof.Gen.Kernel.Launch
import proofs.«177748_g2000301280579440_pallasbulk_580_2_alg».proof.Proof.Gen.Kernel.Skeleton
import proofs.«177748_g2000301280579440_pallasbulk_580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at the point it is handed to the body. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at the point it is handed to the body. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at the point it is handed to the body. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at the point it is handed to the body. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at the point it is handed to the body. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the two halves of the partial sums, the other buffers whole -/

abbrev r2_0a : Rect S2x256x256 := Rect.unit (s := S2x256x256) ![0, 0, 0] S1x256x256.size inb_S2x256x256_S1x256x256_0_0_0
abbrev r2_0b : Rect S2x256x256 := Rect.unit (s := S2x256x256) ![1, 0, 0] S1x256x256.size inb_S2x256x256_S1x256x256_1_0_0
abbrev r2_1 : Rect S1x256 := Rect.unit (s := S1x256) ![0, 0] S1x256.size inb_S1x256_S1x256_0_0
abbrev r2_3 : Rect S256x10 := Rect.unit (s := S256x10) ![0, 0] S256x10.size inb_S256x10_S256x10_0_0
abbrev r2_4 : Rect S1x10 := Rect.unit (s := S1x10) ![0, 0] S1x10.size inb_S1x10_S1x10_0_0

/-! ## What the body leaves in the result block -/

/-- The result block after the body, from the five input blocks: its one store, of the body's value. -/
def out2_5 (x0 : Vec F S2x256x256 .f32) (x1 : Vec F S1x256 .f32) (x2 : Vec F S1x256 .f32) (x3 : Vec F S256x10 .f32)
    (x4 : Vec F S1x10 .f32) : Vec F S256x10 .f32 :=
  View.canon [⟨r2_3, k2_pay1 (View.ld x0 r2_0a) (View.ld x0 r2_0b) (View.ld x1 r2_1) (View.ld x2 r2_1) (View.ld x3 r2_3) (View.ld x4 r2_4)⟩]

/-- The one store takes the whole block. -/
theorem cover2_5 (p0 : Vec F S256x10 .f32) (y : S256x10.Idx) :
    ∃ pc ∈ ([⟨r2_3, p0⟩] : List (View.Piece (Elt F) S256x10 .f32)), y ∈ pc.1.set :=
  View.cover_of_tiled [⟨r2_3, p0⟩] S256x10.size (by rfl) y

/-! ## The body's run -/

set_option maxHeartbeats 4000000 in
/-- The body on whole staging buffers, the inputs' at contents `x0 … x4` and the result's at anything, runs to the
    continuation with the inputs' as they were and the result's at `out2_5` of them. -/
theorem sound_kernel2 (c : Dev nD) (E : Set ℕ)
    (arg0 : Memref sig .tc .vmem S2x256x256 .f32) (harg0 : arg0.IsWhole) (arg1 : Memref sig .tc .vmem S1x256 .f32) (harg1 : arg1.IsWhole)
    (arg2 : Memref sig .tc .vmem S1x256 .f32) (harg2 : arg2.IsWhole) (arg3 : Memref sig .tc .vmem S256x10 .f32) (harg3 : arg3.IsWhole)
    (arg4 : Memref sig .tc .vmem S1x10 .f32) (harg4 : arg4.IsWhole) (arg5 : Memref sig .tc .vmem S256x10 .f32) (harg5 : arg5.IsWhole)
    (x0 : Vec F S2x256x256 .f32) (x1 : Vec F S1x256 .f32) (x2 : Vec F S1x256 .f32) (x3 : Vec F S256x10 .f32) (x4 : Vec F S1x10 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__head_kernel arg0 harg0 arg1 harg1 arg2 harg2 arg3 harg3 arg4 harg4 arg5 harg5) K := by
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body each input's
    buffer at its block and the result's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at the point: the inputs' buffers hold their blocks, so the run above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at the one point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.KRun.lean ====
/-
  The whole program as a chain of segments: three stretches of host operations, the convolution region, a reshape,
  the wide-layer region, two more host operations, the head region. The buffers' contents at each boundary are a
  fold from the launch memory: a host stretch applies its operations, a region replaces its arrays by what its
  pipeline leaves in them. Every weakly fair execution then ends with every unscoped buffer at the last boundary's
  contents; in particular each argument as launched, and the result buffer at what the head region wrote.
  Nothing here is specific to a number format.
-/
import proofs.«177748_g2000301280579440_pallasbulk_580_2_alg».proof.Proof.Gen.Kernel.Regions
import proofs.«177748_g2000301280579440_pallasbulk_580_2_alg».proof.Proof.KConv
import proofs.«177748_g2000301280579440_pallasbulk_580_2_alg».proof.Proof.KFc
import proofs.«177748_g2000301280579440_pallasbulk_580_2_alg».proof.Proof.KHead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- At region 0's exit: its arrays at what the pipeline leaves in them (an input as entered, the output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- At region 1's exit: its arrays at what the pipeline leaves in them (an input as entered, the output's
    write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- At region 2's exit: its arrays at what the pipeline leaves in them (an input as entered, the output's
    write-backs folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## The arguments end as launched -/

/-- A buffer that no host stretch writes and that is no array of any region reaches the end as launched. -/
theorem W8_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W)
    (h7 : ∀ w, Pipeline.arrRef spec2 w ≠ r) : W8 m ρ c (Proc.devRef .tc r) = m ((c : Thread nD τ).loc r) :=
  (W8_of_ne m ρ c r h7).trans <| (W7_of m ρ c r h6).trans <| (W6_of_ne m ρ c r h5).trans <| (W5_of m ρ c r h4).trans <|
    (W4_of_ne m ρ c r h3).trans <| (W3_of m ρ c r h2).trans <| (W2_of m ρ c r h1).trans <| (W1_of m ρ c r h0).trans rfl

/-- The wide layer's weights are an input array of the second region, which leaves it as it found it. -/
theorem W8_main_arg9 (c : Dev nD) : W8 m ρ c (Proc.devRef .tc main_arg9) = m ((c : Thread nD τ).loc main_arg9) :=
  (W8_of_ne m ρ c main_arg9 (by decide)).trans <| (W7_of m ρ c main_arg9 (by decide)).trans <|
    ((W6_arr m ρ c 1).trans (((dat1 (V5 m ρ) c).arrAt_in 1 rfl _).trans (A_eq1 (V5 m ρ) c 1))).trans <|
    (W5_of m ρ c main_arg9 (by decide)).trans <| (W4_of_ne m ρ c main_arg9 (by decide)).trans <| (W3_of m ρ c main_arg9 (by decide)).trans <|
    (W2_of m ρ c main_arg9 (by decide)).trans <| (W1_of m ρ c main_arg9 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W3`, left at `W4`. Its arrays are split
    out of the unscoped buffers and put back at what the pipeline leaves in them; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec0 c) ⊢ Pipeline.ΦA spec0 c := fun P => by
      unfold Pipeline.ΦA
      iintro ⟨Hp, -, Hr⟩
      isplitl [Hr]; · iexact Hr
      iexact Hp
    exact (h1 _).trans (show Pipeline.ΦA spec0 c ⊢ (pdats m ρ 0 c).Φ 0 from hin0 (V3 m ρ) c)
  hout c := by
    rw [Pipeline.ownSems0_none]
    have h1 : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V3 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at what the pipeline leaves in them; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec1 c) ⊢ Pipeline.ΦA spec1 c := fun P => by
      unfold Pipeline.ΦA
      iintro ⟨Hp, -, Hr⟩
      isplitl [Hr]; · iexact Hr
      iexact Hp
    exact (h1 _).trans (show Pipeline.ΦA spec1 c ⊢ (pdats m ρ 1 c).Φ 0 from hin1 (V5 m ρ) c)
  hout c := by
    rw [Pipeline.ownSems0_none]
    have h1 : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V5 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at what the pipeline leaves in them; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec2 c) ⊢ Pipeline.ΦA spec2 c := fun P => by
      unfold Pipeline.ΦA
      iintro ⟨Hp, -, Hr⟩
      isplitl [Hr]; · iexact Hr
      iexact Hp
    exact (h1 _).trans (show Pipeline.ΦA spec2 c ⊢ (pdats m ρ 2 c).Φ 0 from hin2 (V7 m ρ) c)
  hout c := by
    rw [Pipeline.ownSems0_none]
    have h1 : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (show (pdats m ρ 2 c).Φ (Fin.last _) ⊢ Pipeline.ΦA spec2 c from hout2 (V7 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The run with the result named: the result buffer ends at the last boundary's contents, each argument as launched. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v55 (by decide)),
    (h c _ (mem_uc main_arg0 (by decide))).trans (W8_untouched m ρ c main_arg0 (by decide) (by decide) (by decide) (by decide) (by decide) (by decide) (by decide) (by decide)),
    (h c _ (mem_uc main_arg1 (by decide))).trans (W8_untouched m ρ c main_arg1 (by decide) (by decide) (by decide) (by decide) (by decide) (by decide) (by decide) (by decide)),
    (h c _ (mem_uc main_arg2 (by decide))).trans (W8_untouched m ρ c main_arg2 (by decide) (by decide) (by decide) (by decide) (by decide) (by decide) (by decide) (by decide)),
    (h c _ (mem_uc main_arg3 (by decide))).trans (W8_untouched m ρ c main_arg3 (by decide) (by decide) (by decide) (by decide) (by decide) (by decide) (by decide) (by decide)),
    (h c _ (mem_uc main_arg4 (by decide))).trans (W8_untouched m ρ c main_arg4 (by decide) (by decide) (by decide) (by decide) (by decide) (by decide) (by decide) (by decide)),
    (h c _ (mem_uc main_arg5 (by decide))).trans (W8_untouched m ρ c main_arg5 (by decide) (by decide) (by decide) (by decide) (by decide) (by decide) (by decide) (by decide)),
    (h c _ (mem_uc main_arg6 (by decide))).trans (W8_untouched m ρ c main_arg6 (by decide) (by decide) (by decide) (by decide) (by decide) (by decide) (by decide) (by decide)),
    (h c _ (mem_uc main_arg7 (by decide))).trans (W8_untouched m ρ c main_arg7 (by decide) (by decide) (by decide) (by decide) (by decide) (by decide) (by decide) (by decide)),
    (h c _ (mem_uc main_arg8 (by decide))).trans (W8_untouched m ρ c main_arg8 (by decide) (by decide) (by decide) (by decide) (by decide) (by decide) (by decide) (by decide)),
    (h c _ (mem_uc main_arg9 (by decide))).trans (W8_main_arg9 m ρ c),
    (h c _ (mem_uc main_arg10 (by decide))).trans (W8_untouched m ρ c main_arg10 (by decide) (by decide) (by decide) (by decide) (by decide) (by decide) (by decide) (by decide)),
    (h c _ (mem_uc main_arg11 (by decide))).trans (W8_untouched m ρ c main_arg11 (by decide) (by decide) (by decide) (by decide) (by decide) (by decide) (by decide) (by decide)),
    (h c _ (mem_uc main_arg12 (by decide))).trans (W8_untouched m ρ c main_arg12 (by decide) (by decide) (by decide) (by decide) (by decide) (by decide) (by decide) (by decide)),
    (h c _ (mem_uc main_arg13 (by decide))).trans (W8_untouched m ρ c main_arg13 (by decide) (by decide) (by decide) (by decide) (by decide) (by decide) (by decide) (by decide)),
    (h c _ (mem_uc main_arg14 (by decide))).trans (W8_untouched m ρ c main_arg14 (by decide) (by decide) (by decide) (by decide) (by decide) (by decide) (by decide) (by decide))⟩)
    (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run m ρ)

end Cert.Kernel.Hand

end
-- ==== Proof.KIConv.lean ====
/-
  The first kernel region of the program: one batch element per grid point. The body reads the element's six
  shifted input rows [1,6,1024], the first convolution's weights [256,6] with its folded scale and shift columns
  [256,1], the second convolution's three taps stacked as [240,256] with their scale and shift columns [80,1], and
  stores one [1,80,1024] block: both convolutions, each followed by its affine map and a clamp at zero.
  Here: what the body leaves in the output block as a function of the seven input blocks, the body's run, and the
  proof data of the pipeline at any contents `V` of the buffers when the region is entered. Nothing is specific
  to a number format.
-/
import proofs.«177748_g2000301280579440_pallasbulk_580_2_alg».proof.Proof.Gen.KernelIdeal.Launch
import proofs.«177748_g2000301280579440_pallasbulk_580_2_alg».proof.Proof.Gen.KernelIdeal.Skeleton
import proofs.«177748_g2000301280579440_pallasbulk_580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: an
    unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: an
    unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there: an
    unfetched window's block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not it was fetched there: an
    unfetched window's block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether or not it was fetched there: an
    unfetched window's block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether or not it was fetched there: an
    unfetched window's block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S1x6x1024 := Rect.unit (s := S1x6x1024) ![0, 0, 0] S1x6x1024.size inb_S1x6x1024_S1x6x1024_0_0_0
abbrev r0_1 : Rect S256x6 := Rect.unit (s := S256x6) ![0, 0] S256x6.size inb_S256x6_S256x6_0_0
abbrev r0_2 : Rect S256x1 := Rect.unit (s := S256x1) ![0, 0] S256x1.size inb_S256x1_S256x1_0_0
abbrev r0_3 : Rect S256x1 := Rect.unit (s := S256x1) ![0, 0] S256x1.size inb_S256x1_S256x1_0_0
abbrev r0_4 : Rect S240x256 := Rect.unit (s := S240x256) ![0, 0] S240x256.size inb_S240x256_S240x256_0_0
abbrev r0_5 : Rect S80x1 := Rect.unit (s := S80x1) ![0, 0] S80x1.size inb_S80x1_S80x1_0_0
abbrev r0_6 : Rect S80x1 := Rect.unit (s := S80x1) ![0, 0] S80x1.size inb_S80x1_S80x1_0_0
abbrev r0_7 : Rect S1x80x1024 := Rect.unit (s := S1x80x1024) ![0, 0, 0] S1x80x1024.size inb_S1x80x1024_S1x80x1024_0_0_0

/-! ## What the body leaves in the output block -/

/-- The output block after the body, from the seven input blocks: its one store, of the body's value. -/
def out0_7 (x0 : Vec F S1x6x1024 .f32) (x1 : Vec F S256x6 .f32) (x2 : Vec F S256x1 .f32) (x3 : Vec F S256x1 .f32)
    (x4 : Vec F S240x256 .f32) (x5 : Vec F S80x1 .f32) (x6 : Vec F S80x1 .f32) : Vec F S1x80x1024 .bf16 :=
  View.canon [⟨r0_7, k0_pay1 (k0_pay2 (View.ld x1 r0_1) (View.ld x0 r0_0) (View.ld x2 r0_2) (View.ld x3 r0_3) (View.ld x4 r0_4) (View.ld x5 r0_5) (View.ld x6 r0_6))⟩]

/-- The one store takes the whole block. -/
theorem cover0_7 (p0 : Vec F S1x80x1024 .bf16) (y : S1x80x1024.Idx) :
    ∃ pc ∈ ([⟨r0_7, p0⟩] : List (View.Piece (Elt F) S1x80x1024 .bf16)), y ∈ pc.1.set :=
  View.cover_of_tiled [⟨r0_7, p0⟩] S1x80x1024.size (by rfl) y

/-! ## The body's run -/

set_option maxHeartbeats 4000000 in
/-- The body on whole staging buffers, the inputs' at contents `x0 … x6` and the output's at anything, runs to the
    continuation with the inputs' as they were and the output's at `out0_7` of them. -/
theorem sound_kernel0 (c : Dev nD) (E : Set ℕ) (i : grid0.Coords)
    (arg1 : Memref sig .tc .vmem S1x6x1024 .f32) (harg1 : arg1.IsWhole) (arg2 : Memref sig .tc .vmem S256x6 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S240x256 .f32) (harg5 : arg5.IsWhole) (arg6 : Memref sig .tc .vmem S80x1 .f32) (harg6 : arg6.IsWhole)
    (arg7 : Memref sig .tc .vmem S80x1 .f32) (harg7 : arg7.IsWhole) (arg8 : Memref sig .tc .vmem S1x80x1024 .bf16) (harg8 : arg8.IsWhole)
    (x0 : Vec F S1x6x1024 .f32) (x1 : Vec F S256x6 .f32) (x2 : Vec F S256x1 .f32) (x3 : Vec F S256x1 .f32)
    (x4 : Vec F S240x256 .f32) (x5 : Vec F S80x1 .f32) (x6 : Vec F S80x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E
          (cc0__conv_kernel i arg1 harg1 arg2 harg2 arg3 harg3 arg4 harg4 arg5 harg5 arg6 harg6 arg7 harg7 arg8 harg8) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of this pipeline on core `c`: the arrays as the region finds them; after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the run above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KIFcRuns.lean ====
import proofs.«177748_g2000301280579440_pallasbulk_580_2_alg».proof.Proof.Gen.KernelIdeal.Launch
import proofs.«177748_g2000301280579440_pallasbulk_580_2_alg».proof.Proof.Gen.KernelIdeal.Skeleton
import proofs.«177748_g2000301280579440_pallasbulk_580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the first fully connected layer, grid 2 × 5): what its three control cases share -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional of the body (zero the accumulator), from the grid coordinates. -/
abbrev cond1_0 (i : grid1.Coords) : Prop := (Scalar.cmpi .ne (Scalar.extui (Scalar.cmpi .eq (BitVec.ofNat 32 (i 1).val) 0#32)) 0#32) = 1#1
/-- It holds where the inner coordinate is 0. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional of the body (copy the accumulator out). -/
abbrev cond1_1 (i : grid1.Coords) : Prop := k1_cond2 i = 1#1
/-- It holds where the inner coordinate is 4. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the accumulator is not copied out, the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is copied out, the output window is live. -/
theorem liveAt1_2 : ∀ t : Fin cfg1.N, cond1_1 (grid1.coords t) → cfg1.idle 2 (grid1.coords t) = false := by decide +kernel

/-! ## The memrefs the body is called with -/

abbrev VO1_2 : View sig .tc .vmem S1x256x256 .f32 := (Memref.whole cc1_stg2_0 : Memref sig .tc .vmem S1x256x256 .f32).view
abbrev ms1_0 (t : Fin cfg1.N) : Memref sig .tc .vmem S256x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S256x256 .f32 := Memref.whole cc1_scratch0
abbrev VS1_0 : View sig .tc .vmem S256x256 .f32 := scM1_0.view

/-- The scoped buffers of the core other than the region's staging buffers and the accumulator, at some contents each. -/
def rest1 (c : Dev nD) : sProp 𝕄 :=
  Pipeline.scopedRestBut (Ix := Unit) (Name := ℕ) (U := UR sig nD τ) (Lvl := ℕ) (Val := Elt F) spec1 c [cc1_scratch0]

/-- The region's invariant with the accumulator split off as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole, Idealize.SL.BI.bigSepL_singleton]; try rfl

end Cert.KernelIdeal.Hand

end
-- ==== Proof.KIFcRunA.lean ====
/-
  Region 1 of the program (the first fully connected layer, grid 2 × 5), the body's run where the inner grid coordinate
  is 0: the accumulator, entering at anything, is zeroed and the product of the operand block and the weight block
  added onto it; nothing is copied to the output block, whose buffer is handed back as found.
-/
import proofs.«177748_g2000301280579440_pallasbulk_580_2_alg».proof.Proof.KIFcRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 0 (the accumulator zeroed, then the block's product added; nothing copied
    out): on whole memrefs — the operands' at their blocks, the output's at contents handed back untouched, the
    accumulator at anything — it runs to the continuation holding the operands' as they were and the accumulator with
    the listed pieces written. The pieces are what the symbolic run of the body finds. -/
noncomputable def kernelRun1_A (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨[], ?_, fun xi2 E K => ?run⟩
  case run =>
    simp only [cc1__fc1_kernel_eq_skeleton]; unfold cc1__fc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIFcRunB.lean ====
/-
  Region 1 of the program (the first fully connected layer, grid 2 × 5), the body's run where the inner grid coordinate
  is 1, 2 or 3: the product of the operand block and the weight block is added onto the accumulator, entering at what
  the point before left; nothing is copied to the output block, whose buffer is handed back as found.
-/
import proofs.«177748_g2000301280579440_pallasbulk_580_2_alg».proof.Proof.KIFcRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 1, 2 or 3 (the block's product added onto the accumulator; nothing copied
    out): the accumulator enters at the contents `xs0` the point before left. -/
noncomputable def kernelRun1_B (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) :
    Σ' (L2 : List (View.Piece (Elt F) S1x256x256 .f32)), { LS0 : List (View.Piece (Elt F) S256x256 .f32) //
      ∀ (xi2 : Vec F S1x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨[], ?_, fun xi2 E K => ?run⟩
  case run =>
    simp only [cc1__fc1_kernel_eq_skeleton]; unfold cc1__fc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KIFcRunC.lean ====
/-
  Region 1 of the program (the first fully connected layer, grid 2 × 5), the body's run where the inner grid coordinate
  is 4: the product of the operand block and the weight block is added onto the accumulator, entering at what the point
  before left, and the accumulator is copied to the output block, whose buffer enters at anything.
-/
import proofs.«177748_g2000301280579440_pallasbulk_580_2_alg».proof.Proof.KIFcRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the inner coordinate is 4 (the block's product added onto the accumulator, then the accumulator
    copied to the output block): the accumulator enters at the contents `xs0` the point before left, the output's
    memref at anything. -/
noncomputable def kernelRun1_C (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) :
    Σ' (L2 : List (View.Piece (Elt F) S1x256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__fc1_kernel i arg2 harg2 arg3 harg3 arg4 harg4 arg5 harg5) K } := by
  refine ⟨?_, ?_, fun E K => ?run⟩
  case run =>
    simp only [cc1__fc1_kernel_eq_skeleton]; unfold cc1__fc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIFc.lean ====
import proofs.«177748_g2000301280579440_pallasbulk_580_2_alg».proof.Proof.KIFcRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the first fully connected layer — proof data, body obligation, invariant -/

section Region1
variable (V : (c : Dev nD) → (b : Ref sig .tc) → Buf (Elt F) ((c : Thread nD τ).loc b))

/-! ## What each case leaves in the accumulator and in the output block -/

/-- Inner coordinate 0: the pieces written into the accumulator cover it. -/
theorem scover1_A_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) (y : S256x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S256x256.size (by sl_kernel_rfl) y

/-- Inner coordinate 0: what the accumulator holds afterwards. -/
def sout1_A_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) : Vec F S256x256 .f32 :=
  VS1_0.read (Elt F) (VS1_0.writes (Elt F) VS1_0.junk (kernelRun1_A c i arg2 harg2 arg3 harg3 arg4 harg4 arg5 harg5 hc0 hc1 x0 x1).2.1)

/-- Inner coordinate 1, 2, 3: the pieces written into the accumulator cover it. -/
theorem scover1_B_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) (y : S256x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S256x256.size (by sl_kernel_rfl) y

/-- Inner coordinate 1, 2, 3: what the accumulator holds afterwards, over what it held. -/
def sout1_B_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) : Vec F S256x256 .f32 :=
  VS1_0.read (Elt F) (VS1_0.writes (Elt F) VS1_0.junk (kernelRun1_B c i arg2 harg2 arg3 harg3 arg4 harg4 arg5 harg5 hc0 hc1 x0 x1 xs0).2.1)

/-- Inner coordinate 4: the pieces written into the output block cover it. -/
theorem cover1_C_2 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) (y : S1x256x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x256x256.size (by sl_kernel_rfl) y

/-- Inner coordinate 4: what the output block holds afterwards. -/
def out1_C_2 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) : Vec F S1x256x256 .f32 :=
  VO1_2.read (Elt F) (VO1_2.writes (Elt F) VO1_2.junk (kernelRun1_C c i arg2 harg2 arg3 harg3 arg4 harg4 arg5 harg5 hc0 hc1 x0 x1 xs0).1)

/-- Inner coordinate 4: the pieces written into the accumulator cover it. -/
theorem scover1_C_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) (y : S256x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S256x256.size (by sl_kernel_rfl) y

/-- Inner coordinate 4: what the accumulator holds afterwards, over what it held. -/
def sout1_C_0 (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) : Vec F S256x256 .f32 :=
  VS1_0.read (Elt F) (VS1_0.writes (Elt F) VS1_0.junk (kernelRun1_C c i arg2 harg2 arg3 harg3 arg4 harg4 arg5 harg5 hc0 hc1 x0 x1 xs0).2.1)

/-- A placeholder for the output block where the body stores nothing into it: nothing consults it there (the window
    is idle and not written back). -/
def idleOut1 : Vec F S1x256x256 .f32 := VO1_2.read (Elt F) VO1_2.junk

/-! ## What the output block and the accumulator hold after each point -/

/-- After a point with inner coordinate 0. -/
def ptA (c : Dev nD) (t : Fin cfg1.N) (h0 : t.val % 5 = 0) : Vec F S1x256x256 .f32 × Vec F S256x256 .f32 :=
  (idleOut1, sout1_A_0 c (grid1.coords t) (ms1_0 t) (hs1_0 t) (ms1_1 t) (hs1_1 t) (ms1_2 t) (hs1_2 t) scM1_0 (Memref.isWhole_whole _) ((hcond1_0 t).mpr h0) (fun h => by have := (hcond1_1 t).mp h; omega) (iblk1 V c 0 t) (iblk1 V c 1 t))

/-- After a point with inner coordinate 1, 2 or 3, the accumulator having held `acc`. -/
def ptB (c : Dev nD) (t : Fin cfg1.N) (h0 : ¬t.val % 5 = 0) (h1 : ¬t.val % 5 = 4) (acc : Vec F S256x256 .f32) : Vec F S1x256x256 .f32 × Vec F S256x256 .f32 :=
  (idleOut1, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) acc)

/-- After a point with inner coordinate 4, the accumulator having held `acc`. -/
def ptC (c : Dev nD) (t : Fin cfg1.N) (h0 : ¬t.val % 5 = 0) (h1 : t.val % 5 = 4) (acc : Vec F S256x256 .f32) : Vec F S1x256x256 .f32 × Vec F S256x256 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) acc)

/-- THE ACCUMULATION: the output block and the accumulator after the body at position `n`. The accumulator restarts
    wherever the inner coordinate is 0. -/
def outsAt1 (c : Dev nD) : (n : ℕ) → n < cfg1.N → Vec F S1x256x256 .f32 × Vec F S256x256 .f32
  | 0, hn => ptA V c ⟨0, hn⟩ (Nat.zero_mod _)
  | n + 1, hn =>
    if h0 : (n + 1) % 5 = 0 then ptA V c ⟨n + 1, hn⟩ h0
    else if h1 : (n + 1) % 5 = 4 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 5 = 0) :
    outsAt1 V c t.val t.isLt = ptA V c t h0 := by
  obtain ⟨n, hn⟩ := t
  cases n with
  | zero => rfl
  | succ n => exact dif_pos h0

theorem outsAt1_B (c : Dev nD) (t : Fin cfg1.N) (h0 : ¬t.val % 5 = 0) (h1 : ¬t.val % 5 = 4) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 5 = 0) (h1 : t.val % 5 = 4) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region's invariant before position `n`: before the first point what the launch hands over; afterwards the
    accumulator at what the point before left in it, the other scoped buffers at anything, the generator register at
    some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ rest1 c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of the region on core `c`: the arrays as the region finds them (`V`); after the body at point `t`
    each operand's buffer at its block and the output's at `outsAt1`; the invariant `PhiS`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at a point with inner coordinate 0: the accumulator is handed over at anything (at the region's first
    point by the launch's invariant, later at what the point before left, forgotten) and taken back at this point's
    contents; the output's buffer is handed back as found. -/
theorem sound_body1_A (c : Dev nD) (t : Fin cfg1.N) (h0 : t.val % 5 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : ¬cond1_1 (grid1.coords t) := fun h => by have := (hcond1_1 t).mp h; omega
  rw [Dat.leavesExact_idle (dat1 V c) 2 t (idleAt1_2 t hc1) (noFlush1_2 t hc1)]
  rw [outsAt1_A V c t h0]
  unfold ptA sout1_A_0; (try dsimp only)
  by_cases hz : t.val = 0
  · rw [PhiS_castSucc V c t, PhiS_zero V c _ _ hz, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_0 t).mpr h0) hc1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ )
        iexact HR
      iexact Hg
    isplitl [Ho]; · iexact Ho
    isplitl [H0]; · iexact H0
    isplitl [H1]; · iexact H1
    iexists _; iexact H2
  · rw [PhiS_castSucc V c t, PhiS_pos V c _ _ hz]
    iintro ⟨⟨⟨HS0, HR⟩, Hg⟩, Ho, ⟨%d0, H0⟩, ⟨%d1, H1⟩, ⟨%d2, H2⟩⟩
    iapply ((kernelRun1_A c (grid1.coords t) _ _ _ _ _ _ _ _ ((hcond1_0 t).mpr h0) hc1 (iblk1 V c 0 t) (iblk1 V c 1 t)).2.2 _ Set.univ _)
    isplitl [H0]; · iexact H0
    isplitl [H1]; · iexact H1
    isplitl [H2]; · iexact H2
    isplitl [HS0]; · iexists _; iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _ )
        iexact HR
      iexact Hg
    isplitl [Ho]; · iexact Ho
    isplitl [H0]; · iexact H0
    isplitl [H1]; · iexact H1
    iexists _; iexact H2

set_option maxHeartbeats 4800000 in
/-- The body at a point with inner coordinate 1, 2 or 3: the accumulator is handed over at what the point before left
    and taken back at this point's contents; the output's buffer is handed back as found. -/
theorem sound_body1_B (c : Dev nD) (t : Fin cfg1.N) (h0 : ¬t.val % 5 = 0) (h1 : ¬t.val % 5 = 4) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : ¬cond1_1 (grid1.coords t) := fun h => h1 ((hcond1_1 t).mp h)
  have hz : t.val ≠ 0 := fun h => h0 (by rw [h])
  rw [Dat.leavesExact_idle (dat1 V c) 2 t (idleAt1_2 t hc1) (noFlush1_2 t hc1)]
  rw [outsAt1_B V c t h0 h1]
  unfold ptB sout1_B_0; (try dsimp only)
  rw [PhiS_castSucc V c t, PhiS_pos V c _ _ hz]
  iintro ⟨⟨⟨HS0, HR⟩, Hg⟩, Ho, ⟨%d0, H0⟩, ⟨%d1, H1⟩, ⟨%d2, H2⟩⟩
  iapply ((kernelRun1_B c (grid1.coords t) _ _ _ _ _ _ _ _ (fun h => h0 ((hcond1_0 t).mp h)) hc1 (iblk1 V c 0 t) (iblk1 V c 1 t) _).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_B_0 c _ _ _ _ _ _ _ _ _ _ _ _ _ _ )
      iexact HR
    iexact Hg
  isplitl [Ho]; · iexact Ho
  isplitl [H0]; · iexact H0
  isplitl [H1]; · iexact H1
  iexists _; iexact H2

set_option maxHeartbeats 4800000 in
/-- The body at a point with inner coordinate 4: the accumulator is handed over at what the point before left and taken
    back at this point's contents; the output's buffer, at anything, is taken back at the copied accumulator. -/
theorem sound_body1_C (c : Dev nD) (t : Fin cfg1.N) (h0 : ¬t.val % 5 = 0) (h1 : t.val % 5 = 4) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hc1 : cond1_1 (grid1.coords t) := (hcond1_1 t).mpr h1
  have hz : t.val ≠ 0 := fun h => h0 (by rw [h])
  rw [show (dat1 V c).leavesExact 2 t = owns (c : Thread nD τ) (ms1_2 t) fullShare ((dat1 V c).after 2 t) from by
    unfold Dat.leavesExact; rw [liveAt1_2 t hc1], after1_2]
  rw [outsAt1_C V c t h0 h1]
  unfold ptC out1_C_2 sout1_C_0; (try dsimp only)
  rw [PhiS_castSucc V c t, PhiS_pos V c _ _ hz]
  iintro ⟨⟨⟨HS0, HR⟩, Hg⟩, Ho, ⟨%d0, H0⟩, ⟨%d1, H1⟩, ⟨%d2, H2⟩⟩
  iapply ((kernelRun1_C c (grid1.coords t) _ _ _ _ _ _ _ _ (fun h => h0 ((hcond1_0 t).mp h)) hc1 (iblk1 V c 0 t) (iblk1 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_C_0 c _ _ _ _ _ _ _ _ _ _ _ _ _ _)
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_C_2 c _ _ _ _ _ _ _ _ _ _ _ _ _ _)

/-- The body at any point, by the inner coordinate. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 5 = 0
  · exact sound_body1_A V c t h0
  · by_cases h1 : t.val % 5 = 4
    · exact sound_body1_C V c t h0 h1
    · exact sound_body1_B V c t h0 h1

/-! ## The body obligation at every point, and the invariant at the region's entry and exit -/

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 10 := N_1; omega)

end Region1

end Cert.KernelIdeal.Hand

end
-- ==== Proof.KIHead.lean ====
/-
  The last kernel region of the program: one call, no grid. The body adds the two partial sums [2,256,256] of the
  wide layer, applies the folded scale and shift rows [1,256] and a clamp at zero, multiplies by the last layer's
  weights [256,10], adds the bias row [1,10] and clamps at zero: one store of the whole [256,10] result.
  Here: what the body leaves in the result block as a function of the five input blocks, the body's run, and the
  proof data of the pipeline at any contents `V` of the buffers when the region is entered. Nothing is specific
  to a number format.
-/
import proofs.«177748_g2000301280579440_pallasbulk_580_2_alg».proof.Proof.Gen.KernelIdeal.Launch
import proofs.«177748_g2000301280579440_pallasbulk_580_2_alg».proof.Proof.Gen.KernelIdeal.Skeleton
import proofs.«177748_g2000301280579440_pallasbulk_580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at the point it is handed to the body. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at the point it is handed to the body. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at the point it is handed to the body. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at the point it is handed to the body. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at the point it is handed to the body. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the two halves of the partial sums, the other buffers whole -/

abbrev r2_0a : Rect S2x256x256 := Rect.unit (s := S2x256x256) ![0, 0, 0] S1x256x256.size inb_S2x256x256_S1x256x256_0_0_0
abbrev r2_0b : Rect S2x256x256 := Rect.unit (s := S2x256x256) ![1, 0, 0] S1x256x256.size inb_S2x256x256_S1x256x256_1_0_0
abbrev r2_1 : Rect S1x256 := Rect.unit (s := S1x256) ![0, 0] S1x256.size inb_S1x256_S1x256_0_0
abbrev r2_3 : Rect S256x10 := Rect.unit (s := S256x10) ![0, 0] S256x10.size inb_S256x10_S256x10_0_0
abbrev r2_4 : Rect S1x10 := Rect.unit (s := S1x10) ![0, 0] S1x10.size inb_S1x10_S1x10_0_0

/-! ## What the body leaves in the result block -/

/-- The result block after the body, from the five input blocks: its one store, of the body's value. -/
def out2_5 (x0 : Vec F S2x256x256 .f32) (x1 : Vec F S1x256 .f32) (x2 : Vec F S1x256 .f32) (x3 : Vec F S256x10 .f32)
    (x4 : Vec F S1x10 .f32) : Vec F S256x10 .f32 :=
  View.canon [⟨r2_3, k2_pay1 (View.ld x0 r2_0a) (View.ld x0 r2_0b) (View.ld x1 r2_1) (View.ld x2 r2_1) (View.ld x3 r2_3) (View.ld x4 r2_4)⟩]

/-- The one store takes the whole block. -/
theorem cover2_5 (p0 : Vec F S256x10 .f32) (y : S256x10.Idx) :
    ∃ pc ∈ ([⟨r2_3, p0⟩] : List (View.Piece (Elt F) S256x10 .f32)), y ∈ pc.1.set :=
  View.cover_of_tiled [⟨r2_3, p0⟩] S256x10.size (by rfl) y

/-! ## The body's run -/

set_option maxHeartbeats 4000000 in
/-- The body on whole staging buffers, the inputs' at contents `x0 … x4` and the result's at anything, runs to the
    continuation with the inputs' as they were and the result's at `out2_5` of them. -/
theorem sound_kernel2 (c : Dev nD) (E : Set ℕ)
    (arg0 : Memref sig .tc .vmem S2x256x256 .f32) (harg0 : arg0.IsWhole) (arg1 : Memref sig .tc .vmem S1x256 .f32) (harg1 : arg1.IsWhole)
    (arg2 : Memref sig .tc .vmem S1x256 .f32) (harg2 : arg2.IsWhole) (arg3 : Memref sig .tc .vmem S256x10 .f32) (harg3 : arg3.IsWhole)
    (arg4 : Memref sig .tc .vmem S1x10 .f32) (harg4 : arg4.IsWhole) (arg5 : Memref sig .tc .vmem S256x10 .f32) (harg5 : arg5.IsWhole)
    (x0 : Vec F S2x256x256 .f32) (x1 : Vec F S1x256 .f32) (x2 : Vec F S1x256 .f32) (x3 : Vec F S256x10 .f32) (x4 : Vec F S1x10 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__head_kernel arg0 harg0 arg1 harg1 arg2 harg2 arg3 harg3 arg4 harg4 arg5 harg5) K := by
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body each input's
    buffer at its block and the result's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at the point: the inputs' buffers hold their blocks, so the run above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at the one point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KIRun.lean ====
/-
  The whole program as a chain of segments: three stretches of host operations, the convolution region, a reshape,
  the wide-layer region, two more host operations, the head region. The buffers' contents at each boundary are a
  fold from the launch memory: a host stretch applies its operations, a region replaces its arrays by what its
  pipeline leaves in them. Every weakly fair execution then ends with every unscoped buffer at the last boundary's
  contents; in particular each argument as launched, and the result buffer at what the head region wrote.
  Nothing here is specific to a number format.
-/
import proofs.«177748_g2000301280579440_pallasbulk_580_2_alg».proof.Proof.Gen.KernelIdeal.Regions
import proofs.«177748_g2000301280579440_pallasbulk_580_2_alg».proof.Proof.KIConv
import proofs.«177748_g2000301280579440_pallasbulk_580_2_alg».proof.Proof.KIFc
import proofs.«177748_g2000301280579440_pallasbulk_580_2_alg».proof.Proof.KIHead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- At region 0's exit: its arrays at what the pipeline leaves in them (an input as entered, the output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- At region 1's exit: its arrays at what the pipeline leaves in them (an input as entered, the output's
    write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- At region 2's exit: its arrays at what the pipeline leaves in them (an input as entered, the output's
    write-backs folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## The arguments end as launched -/

/-- A buffer that no host stretch writes and that is no array of any region reaches the end as launched. -/
theorem W8_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W)
    (h7 : ∀ w, Pipeline.arrRef spec2 w ≠ r) : W8 m ρ c (Proc.devRef .tc r) = m ((c : Thread nD τ).loc r) :=
  (W8_of_ne m ρ c r h7).trans <| (W7_of m ρ c r h6).trans <| (W6_of_ne m ρ c r h5).trans <| (W5_of m ρ c r h4).trans <|
    (W4_of_ne m ρ c r h3).trans <| (W3_of m ρ c r h2).trans <| (W2_of m ρ c r h1).trans <| (W1_of m ρ c r h0).trans rfl

/-- The wide layer's weights are an input array of the second region, which leaves it as it found it. -/
theorem W8_main_arg9 (c : Dev nD) : W8 m ρ c (Proc.devRef .tc main_arg9) = m ((c : Thread nD τ).loc main_arg9) :=
  (W8_of_ne m ρ c main_arg9 (by decide)).trans <| (W7_of m ρ c main_arg9 (by decide)).trans <|
    ((W6_arr m ρ c 1).trans (((dat1 (V5 m ρ) c).arrAt_in 1 rfl _).trans (A_eq1 (V5 m ρ) c 1))).trans <|
    (W5_of m ρ c main_arg9 (by decide)).trans <| (W4_of_ne m ρ c main_arg9 (by decide)).trans <| (W3_of m ρ c main_arg9 (by decide)).trans <|
    (W2_of m ρ c main_arg9 (by decide)).trans <| (W1_of m ρ c main_arg9 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W3`, left at `W4`. Its arrays are split
    out of the unscoped buffers and put back at what the pipeline leaves in them; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec0 c) ⊢ Pipeline.ΦA spec0 c := fun P => by
      unfold Pipeline.ΦA
      iintro ⟨Hp, -, Hr⟩
      isplitl [Hr]; · iexact Hr
      iexact Hp
    exact (h1 _).trans (show Pipeline.ΦA spec0 c ⊢ (pdats m ρ 0 c).Φ 0 from hin0 (V3 m ρ) c)
  hout c := by
    rw [Pipeline.ownSems0_none]
    have h1 : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V3 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at what the pipeline leaves in them; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec1 c) ⊢ Pipeline.ΦA spec1 c := fun P => by
      unfold Pipeline.ΦA
      iintro ⟨Hp, -, Hr⟩
      isplitl [Hr]; · iexact Hr
      iexact Hp
    exact (h1 _).trans (show Pipeline.ΦA spec1 c ⊢ (pdats m ρ 1 c).Φ 0 from hin1 (V5 m ρ) c)
  hout c := by
    rw [Pipeline.ownSems0_none]
    have h1 : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V5 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split
    out of the unscoped buffers and put back at what the pipeline leaves in them; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec2 c) ⊢ Pipeline.ΦA spec2 c := fun P => by
      unfold Pipeline.ΦA
      iintro ⟨Hp, -, Hr⟩
      isplitl [Hr]; · iexact Hr
      iexact Hp
    exact (h1 _).trans (show Pipeline.ΦA spec2 c ⊢ (pdats m ρ 2 c).Φ 0 from hin2 (V7 m ρ) c)
  hout c := by
    rw [Pipeline.ownSems0_none]
    have h1 : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (show (pdats m ρ 2 c).Φ (Fin.last _) ⊢ Pipeline.ΦA spec2 c from hout2 (V7 m ρ) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The run with the result named: the result buffer ends at the last boundary's contents, each argument as launched. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v55 (by decide)),
    (h c _ (mem_uc main_arg0 (by decide))).trans (W8_untouched m ρ c main_arg0 (by decide) (by decide) (by decide) (by decide) (by decide) (by decide) (by decide) (by decide)),
    (h c _ (mem_uc main_arg1 (by decide))).trans (W8_untouched m ρ c main_arg1 (by decide) (by decide) (by decide) (by decide) (by decide) (by decide) (by decide) (by decide)),
    (h c _ (mem_uc main_arg2 (by decide))).trans (W8_untouched m ρ c main_arg2 (by decide) (by decide) (by decide) (by decide) (by decide) (by decide) (by decide) (by decide)),
    (h c _ (mem_uc main_arg3 (by decide))).trans (W8_untouched m ρ c main_arg3 (by decide) (by decide) (by decide) (by decide) (by decide) (by decide) (by decide) (by decide)),
    (h c _ (mem_uc main_arg4 (by decide))).trans (W8_untouched m ρ c main_arg4 (by decide) (by decide) (by decide) (by decide) (by decide) (by decide) (by decide) (by decide)),
    (h c _ (mem_uc main_arg5 (by decide))).trans (W8_untouched m ρ c main_arg5 (by decide) (by decide) (by decide) (by decide) (by decide) (by decide) (by decide) (by decide)),
    (h c _ (mem_uc main_arg6 (by decide))).trans (W8_untouched m ρ c main_arg6 (by decide) (by decide) (by decide) (by decide) (by decide) (by decide) (by decide) (by decide)),
    (h c _ (mem_uc main_arg7 (by decide))).trans (W8_untouched m ρ c main_arg7 (by decide) (by decide) (by decide) (by decide) (by decide) (by decide) (by decide) (by decide)),
    (h c _ (mem_uc main_arg8 (by decide))).trans (W8_untouched m ρ c main_arg8 (by decide) (by decide) (by decide) (by decide) (by decide) (by decide) (by decide) (by decide)),
    (h c _ (mem_uc main_arg9 (by decide))).trans (W8_main_arg9 m ρ c),
    (h c _ (mem_uc main_arg10 (by decide))).trans (W8_untouched m ρ c main_arg10 (by decide) (by decide) (by decide) (by decide) (by decide) (by decide) (by decide) (by decide)),
    (h c _ (mem_uc main_arg11 (by decide))).trans (W8_untouched m ρ c main_arg11 (by decide) (by decide) (by decide) (by decide) (by decide) (by decide) (by decide) (by decide)),
    (h c _ (mem_uc main_arg12 (by decide))).trans (W8_untouched m ρ c main_arg12 (by decide) (by decide) (by decide) (by decide) (by decide) (by decide) (by decide) (by decide)),
    (h c _ (mem_uc main_arg13 (by decide))).trans (W8_untouched m ρ c main_arg13 (by decide) (by decide) (by decide) (by decide) (by decide) (by decide) (by decide) (by decide)),
    (h c _ (mem_uc main_arg14 (by decide))).trans (W8_untouched m ρ c main_arg14 (by decide) (by decide) (by decide) (by decide) (by decide) (by decide) (by decide) (by decide))⟩)
    (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run m ρ)

end Cert.KernelIdeal.Hand

end
-- ==== Proof.RConv.lean ====
import proofs.«177748_g2000301280579440_pallasbulk_580_2_alg».proof.Proof.Gen.ReferenceIdeal.Launch
import proofs.«177748_g2000301280579440_pallasbulk_580_2_alg».proof.Proof.Gen.ReferenceIdeal.Skeleton
import proofs.«177748_g2000301280579440_pallasbulk_580_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of the reference program: the fused convolution stack

One grid point per batch element. The body computes the first convolution's activations, lays them in a
scratch buffer between two zero rows, reads the three shifted row windows back, and stores the second
convolution's activations into the output window. Nothing is carried from point to point: the scratch is taken
from the region invariant at anything and handed back at whatever the point left. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1024x6 := Rect.unit (s := S1x1024x6) ![0, 0, 0] S1x1024x6.size inb_S1x1024x6_S1x1024x6_0_0_0
abbrev r0_1 : Rect S6x256 := Rect.unit (s := S6x256) ![0, 0] S6x256.size inb_S6x256_S6x256_0_0
abbrev r0_2 : Rect S1x256 := Rect.unit (s := S1x256) ![0, 0] S1x256.size inb_S1x256_S1x256_0_0
abbrev r0_4a : Rect S3x256x80 := Rect.unit (s := S3x256x80) ![0, 0, 0] S1x256x80.size inb_S3x256x80_S1x256x80_0_0_0
abbrev r0_4b : Rect S3x256x80 := Rect.unit (s := S3x256x80) ![1, 0, 0] S1x256x80.size inb_S3x256x80_S1x256x80_1_0_0
abbrev r0_4c : Rect S3x256x80 := Rect.unit (s := S3x256x80) ![2, 0, 0] S1x256x80.size inb_S3x256x80_S1x256x80_2_0_0
abbrev r0_5 : Rect S1x80 := Rect.unit (s := S1x80) ![0, 0] S1x80.size inb_S1x80_S1x80_0_0
abbrev r0_7 : Rect S1x1024x80 := Rect.unit (s := S1x1024x80) ![0, 0, 0] S1x1024x80.size inb_S1x1024x80_S1x1024x80_0_0_0
/-- The scratch: whole, and its three row windows of 1024 rows from row 0, 1, 2. -/
abbrev rs_w : Rect S1026x256 := Rect.unit (s := S1026x256) ![0, 0] S1026x256.size inb_S1026x256_S1026x256_0_0
abbrev rs_0 : Rect S1026x256 := Rect.unit (s := S1026x256) ![0, 0] S1024x256.size inb_S1026x256_S1024x256_0_0
abbrev rs_1 : Rect S1026x256 := Rect.unit (s := S1026x256) ![1, 0] S1024x256.size inb_S1026x256_S1024x256_1_0
abbrev rs_2 : Rect S1026x256 := Rect.unit (s := S1026x256) ![2, 0] S1024x256.size inb_S1026x256_S1024x256_2_0

/-- The scratch operand: a whole scoped buffer of the kernel's own, passed beside the windows. -/
abbrev scM0 : Memref sig .tc .vmem S1026x256 .f32 := Memref.whole cc0_scratch0

/-! ## What the body leaves in the scratch and in the output window's buffer -/

/-- The scratch after its two stores (last first): the first layer's activations over rows 1..1024 of a zero fill. -/
def scr0 (x0 : Vec F S1x1024x6 .f32) (x1 : Vec F S6x256 .f32) (x2 : Vec F S1x256 .f32) (x3 : Vec F S1x256 .f32) : Vec F S1026x256 .f32 :=
  View.canon [⟨rs_1, k0_pay3 (View.ld x0 r0_0) (View.ld x1 r0_1) (View.ld x2 r0_2) (View.ld x3 r0_2)⟩, ⟨rs_w, k0_pay2 (F := F)⟩]

/-- The output window's staging buffer after the body, from the input windows' blocks: its one store. -/
def out0_7 (x0 : Vec F S1x1024x6 .f32) (x1 : Vec F S6x256 .f32) (x2 : Vec F S1x256 .f32) (x3 : Vec F S1x256 .f32)
    (x4 : Vec F S3x256x80 .f32) (x5 : Vec F S1x80 .f32) (x6 : Vec F S1x80 .f32) : Vec F S1x1024x80 .f32 :=
  View.canon [⟨r0_7, k0_pay1 (k0_pay4 (View.ld (scr0 x0 x1 x2 x3) rs_0) (View.ld x4 r0_4a)) (View.ld (scr0 x0 x1 x2 x3) rs_1)
    (k0_pay5 (View.ld x4 r0_4b)) (constant S1024x80 .f32 0x00000000#32) (View.ld (scr0 x0 x1 x2 x3) rs_2) (View.ld x4 r0_4c)
    (View.ld x5 r0_5) (View.ld x6 r0_5)⟩]

/-- Its store tiles the buffer, so it covers it. -/
theorem cover0_7 (p0 : Vec F S1x1024x80 .f32) (y : S1x1024x80.Idx) :
    ∃ pc ∈ ([⟨r0_7, p0⟩] : List (View.Piece (Elt F) S1x1024x80 .f32)), y ∈ pc.1.set :=
  View.cover_of_tiled [⟨r0_7, p0⟩] S1x1024x80.size (by rfl) y

/-- The scratch's two stores cover it: the zero fill is whole. -/
theorem scover0 (p1 : Vec F S1024x256 .f32) (p0 : Vec F S1026x256 .f32) (y : S1026x256.Idx) :
    ∃ pc ∈ ([⟨rs_1, p1⟩, ⟨rs_w, p0⟩] : List (View.Piece (Elt F) S1026x256 .f32)), y ∈ pc.1.set := by
  obtain ⟨pc, hm, hy⟩ := View.cover_of_tiled [(⟨rs_w, p0⟩ : View.Piece (Elt F) S1026x256 .f32)] S1026x256.size (by rfl) y
  exact ⟨pc, List.mem_cons_of_mem _ hm, hy⟩

/-! ## The body's triple -/

set_option maxHeartbeats 4000000 in
/-- The kernel body on whole memrefs, the inputs' at read contents `xW`, the output's and the scratch at anything,
    runs to the continuation holding the inputs' as they were, the output's at `out0_7` of the inputs' and the scratch
    at some contents: each load of the scratch is covered by its two stores, so reads their canonical contents through
    its row window. -/
theorem sound_kernel0 (c : Dev nD) (E : Set ℕ) (i : grid0.Coords) (arg1 : Memref sig .tc .vmem S1x1024x6 .f32) (harg1 : arg1.IsWhole) (arg2 : Memref sig .tc .vmem S6x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S3x256x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x1024x80 .f32) (harg8 : arg8.IsWhole) (arg9 : Memref sig .tc .vmem S1026x256 .f32) (harg9 : arg9.IsWhole)
    (x0 : Vec F S1x1024x6 .f32) (x1 : Vec F S6x256 .f32) (x2 : Vec F S1x256 .f32) (x3 : Vec F S1x256 .f32) (x4 : Vec F S3x256x80 .f32) (x5 : Vec F S1x80 .f32) (x6 : Vec F S1x80 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ (∃ d, owns (c : Thread nD τ) arg9 fullShare d)) -∗ K ⟨⟩))
      ⊢ wp frame (wpE (defs₀ (F := F)) Variants.none c none) E (cc0__conv_stack_kernel i arg1 harg1 arg2 harg2 arg3 harg3 arg4 harg4 arg5 harg5 arg6 harg6 arg7 harg7 arg8 harg8 arg9 harg9) K := by
  simp only [cc0__conv_stack_kernel_eq_skeleton]; unfold cc0__conv_stack_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover0_7 _)]
    sl_unfold_run_names
    unfold out0_7 scr0
    rw [View.readCov_eq_canon_ld _ _ rs_0 (scover0 _ _), View.readCov_eq_canon_ld _ _ rs_1 (scover0 _ _),
      View.readCov_eq_canon_ld _ _ rs_2 (scover0 _ _)]
    rfl
  iexists _, _; isplitr
  swap; · iexact H8
  ipureintro; rfl

/-! ## The pipeline's proof data -/

/-- The proof data of pipeline 0 on core `c`: the arrays as the region finds them; after the body at point `t`
    each input's buffer at its block and the output's at `out0_7` of the input blocks; the invariant the scoped
    rest and the generator register, untouched between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- The region invariant with the scratch as a memref owned at some contents, beside the other scoped buffers. -/
theorem PhiA0_split (c : Dev nD) : ∃ R : sProp 𝕄,
    (Pipeline.ΦA spec0 c : sProp 𝕄) = iprop(iprop((∃ d, owns (c : Thread nD τ) scM0 fullShare d) ∗ R) ∗ (∃ r, prngReg c r)) :=
  ⟨_, by unfold Pipeline.ΦA; rw [scopedRest0_eq]; simp only [scM0, owns_whole]; rfl⟩

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, the invariant lends the scratch at anything and
    takes it back at whatever the point left; the core's `owes` passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  obtain ⟨R, hR⟩ := PhiA0_split (F := F) c
  rw [show (dat0 V c).Φ t.castSucc = Pipeline.ΦA spec0 c from rfl, hR]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, H7, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := .rfl

/-- and the invariant after the last point is what the region hands back. -/
theorem hout0 (c : Dev nD) : (dat0 V c).Φ (Fin.last cfg0.N) ⊢ Pipeline.ΦA spec0 c := .rfl

end Cert.ReferenceIdeal.Hand

end
-- ==== Proof.RFcBase.lean ====
/-
  Region 1 of the reference program: the two fully connected layers fused. A grid of ten points walks the wide layer's
  81920 positions in tiles of 8192; an accumulator [256,256] is carried from point to point, zeroed at the first point;
  at the last point the head (scale, shift, clamp at zero, the second layer, its bias, clamp at zero) is stored to the
  output block, which is idle at every other point.
  Here, what the body's three control cases share: its two conditions on the grid coordinate in closed form, where the
  output window is idle and where it is written back, the whole-buffer rectangles of the body's loads and stores, and
  the memrefs the body is called with. Nothing is specific to a number format.
-/
import proofs.«177748_g2000301280579440_pallasbulk_580_2_alg».proof.Proof.Gen.ReferenceIdeal.Launch
import proofs.«177748_g2000301280579440_pallasbulk_580_2_alg».proof.Proof.Gen.ReferenceIdeal.Skeleton
import proofs.«177748_g2000301280579440_pallasbulk_580_2_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the fused fully connected layers): what the runs of its body share -/

/-! ## The body's branch conditions -/

/-- The first conditional's condition (the accumulator is zeroed), from the grid coordinates. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition (the head is computed and stored). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point the output window is idle and not written back. -/
theorem idleAt1_6 : ∀ t : Fin cfg1.N, t.val ≠ 9 → cfg1.idle 6 (grid1.coords t) = true := by decide +kernel
theorem noFlush1_6 : ∀ t : Fin cfg1.N, t.val ≠ 9 → (cfg1.win 6).flush t = false := by decide +kernel
/-- At the last point it is live. -/
theorem liveAt1_6 : ∀ t : Fin cfg1.N, t.val = 9 → cfg1.idle 6 (grid1.coords t) = false := by decide +kernel

/-! ## The whole-buffer rectangles of the body's loads and stores -/

abbrev rS : Rect S256x256 := Rect.unit (s := S256x256) ![0, 0] S256x256.size inb_S256x256_S256x256_0_0
abbrev rX : Rect S256x8192 := Rect.unit (s := S256x8192) ![0, 0] S256x8192.size inb_S256x8192_S256x8192_0_0
abbrev rW : Rect S8192x256 := Rect.unit (s := S8192x256) ![0, 0] S8192x256.size inb_S8192x256_S8192x256_0_0
abbrev rV : Rect S1x256 := Rect.unit (s := S1x256) ![0, 0] S1x256.size inb_S1x256_S1x256_0_0
abbrev rM : Rect S256x10 := Rect.unit (s := S256x10) ![0, 0] S256x10.size inb_S256x10_S256x10_0_0
abbrev rB : Rect S1x10 := Rect.unit (s := S1x10) ![0, 0] S1x10.size inb_S1x10_S1x10_0_0

theorem hzS : (![0, 0] : Fin S256x256.rank → Nat) = fun _ => 0 := funext fun a => by fin_cases a <;> rfl
theorem hzX : (![0, 0] : Fin S256x8192.rank → Nat) = fun _ => 0 := funext fun a => by fin_cases a <;> rfl
theorem hzW : (![0, 0] : Fin S8192x256.rank → Nat) = fun _ => 0 := funext fun a => by fin_cases a <;> rfl
theorem hzV : (![0, 0] : Fin S1x256.rank → Nat) = fun _ => 0 := funext fun a => by fin_cases a <;> rfl
theorem hzM : (![0, 0] : Fin S256x10.rank → Nat) = fun _ => 0 := funext fun a => by fin_cases a <;> rfl
theorem hzB : (![0, 0] : Fin S1x10.rank → Nat) = fun _ => 0 := funext fun a => by fin_cases a <;> rfl

/-! ## The staging memrefs and the scratch -/

abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x10 .f32 := win1_6.stage (cfg1.slots t 6)
abbrev hs1_6 (t : Fin cfg1.N) : (ms1_6 t).IsWhole := hstage1_6 ((cfg1.slots t 6).cast nbuf1_6)
/-- The accumulator the body carries between points: a whole scoped buffer of its own. -/
abbrev scM1 : Memref sig .tc .vmem S256x256 .f32 := Memref.whole cc1_scratch0

end Cert.ReferenceIdeal.Hand

end
-- ==== Proof.RFcRunB.lean ====
/-
  Region 1 of the reference program, the body's run at a point that is neither the first nor the last: on whole
  buffers, the accumulator entering at what the point before left, the product of the activations' tile and the weights'
  tile is added onto the accumulator; the operands' buffers and the idle output's buffer are handed back as found.
  Before it, the two covering facts every case uses: one whole-buffer store covers the accumulator, and one covers the
  output block.
-/
import proofs.«177748_g2000301280579440_pallasbulk_580_2_alg».proof.Proof.RFcBase

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One whole-buffer store covers the accumulator. -/
theorem coverS (p : rS.shape.Idx → Elt F .f32) (L : List (View.Piece (Elt F) S256x256 .f32)) (y : S256x256.Idx) :
    ∃ pc ∈ ((⟨rS, p⟩ : View.Piece (Elt F) S256x256 .f32) :: L), y ∈ pc.1.set :=
  ⟨_, List.mem_cons_self, View.mem_set_unit_zero hzS inb_S256x256_S256x256_0_0 y⟩

/-- One whole-buffer store covers the output's staging buffer. -/
theorem coverM (p : rM.shape.Idx → Elt F .f32) (L : List (View.Piece (Elt F) S256x10 .f32)) (y : S256x10.Idx) :
    ∃ pc ∈ ((⟨rM, p⟩ : View.Piece (Elt F) S256x10 .f32) :: L), y ∈ pc.1.set :=
  ⟨_, List.mem_cons_self, View.mem_set_unit_zero hzM inb_S256x10_S256x10_0_0 y⟩

set_option maxHeartbeats 1000000 in
/-- The body at a point that is neither the first nor the last: on whole staging memrefs, the inputs' at their contents,
    the output's at contents handed back untouched, the accumulator at what the point before left, it runs to the
    continuation holding the accumulator with the point's product added. -/
theorem kernelRun1_B (c : Dev nD) (E : Set ℕ) (i : grid1.Coords) (arg1 : Memref sig .tc .vmem S256x8192 .f32) (harg1 : arg1.IsWhole) (arg2 : Memref sig .tc .vmem S8192x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x256 .f32) (harg8 : arg8.IsWhole)
    (hc0 : ¬cond1_0 i) (hc1 : ¬cond1_1 i) (x0 : Vec F S256x8192 .f32) (x1 : Vec F S8192x256 .bf16) (x2 : Vec F S1x256 .f32) (x3 : Vec F S1x256 .f32) (x4 : Vec F S256x10 .f32) (x5 : Vec F S1x10 .f32) (xi6 : Vec F S256x10 .f32) (xs : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare (k1_pay2 xs x0 x1)) -∗ K ⟨⟩))
      ⊢ wp frame (wpE (defs₀ (F := F)) Variants.none c none) E (cc1__fc_fused_kernel i arg1 harg1 arg2 harg2 arg3 harg3 arg4 harg4 arg5 harg5 arg6 harg6 arg7 harg7 arg8 harg8) K := by
  simp only [cc1__fc_fused_kernel_eq_skeleton]; unfold cc1__fc_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  rw [View.read_writes_eq_canon _ _ _ (coverS _ _), View.canon_unit_zero hzS]
  show k1_pay2 (View.ld (arg8.view.read (Elt F) fs) rS) (View.ld (arg1.view.read (Elt F) f0) rX) (View.ld (arg2.view.read (Elt F) f1) rW) = _
  rw [View.ld_unit_zero hzS, View.ld_unit_zero hzX, View.ld_unit_zero hzW]

end Cert.ReferenceIdeal.Hand

end
-- ==== Proof.RFcRunA.lean ====
/-
  Region 1 of the reference program, the body's run at the first point: the accumulator, entering at anything, is
  zeroed, read back, and the product of the activations' tile and the weights' tile added onto it; the operands'
  buffers and the idle output's buffer are handed back as found.
-/
import proofs.«177748_g2000301280579440_pallasbulk_580_2_alg».proof.Proof.RFcRunB

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: the accumulator, held at anything, is zeroed and the point's product added. -/
theorem kernelRun1_A (c : Dev nD) (E : Set ℕ) (i : grid1.Coords) (arg1 : Memref sig .tc .vmem S256x8192 .f32) (harg1 : arg1.IsWhole) (arg2 : Memref sig .tc .vmem S8192x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x256 .f32) (harg8 : arg8.IsWhole)
    (hc0 : cond1_0 i) (hc1 : ¬cond1_1 i) (x0 : Vec F S256x8192 .f32) (x1 : Vec F S8192x256 .bf16) (x2 : Vec F S1x256 .f32) (x3 : Vec F S1x256 .f32) (x4 : Vec F S256x10 .f32) (x5 : Vec F S1x10 .f32) (xi6 : Vec F S256x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare (k1_pay2 (k1_pay1 (F := F)) x0 x1)) -∗ K ⟨⟩))
      ⊢ wp frame (wpE (defs₀ (F := F)) Variants.none c none) E (cc1__fc_fused_kernel i arg1 harg1 arg2 harg2 arg3 harg3 arg4 harg4 arg5 harg5 arg6 harg6 arg7 harg7 arg8 harg8) K := by
  simp only [cc1__fc_fused_kernel_eq_skeleton]; unfold cc1__fc_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  rw [View.read_writes_eq_canon _ _ _ (coverS _ _), View.canon_cons_unit_zero hzS]
  unfold kernelRun1_A.sl.v3 kernelRun1_A.sl.HS_1
  rw [View.readCov_unit_zero _ hzS]
  show k1_pay2 (k1_pay1 (F := F)) (View.ld (arg1.view.read (Elt F) f0) rX) (View.ld (arg2.view.read (Elt F) f1) rW) = _
  rw [View.ld_unit_zero hzX, View.ld_unit_zero hzW]

end Cert.ReferenceIdeal.Hand

end
-- ==== Proof.RFcRunC.lean ====
/-
  Region 1 of the reference program, the body's run at the last point: the product of the activations' tile and the
  weights' tile is added onto the accumulator, entering at what the point before left; the sum is read back, scaled,
  shifted and clamped at zero, multiplied by the second layer's weights, the bias added and the result clamped at zero
  and stored over the whole output block, which enters at anything.
-/
import proofs.«177748_g2000301280579440_pallasbulk_580_2_alg».proof.Proof.RFcRunA

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point: the point's product is added to the accumulator and the head of the sum stored to the
    output's staging buffer, held at anything. -/
theorem kernelRun1_C (c : Dev nD) (E : Set ℕ) (i : grid1.Coords) (arg1 : Memref sig .tc .vmem S256x8192 .f32) (harg1 : arg1.IsWhole) (arg2 : Memref sig .tc .vmem S8192x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S256x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x256 .f32) (harg8 : arg8.IsWhole)
    (hc0 : ¬cond1_0 i) (hc1 : cond1_1 i) (x0 : Vec F S256x8192 .f32) (x1 : Vec F S8192x256 .bf16) (x2 : Vec F S1x256 .f32) (x3 : Vec F S1x256 .f32) (x4 : Vec F S256x10 .f32) (x5 : Vec F S1x10 .f32) (xs : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay3 (k1_pay2 xs x0 x1) x2 x3 x4 x5) ∗ owns (c : Thread nD τ) arg8 fullShare (k1_pay2 xs x0 x1)) -∗ K ⟨⟩))
      ⊢ wp frame (wpE (defs₀ (F := F)) Variants.none c none) E (cc1__fc_fused_kernel i arg1 harg1 arg2 harg2 arg3 harg3 arg4 harg4 arg5 harg5 arg6 harg6 arg7 harg7 arg8 harg8) K := by
  simp only [cc1__fc_fused_kernel_eq_skeleton]; unfold cc1__fc_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (coverM _ _), View.canon_unit_zero hzM]
    unfold kernelRun1_C.sl.v17 kernelRun1_C.sl.HS_1
    rw [View.readCov_unit_zero _ hzS]
    show k1_pay3 (k1_pay2 (View.ld (arg8.view.read (Elt F) fs) rS) (View.ld (arg1.view.read (Elt F) f0) rX) (View.ld (arg2.view.read (Elt F) f1) rW))
      (View.ld (arg3.view.read (Elt F) f2) rV) (View.ld (arg4.view.read (Elt F) f3) rV) (View.ld (arg5.view.read (Elt F) f4) rM) (View.ld (arg6.view.read (Elt F) f5) rB) = _
    rw [View.ld_unit_zero hzS, View.ld_unit_zero hzX, View.ld_unit_zero hzW, View.ld_unit_zero hzV, View.ld_unit_zero hzV, View.ld_unit_zero hzM, View.ld_unit_zero hzB]
  iexists _; isplitr
  swap; · iexact HS
  ipureintro
  unfold kernelRun1_C.sl.HS_1
  rw [View.read_writes_eq_canon _ _ _ (coverS _ _), View.canon_unit_zero hzS]
  show k1_pay2 (View.ld (arg8.view.read (Elt F) fs) rS) (View.ld (arg1.view.read (Elt F) f0) rX) (View.ld (arg2.view.read (Elt F) f1) rW) = _
  rw [View.ld_unit_zero hzS, View.ld_unit_zero hzX, View.ld_unit_zero hzW]

end Cert.ReferenceIdeal.Hand

end
-- ==== Proof.RFc.lean ====
/-
  Region 1 of the reference program: the proof data of its pipeline at any contents `V` of the buffers when the
  region is entered. The accumulator after point `n` is the fold of the accumulation step over the tiles of the points
  `0 … n` from the zero tile; the region's invariant carries the accumulator at that fold from one point to the next
  (before the first point it is held at anything, after the last its contents are forgotten); each operand's staging
  buffer holds its block at every point; the output block holds the head of the accumulator at the last point and is
  handed back untouched at the others. From the three runs of the body: the body obligation at every point, and the
  invariant at the region's entry and exit. Nothing is specific to a number format.
-/
import proofs.«177748_g2000301280579440_pallasbulk_580_2_alg».proof.Proof.RFcRunC

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 of the reference's @main: the fused fully connected layers, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers hold their blocks at every point -/

/-- Input window `w`'s current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- The accumulator after the body at position `n`: zero plus the products of the tiles of the points up to `n`,
    added in the order of the points. -/
def acc1 (c : Dev nD) : (n : ℕ) → n < cfg1.N → Vec F S256x256 .f32
  | 0, hn => k1_pay2 (k1_pay1 (F := F)) (iblk1 V c 0 ⟨0, hn⟩) (iblk1 V c 1 ⟨0, hn⟩)
  | n + 1, hn => k1_pay2 (acc1 c n (Nat.lt_of_succ_lt hn)) (iblk1 V c 0 ⟨n + 1, hn⟩) (iblk1 V c 1 ⟨n + 1, hn⟩)

theorem acc1_zero (c : Dev nD) (hn : 0 < cfg1.N) :
    acc1 V c 0 hn = k1_pay2 (k1_pay1 (F := F)) (iblk1 V c 0 ⟨0, hn⟩) (iblk1 V c 1 ⟨0, hn⟩) := rfl

theorem acc1_succ (c : Dev nD) (n : ℕ) (hn : n + 1 < cfg1.N) :
    acc1 V c (n + 1) hn = k1_pay2 (acc1 V c n (Nat.lt_of_succ_lt hn)) (iblk1 V c 0 ⟨n + 1, hn⟩) (iblk1 V c 1 ⟨n + 1, hn⟩) := rfl

/-- At a point that is not the first: the step over what the point before left. -/
theorem acc1_pos (c : Dev nD) (t : Fin cfg1.N) (hz : t.val ≠ 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd rfl hz
  | succ n => rfl

/-- The head, computed at the last point from the accumulator and the four small operands. -/
def head1 (c : Dev nD) (t : Fin cfg1.N) : Vec F S256x10 .f32 :=
  k1_pay3 (acc1 V c t.val t.isLt) (iblk1 V c 2 t) (iblk1 V c 3 t) (iblk1 V c 4 t) (iblk1 V c 5 t)

/-! ## The region invariant: the accumulator carried between points -/

/-- The core's scoped buffers that are neither a staging buffer of this call nor its accumulator, unopened. -/
abbrev restBut1 (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]; try rfl

/-- Before position `n`: at the first point the class's invariant (the accumulator at anything); afterwards the
    accumulator at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restBut1 c) ∗ (∃ r, prngReg c r)) := by
  cases n with
  | zero => exact absurd rfl hz
  | succ n => rfl

/-! ## The pipeline's proof data -/

/-- The proof data of the region on core `c`: the arrays as the region finds them; after the body at point `t` each
    input's buffer at its block and the output's at the head of the accumulator there (consulted at the last point
    only: elsewhere the window is idle); the invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => head1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = head1 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The accumulator after the first point. -/
theorem acc1_first (c : Dev nD) (t : Fin cfg1.N) (hz : t.val = 0) :
    acc1 V c t.val t.isLt = k1_pay2 (k1_pay1 (F := F)) (iblk1 V c 0 t) (iblk1 V c 1 t) := by
  obtain ⟨n, hn⟩ := t
  cases n with
  | zero => rfl
  | succ n => exact absurd hz (Nat.succ_ne_zero n)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the point is the first, the last or one between, and the
    run of that case applies: the invariant hands the body the accumulator at what the point before left (at anything at
    the first point) and takes it back with the point's product added; away from the last point the output's buffer is
    handed back untouched, at the last it holds the head; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · have h9 : t.val ≠ 9 := by omega
    rw [Dat.leavesExact_idle (dat1 V c) 6 t (idleAt1_6 t h9) (noFlush1_6 t h9)]
    rw [acc1_first V c t h0]
    rw [PhiS1_castSucc V c t, PhiS1_zero V c _ _ h0, PhiA1_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_A c Set.univ (grid1.coords t) _ _ _ _ _ _ _ _ _ _ _ _ _ _ _ _ ((hcond1_0 t).mpr h0) (fun h => h9 ((hcond1_1 t).mp h)) (iblk1 V c 0 t) (iblk1 V c 1 t) (iblk1 V c 2 t) (iblk1 V c 3 t) (iblk1 V c 4 t) (iblk1 V c 5 t) ((dat1 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h9 : t.val = 9
    · rw [show (dat1 V c).leavesExact 6 t = owns (c : Thread nD τ) (ms1_6 t) fullShare ((dat1 V c).after 6 t) from by
        unfold Dat.leavesExact; rw [liveAt1_6 t h9], after1_6]
      unfold head1
      rw [acc1_pos V c t h0]
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c Set.univ (grid1.coords t) _ _ _ _ _ _ _ _ _ _ _ _ _ _ _ _ (fun h => h0 ((hcond1_0 t).mp h)) ((hcond1_1 t).mpr h9) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t h9) (noFlush1_6 t h9)]
      rw [acc1_pos V c t h0]
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c Set.univ (grid1.coords t) _ _ _ _ _ _ _ _ _ _ _ _ _ _ _ _ (fun h => h0 ((hcond1_0 t).mp h)) (fun h => h9 ((hcond1_1 t).mp h)) (iblk1 V c 0 t) (iblk1 V c 1 t) (iblk1 V c 2 t) (iblk1 V c 3 t) (iblk1 V c 4 t) (iblk1 V c 5 t) ((dat1 V c).before 6 t d6) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.ReferenceIdeal.Hand

end
-- ==== Proof.RRun.lean ====
/-
  The reference program as a chain of segments: three stretches of host operations, the convolution region, two
  more host operations, the fused wide-layer-and-head region. The buffers' contents at each boundary are a fold from
  the launch memory: a host stretch applies its operations, a region replaces its arrays by what its pipeline leaves
  in them. Every weakly fair execution ends with every unscoped buffer at the last boundary's contents; in
  particular each argument as launched, and the result buffer at what the second region wrote.
-/
import proofs.«177748_g2000301280579440_pallasbulk_580_2_alg».proof.Proof.Gen.ReferenceIdeal.Regions
import proofs.«177748_g2000301280579440_pallasbulk_580_2_alg».proof.Proof.RConv
import proofs.«177748_g2000301280579440_pallasbulk_580_2_alg».proof.Proof.RFc

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- At region 0's exit: its arrays at what the pipeline leaves in them (an input as entered, the output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- At region 1's exit: its arrays at what the pipeline leaves in them (an input as entered, the output's
    write-backs folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

/-- A buffer that no host stretch writes and that is no array of either region reaches the end as launched. -/
theorem W6_untouched (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = m ((c : Thread nD τ).loc r) :=
  (W6_of_ne m ρ c r h5).trans <| (W5_of m ρ c r h4).trans <|
    (W4_of_ne m ρ c r h3).trans <| (W3_of m ρ c r h2).trans <| (W2_of m ρ c r h1).trans <| (W1_of m ρ c r h0).trans rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`. Its arrays are split
    out of the unscoped buffers and put back at what the pipeline leaves in them; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec0 c) ⊢ Pipeline.ΦA spec0 c := fun P => by
      unfold Pipeline.ΦA
      iintro ⟨Hp, -, Hr⟩
      isplitl [Hr]; · iexact Hr
      iexact Hp
    exact (h1 _).trans (show Pipeline.ΦA spec0 c ⊢ (pdats m ρ 0 c).Φ 0 from hin0 (V3 m ρ) c)
  hout c := by
    rw [Pipeline.ownSems0_none]
    have h1 : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V3 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at what the pipeline leaves in them; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest spec1 c) ⊢ Pipeline.ΦA spec1 c := fun P => by
      unfold Pipeline.ΦA
      iintro ⟨Hp, -, Hr⟩
      isplitl [Hr]; · iexact Hr
      iexact Hp
    exact (h1 _).trans (show Pipeline.ΦA spec1 c ⊢ (pdats m ρ 1 c).Φ 0 from hin1 (V5 m ρ) c)
  hout c := by
    rw [Pipeline.ownSems0_none]
    have h1 : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V5 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run with the result named: the result buffer ends at the last boundary's contents, each argument as launched. -/
theorem run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v41 (by decide)),
    (h c _ (mem_uc main_arg0 (by decide))).trans (W6_untouched m ρ c main_arg0 (by decide) (by decide) (by decide) (by decide) (by decide) (by decide)),
    (h c _ (mem_uc main_arg1 (by decide))).trans (W6_untouched m ρ c main_arg1 (by decide) (by decide) (by decide) (by decide) (by decide) (by decide)),
    (h c _ (mem_uc main_arg2 (by decide))).trans (W6_untouched m ρ c main_arg2 (by decide) (by decide) (by decide) (by decide) (by decide) (by decide)),
    (h c _ (mem_uc main_arg3 (by decide))).trans (W6_untouched m ρ c main_arg3 (by decide) (by decide) (by decide) (by decide) (by decide) (by decide)),
    (h c _ (mem_uc main_arg4 (by decide))).trans (W6_untouched m ρ c main_arg4 (by decide) (by decide) (by decide) (by decide) (by decide) (by decide)),
    (h c _ (mem_uc main_arg5 (by decide))).trans (W6_untouched m ρ c main_arg5 (by decide) (by decide) (by decide) (by decide) (by decide) (by decide)),
    (h c _ (mem_uc main_arg6 (by decide))).trans (W6_untouched m ρ c main_arg6 (by decide) (by decide) (by decide) (by decide) (by decide) (by decide)),
    (h c _ (mem_uc main_arg7 (by decide))).trans (W6_untouched m ρ c main_arg7 (by decide) (by decide) (by decide) (by decide) (by decide) (by decide)),
    (h c _ (mem_uc main_arg8 (by decide))).trans (W6_untouched m ρ c main_arg8 (by decide) (by decide) (by decide) (by decide) (by decide) (by decide)),
    (h c _ (mem_uc main_arg9 (by decide))).trans (W6_untouched m ρ c main_arg9 (by decide) (by decide) (by decide) (by decide) (by decide) (by decide)),
    (h c _ (mem_uc main_arg10 (by decide))).trans (W6_untouched m ρ c main_arg10 (by decide) (by decide) (by decide) (by decide) (by decide) (by decide)),
    (h c _ (mem_uc main_arg11 (by decide))).trans (W6_untouched m ρ c main_arg11 (by decide) (by decide) (by decide) (by decide) (by decide) (by decide)),
    (h c _ (mem_uc main_arg12 (by decide))).trans (W6_untouched m ρ c main_arg12 (by decide) (by decide) (by decide) (by decide) (by decide) (by decide)),
    (h c _ (mem_uc main_arg13 (by decide))).trans (W6_untouched m ρ c main_arg13 (by decide) (by decide) (by decide) (by decide) (by decide) (by decide)),
    (h c _ (mem_uc main_arg14 (by decide))).trans (W6_untouched m ρ c main_arg14 (by decide) (by decide) (by decide) (by decide) (by decide) (by decide))⟩)
    (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run m ρ)

end Cert.ReferenceIdeal.Hand

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibIdxLayout.lean ====
/-
  Two small facts about arrays indexed by coordinates.

  A column `[a, 1]` broadcast along a new second axis to `[a, b]` reads, at `(p, c)`, the column at `p`. And a sum over
  the index set of a `[1, a, b]` array is the double sum over its last two coordinates, the first being always `0`.
-/
import Idealize.ShloMosaic.Lib.ValueIdx
import Idealize.ShloMosaic.Lib.Pipeline.Value

namespace Cert.LibIdxLayout

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index set of a `[1, a, b]` array is the product of its last two coordinate ranges … -/
def idxEquiv3_1 {a b : ℕ} : (⟨3, ![1, a, b]⟩ : Shape).Idx ≃ Fin a × Fin b where
  toFun i := (i 1, i 2)
  invFun p := ix3 (0 : Fin 1) p.1 p.2
  left_inv i := by
    have h0 : i 0 = (0 : Fin 1) := Fin.ext (Nat.lt_one_iff.mp (i 0).isLt)
    have := eq_ix3 i
    rw [h0] at this
    exact this.symm
  right_inv _ := rfl

/-- … so a sum over it is the double sum over those coordinates. -/
theorem sum_idx3_1 {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (idxEquiv3_1 (a := a) (b := b)).symm f, Fintype.sum_prod_type]
  rfl

end Cert.LibIdxLayout
-- ==== Proof.KIHeadValue.lean ====
/-
  The value of the last kernel region on the extended reals.

  The region's body adds the two partial sums of the wide layer, applies the folded scale and shift rows and a clamp at
  zero, multiplies by the last layer's weights, adds the bias row and clamps at zero. Here that is read entry by entry:
  first what the body's stored value is at an index, over any six loaded vectors; then the result array after the
  region as one function of the five arrays the region reads. The one grid point's blocks are the whole arrays, and the
  one store takes the whole result block, so the array after the region is that function everywhere.
-/
import proofs.«177748_g2000301280579440_pallasbulk_580_2_alg».proof.Proof.KIHead
import proofs.«177748_g2000301280579440_pallasbulk_580_2_alg».proof.Proof.LibPlainDot
import proofs.«177748_g2000301280579440_pallasbulk_580_2_alg».proof.Proof.LibIdxLayout
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem dot2_plain : dot_S256x256_S256x10_S256x10_1_0_0_1_n_n = DotDims.plain 256 256 10 := rfl

theorem k2_pay1_apply (v0 v2 : Vec Ideal S1x256x256 .f32) (v5 v9 : Vec Ideal S1x256 .f32) (v15 : Vec Ideal S256x10 .f32)
    (v18 : Vec Ideal S1x10 .f32) (b : Fin 256) (o : Fin 10) :
    k2_pay1 v0 v2 v5 v9 v15 v18 (ix2 b o)
      = max ((∑ h : Fin 256, max ((v0 (ix3 0 b h) + v2 (ix3 0 b h)) * v5 (ix2 0 h) + v9 (ix2 0 h)) 0 * v15 (ix2 h o))
          + v18 (ix2 0 o)) 0 := by
  unfold k2_pay1
  simp only [shapeCast_self, matmul]
  rw [maximumf_apply, addf_apply, broadcast_apply, dot2_plain, Cert.LibPlainDot.matmul_plain_zero_apply, broadcastTo_1b_ab_apply,
    show (FloatOps.ofBits .f32 0x00000000#32 : Ideal .f32) = 0 from Ideal.ofBits_zero_f32]
  refine congrArg (fun z => max (z + v18 (ix2 0 o)) 0) (Finset.sum_congr rfl fun h _ => ?_)
  rw [maximumf_apply, addf_apply, mulf_apply, addf_apply, broadcast_apply, broadcastTo_1b_ab_apply, broadcastTo_1b_ab_apply,
    shapeCast_1ab_ab_apply, shapeCast_1ab_ab_apply]

section Blocks
variable {F : FTy → Type} [FloatOps F]
variable (V : (c : Dev nD) → (b : Ref sig .tc) → Buf (Elt F) ((c : Thread nD τ).loc b))

theorem iblk2_0_apply (c : Dev nD) (t : Fin cfg2.N) (j : S2x256x256.Idx) : iblk2 V c 0 t j = V c main_v52 j := by
  show V c main_v52 (((cfg2.win 0).blk t).view.emb j) = V c main_v52 j
  refine congrArg _ (funext fun a => Fin.ext ?_)
  match a with
  | ⟨0, _⟩ => show 0 * 2 + 1 * (j 0).val = (j 0).val; omega
  | ⟨1, _⟩ => show 0 * 256 + 1 * (j 1).val = (j 1).val; omega
  | ⟨2, _⟩ => show 0 * 256 + 1 * (j 2).val = (j 2).val; omega

theorem iblk2_1_apply (c : Dev nD) (t : Fin cfg2.N) (j : S1x256.Idx) : iblk2 V c 1 t j = V c main_v20 j := by
  show V c main_v20 (((cfg2.win 1).blk t).view.emb j) = V c main_v20 j
  refine congrArg _ (funext fun a => Fin.ext ?_)
  match a with
  | ⟨0, _⟩ => show 0 * 1 + 1 * (j 0).val = (j 0).val; omega
  | ⟨1, _⟩ => show 0 * 256 + 1 * (j 1).val = (j 1).val; omega

theorem iblk2_2_apply (c : Dev nD) (t : Fin cfg2.N) (j : S1x256.Idx) : iblk2 V c 2 t j = V c main_v24 j := by
  show V c main_v24 (((cfg2.win 2).blk t).view.emb j) = V c main_v24 j
  refine congrArg _ (funext fun a => Fin.ext ?_)
  match a with
  | ⟨0, _⟩ => show 0 * 1 + 1 * (j 0).val = (j 0).val; omega
  | ⟨1, _⟩ => show 0 * 256 + 1 * (j 1).val = (j 1).val; omega

theorem iblk2_3_apply (c : Dev nD) (t : Fin cfg2.N) (j : S256x10.Idx) : iblk2 V c 3 t j = V c main_v53 j := by
  show V c main_v53 (((cfg2.win 3).blk t).view.emb j) = V c main_v53 j
  refine congrArg _ (funext fun a => Fin.ext ?_)
  match a with
  | ⟨0, _⟩ => show 0 * 256 + 1 * (j 0).val = (j 0).val; omega
  | ⟨1, _⟩ => show 0 * 10 + 1 * (j 1).val = (j 1).val; omega

theorem iblk2_4_apply (c : Dev nD) (t : Fin cfg2.N) (j : S1x10.Idx) : iblk2 V c 4 t j = V c main_v54 j := by
  show V c main_v54 (((cfg2.win 4).blk t).view.emb j) = V c main_v54 j
  refine congrArg _ (funext fun a => Fin.ext ?_)
  match a with
  | ⟨0, _⟩ => show 0 * 1 + 1 * (j 0).val = (j 0).val; omega
  | ⟨1, _⟩ => show 0 * 10 + 1 * (j 1).val = (j 1).val; omega

theorem emb2_5 (t : Fin cfg2.N) (j : S256x10.Idx) : ((cfg2.win 5).blk t).view.emb j = j := by
  refine funext fun a => Fin.ext ?_
  match a with
  | ⟨0, _⟩ => show 0 * 256 + 1 * (j 0).val = (j 0).val; omega
  | ⟨1, _⟩ => show 0 * 10 + 1 * (j 1).val = (j 1).val; omega

theorem idx2_0a (b h : Fin 256) : r2_0a.idx (ix3 (0 : Fin 1) b h) = ix3 0 b h := by
  refine funext fun a => Fin.ext ?_
  match a with
  | ⟨0, _⟩ => rfl
  | ⟨1, _⟩ => show 0 + 1 * b.val = b.val; omega
  | ⟨2, _⟩ => show 0 + 1 * h.val = h.val; omega

theorem idx2_0b (b h : Fin 256) : r2_0b.idx (ix3 (0 : Fin 1) b h) = ix3 1 b h := by
  refine funext fun a => Fin.ext ?_
  match a with
  | ⟨0, _⟩ => rfl
  | ⟨1, _⟩ => show 0 + 1 * b.val = b.val; omega
  | ⟨2, _⟩ => show 0 + 1 * h.val = h.val; omega

theorem hz2 : (![0, 0] : Fin 2 → Nat) = fun _ => 0 := funext fun a => by fin_cases a <;> rfl

end Blocks

section Value
variable (V : (c : Dev nD) → (b : Ref sig .tc) → Buf (Elt Ideal) ((c : Thread nD τ).loc b))

/-- The five arrays the region reads, as it finds them: the two partial sums of the wide layer, its folded scale and
    shift rows, the last layer's weights and its bias row. -/
abbrev hdPart (c : Dev nD) : Vec Ideal S2x256x256 .f32 := V c main_v52
abbrev hdScale (c : Dev nD) : Vec Ideal S1x256 .f32 := V c main_v20
abbrev hdShift (c : Dev nD) : Vec Ideal S1x256 .f32 := V c main_v24
abbrev hdW (c : Dev nD) : Vec Ideal S256x10 .f32 := V c main_v53
abbrev hdB (c : Dev nD) : Vec Ideal S1x10 .f32 := V c main_v54

/-- The result array as one function of the five arrays the region reads. -/
def G2_5 (c : Dev nD) : Vec Ideal S256x10 .f32 := fun i =>
  max ((∑ h : Fin 256, max ((hdPart V c (ix3 0 (i 0) h) + hdPart V c (ix3 1 (i 0) h)) * hdScale V c (ix2 0 h)
      + hdShift V c (ix2 0 h)) 0 * hdW V c (ix2 h (i 1))) + hdB V c (ix2 0 (i 1))) 0

theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S1x256) hz2, View.ld_unit_zero (S := S256x10) hz2, View.ld_unit_zero (S := S1x10) hz2]
  refine funext fun (j : S256x10.Idx) => ?_
  show k2_pay1 (F := Ideal) _ _ _ _ _ _ j = G2_5 V c (((cfg2.win 5).blk t).view.emb j)
  rw [emb2_5]
  obtain ⟨b, o, rfl⟩ : ∃ (b : Fin 256) (o : Fin 10), j = ix2 b o := ⟨j 0, j 1, eq_ix2 j⟩
  rw [k2_pay1_apply]
  unfold G2_5
  simp only [iblk2_0_apply, iblk2_1_apply, iblk2_2_apply, iblk2_3_apply, iblk2_4_apply, idx2_0a, idx2_0b]

theorem cover2_5_arr (i : S256x10.Idx) :
    ∃ t : Fin cfg2.N, (cfg2.win 5).flush t = true ∧ i ∈ ((cfg2.win 5).blk t).view.set :=
  ⟨t2_0, flush2_5 t2_0, by
    have h := ((cfg2.win 5).blk t2_0).view.emb_mem_set i
    rwa [emb2_5] at h⟩

/-- The last region's result array after the region, entry by entry. -/
theorem head_value (c : Dev nD) (b : Fin 256) (o : Fin 10) :
    ((dat2 (F := Ideal) V c).arrAt 5 cfg2.N : Vec Ideal S256x10 .f32) (ix2 b o)
      = max ((∑ h : Fin 256, max ((hdPart V c (ix3 0 b h) + hdPart V c (ix3 1 b h)) * hdScale V c (ix2 0 h)
          + hdShift V c (ix2 0 h)) 0 * hdW V c (ix2 h o)) + hdB V c (ix2 0 o)) 0 := by
  rw [(dat2 V c).arrAt_eq_of_cover 5 (G2_5 V c) (fun t _ => flushed2_5_eq V c t) cover2_5_arr]
  rfl

end Value

end Cert.KernelIdeal.Hand

end
-- ==== Proof.KIFcValue.lean ====
import proofs.«177748_g2000301280579440_pallasbulk_580_2_alg».proof.Proof.KIFc
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 1: the value of the partial sums

What each control case leaves in the accumulator and in the output block, as terms of the operand blocks; then, over the
extended reals, the accumulator after each point as a sum over the points of its run, and the output array as the double
sum over the run's blocks and the block's inner axis. -/

theorem fcHz2 : (![0, 0] : Fin 2 → Nat) = fun _ => 0 := funext fun a => by fin_cases a <;> rfl
theorem fcHz3 : (![0, 0, 0] : Fin 3 → Nat) = fun _ => 0 := funext fun a => by fin_cases a <;> rfl

/-- The block product: the operand block times the weight block (rounded to the operand's type), both contracted along
    their inner axis, into a zero tile. -/
def mm1 (x0 : Vec F S256x8192 .bf16) (x1 : Vec F S256x8192 .f32) : FVec F S256x256 .f32 :=
  matmul dot_S256x8192_S256x8192_S256x256_1_1_0_0_n_n none x0 (truncf .bf16 x1 bitsLt_bf16_f32) (constant S256x256 .f32 0x00000000#32)

/-- The zero tile the accumulator starts from. -/
def zero1 : FVec F S256x256 .f32 := broadcast S256x256 (Scalar.ofBits .f32 0x00000000#32)

theorem pay1_eq : k1_pay1 (F := F) = zero1 := by
  unfold k1_pay1 zero1; simp only [shapeCast_self]

theorem pay2_eq (v3 : Vec F S256x256 .f32) (v4 : Vec F S256x8192 .bf16) (v6 : Vec F S256x8192 .f32) :
    k1_pay2 v3 v4 v6 = addf v3 (mm1 v4 v6) := by
  unfold k1_pay2 mm1; simp only [shapeCast_self]

/-- Inner coordinate 0 leaves the block product added onto the zero tile. -/
theorem soutA_eq (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : cond1_0 i) (hc1 : ¬cond1_1 i)
    (x0 : Vec F S256x8192 .bf16) (x1 : Vec F S256x8192 .f32) :
    sout1_A_0 c i arg2 harg2 arg3 harg3 arg4 harg4 arg5 harg5 hc0 hc1 x0 x1 = addf zero1 (mm1 x0 x1) := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero fcHz2, View.readCov_unit_zero (S := S256x256) _ fcHz2]
  simp only [View.readAt_eq_ld, harg2.read_unread, harg3.read_unread, View.ld_unit_zero (S := S256x8192) fcHz2, pay2_eq, pay1_eq]

/-- Inner coordinate 1, 2, 3 adds the block product onto what the accumulator held. -/
theorem soutB_eq (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : ¬cond1_1 i)
    (x0 : Vec F S256x8192 .bf16) (x1 : Vec F S256x8192 .f32) (xs0 : Vec F S256x256 .f32) :
    sout1_B_0 c i arg2 harg2 arg3 harg3 arg4 harg4 arg5 harg5 hc0 hc1 x0 x1 xs0 = addf xs0 (mm1 x0 x1) := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero fcHz2]
  simp only [View.readAt_eq_ld, harg2.read_unread, harg3.read_unread, harg5.read_unread, View.ld_unit_zero (S := S256x8192) fcHz2, View.ld_unit_zero (S := S256x256) fcHz2, pay2_eq]

/-- Inner coordinate 4 does the same to the accumulator, -/
theorem soutC_eq (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) :
    sout1_C_0 c i arg2 harg2 arg3 harg3 arg4 harg4 arg5 harg5 hc0 hc1 x0 x1 xs0 = addf xs0 (mm1 x0 x1) := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero fcHz2]
  simp only [View.readAt_eq_ld, harg2.read_unread, harg3.read_unread, harg5.read_unread, View.ld_unit_zero (S := S256x8192) fcHz2, View.ld_unit_zero (S := S256x256) fcHz2, pay2_eq]

/-- and copies the new accumulator to the output block, under a leading unit axis. -/
theorem outC_eq (c : Dev nD) (i : grid1.Coords) (arg2 : Memref sig .tc .vmem S256x8192 .bf16) (harg2 : arg2.IsWhole) (arg3 : Memref sig .tc .vmem S256x8192 .f32) (harg3 : arg3.IsWhole) (arg4 : Memref sig .tc .vmem S1x256x256 .f32) (harg4 : arg4.IsWhole) (arg5 : Memref sig .tc .vmem S256x256 .f32) (harg5 : arg5.IsWhole) (hc0 : ¬cond1_0 i) (hc1 : cond1_1 i)
    (x0 : Vec F S256x8192 .bf16) (x1 : Vec F S256x8192 .f32) (xs0 : Vec F S256x256 .f32) :
    out1_C_2 c i arg2 harg2 arg3 harg3 arg4 harg4 arg5 harg5 hc0 hc1 x0 x1 xs0 = shapeCast S1x256x256 (addf xs0 (mm1 x0 x1)) shapeCasts_S256x256_S1x256x256 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero fcHz3, View.readCov_unit_zero (S := S256x256) _ fcHz2]
  simp only [View.readAt_eq_ld, harg2.read_unread, harg3.read_unread, harg5.read_unread, View.ld_unit_zero (S := S256x8192) fcHz2, View.ld_unit_zero (S := S256x256) fcHz2, pay2_eq]
  rfl

/-! ## Over the extended reals -/

section IdealValue

abbrev D1 : DotDims S256x8192 S256x8192 S256x256 := dot_S256x8192_S256x8192_S256x256_1_1_0_0_n_n

theorem lhsD1_0 (j : S256x256.Idx) (k : D1.contr.Idx) : (D1.lhsIdx j k 0 : ℕ) = j 0 := by
  simp [DotDims.lhsIdx, D1, dot_S256x8192_S256x8192_S256x256_1_1_0_0_n_n]; rfl
theorem lhsD1_1 (j : S256x256.Idx) (k : D1.contr.Idx) : (D1.lhsIdx j k 1 : ℕ) = k ⟨0, by decide⟩ := by
  simp [DotDims.lhsIdx, D1, dot_S256x8192_S256x8192_S256x256_1_1_0_0_n_n]; rfl
theorem rhsD1_0 (j : S256x256.Idx) (k : D1.contr.Idx) : (D1.rhsIdx j k 0 : ℕ) = j 1 := by
  simp [DotDims.rhsIdx, D1, dot_S256x8192_S256x8192_S256x256_1_1_0_0_n_n]; rfl
theorem rhsD1_1 (j : S256x256.Idx) (k : D1.contr.Idx) : (D1.rhsIdx j k 1 : ℕ) = k ⟨0, by decide⟩ := by
  simp [DotDims.rhsIdx, D1, dot_S256x8192_S256x8192_S256x256_1_1_0_0_n_n]; rfl

/-- The inner axis's contraction index is its coordinate. -/
def cE1 : D1.contr.Idx ≃ Fin 8192 := contrEquiv1 D1 8192 (by decide) (by decide)

theorem cE1_symm_val (k : Fin 8192) : ((cE1.symm k) ⟨0, by decide⟩ : ℕ) = k.val :=
  contrEquiv1_symm_val D1 8192 (by decide) (by decide) k

theorem fcExt2 {n0 n1 : ℕ} (x y : (⟨2, ![n0, n1]⟩ : Shape).Idx) (h0 : (x 0 : ℕ) = y 0) (h1 : (x 1 : ℕ) = y 1) : x = y := by
  funext a
  match a with
  | ⟨0, _⟩ => exact Fin.ext h0
  | ⟨1, _⟩ => exact Fin.ext h1

/-- The block product at an output index: the sum over the inner axis of the products of the two blocks' rows. -/
theorem mm1_apply (x0 : Vec Ideal S256x8192 .bf16) (x1 : Vec Ideal S256x8192 .f32) (b h : Fin 256) :
    (mm1 x0 x1 (ix2 b h) : EReal) = ∑ k : Fin 8192, (x0 (ix2 b k) : EReal) * (x1 (ix2 h k) : EReal) := by
  unfold mm1
  refine (Ideal.matmul_constant_zero_apply D1 none x0 (truncf .bf16 x1 bitsLt_bf16_f32) (ix2 b h)).trans ?_
  rw [← Equiv.sum_comp cE1.symm]
  refine Finset.sum_congr rfl fun k _ => ?_
  have e0 : D1.lhsIdx (ix2 b h) (cE1.symm k) = ix2 b k := fcExt2 _ _ (by rw [lhsD1_0]) (by rw [lhsD1_1, cE1_symm_val])
  have e1 : D1.rhsIdx (ix2 b h) (cE1.symm k) = ix2 h k := fcExt2 _ _ (by rw [rhsD1_0]) (by rw [rhsD1_1, cE1_symm_val])
  rw [e0, e1]
  rfl

end IdealValue

section IdealRun
variable (V : (c : Dev nD) → (b : Ref sig .tc) → Buf (Elt Ideal) ((c : Thread nD τ).loc b))

/-- Where the windows' blocks sit at point `t`: the operands' at column block `t`, the output's at slab `t / 5`. -/
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = t.val :=
  (by decide +kernel : ∀ t : Fin grid1.N, win1_1.index t 0 = 0 ∧ win1_1.index t 1 = t.val)
theorem index1_2 : ∀ t : Fin cfg1.N, win1_2.index t 0 = t.val / 5 ∧ win1_2.index t 1 = 0 ∧ win1_2.index t 2 = 0 :=
  (by decide +kernel : ∀ t : Fin grid1.N, win1_2.index t 0 = t.val / 5 ∧ win1_2.index t 1 = 0 ∧ win1_2.index t 2 = 0)

/-- The operand array as the region finds it, and the weight array. -/
abbrev fcX1 (c : Dev nD) : S256x81920.Idx → Elt Ideal .bf16 := V c main_v51
abbrev fcW1 (c : Dev nD) : S256x81920.Idx → Elt Ideal .f32 := V c main_arg9

/-- The operand's block at point `t` is columns `8192·t …` of the array. -/
theorem iblk1_0_apply (c : Dev nD) (t : Fin cfg1.N) (x : S256x8192.Idx) (k : S256x81920.Idx)
    (hk0 : (k 0).val = (x 0).val) (hk1 : (k 1).val = t.val * 8192 + (x 1).val) :
    (iblk1 V c 0 t : Vec Ideal S256x8192 .bf16) x = fcX1 V c k := by
  have hi := index1_0 t
  unfold iblk1
  rw [View.read_apply]
  show V c main_v51 _ = V c main_v51 _
  congr 1
  funext a
  apply Fin.ext
  match a with
  | ⟨0, _⟩ => show win1_0.index t 0 * 256 + 1 * (x 0).val = (k 0).val; rw [hi.1, hk0]; omega
  | ⟨1, _⟩ => show win1_0.index t 1 * 8192 + 1 * (x 1).val = (k 1).val; rw [hi.2, hk1]; omega

theorem iblk1_1_apply (c : Dev nD) (t : Fin cfg1.N) (x : S256x8192.Idx) (k : S256x81920.Idx)
    (hk0 : (k 0).val = (x 0).val) (hk1 : (k 1).val = t.val * 8192 + (x 1).val) :
    (iblk1 V c 1 t : Vec Ideal S256x8192 .f32) x = fcW1 V c k := by
  have hi := index1_1 t
  unfold iblk1
  rw [View.read_apply]
  show V c main_arg9 _ = V c main_arg9 _
  congr 1
  funext a
  apply Fin.ext
  match a with
  | ⟨0, _⟩ => show win1_1.index t 0 * 256 + 1 * (x 0).val = (k 0).val; rw [hi.1, hk0]; omega
  | ⟨1, _⟩ => show win1_1.index t 1 * 8192 + 1 * (x 1).val = (k 1).val; rw [hi.2, hk1]; omega

/-- Column `m` of row `b` of the operand (zero past the array, where nothing reads it). -/
def Xn (c : Dev nD) (b : Fin 256) (m : ℕ) : EReal := if h : m < 81920 then (fcX1 V c (ix2 b ⟨m, h⟩) : EReal) else 0
def Wn (c : Dev nD) (b : Fin 256) (m : ℕ) : EReal := if h : m < 81920 then (fcW1 V c (ix2 b ⟨m, h⟩) : EReal) else 0

/-- What point `n` adds at output `(b, h)`: the products along column block `n`. -/
def M1 (c : Dev nD) (n : ℕ) (b h : Fin 256) : EReal := ∑ k : Fin 8192, Xn V c b (n * 8192 + k.val) * Wn V c h (n * 8192 + k.val)

theorem blockM (c : Dev nD) (t : Fin cfg1.N) (b h : Fin 256) :
    (mm1 (iblk1 V c 0 t) (iblk1 V c 1 t) (ix2 b h) : EReal) = M1 V c t.val b h := by
  have hN : t.val < 10 := lt_of_lt_of_eq t.isLt (show cfg1.N = 10 from N_1)
  refine (mm1_apply (iblk1 V c 0 t) (iblk1 V c 1 t) b h).trans ?_
  unfold M1
  refine Finset.sum_congr rfl fun k _ => ?_
  have hk : t.val * 8192 + k.val < 81920 := by have := k.isLt; omega
  unfold Xn Wn
  rw [dif_pos hk, dif_pos hk]
  rw [iblk1_0_apply V c t (ix2 b k) (ix2 b ⟨t.val * 8192 + k.val, hk⟩) rfl rfl,
    iblk1_1_apply V c t (ix2 h k) (ix2 h ⟨t.val * 8192 + k.val, hk⟩) rfl rfl]

theorem zero1_apply (i : S256x256.Idx) : (zero1 (F := Ideal) i : EReal) = 0 := by
  unfold zero1
  show (Ideal.ofBits .f32 0x00000000#32 : EReal) = 0
  exact Ideal.ofBits_zero_f32

/-- THE ACCUMULATOR after point `n`: the sum of what the points of its run added, from the run's first point
    `n - n % 5` up to `n`. -/
theorem acc_val (c : Dev nD) : ∀ (n : ℕ) (hn : n < cfg1.N) (b h : Fin 256),
    ((outsAt1 V c n hn).2 (ix2 b h) : EReal) = ∑ s ∈ Finset.range (n % 5 + 1), M1 V c (n - n % 5 + s) b h
  | 0, hn, b, h => by
    have e := outsAt1_A V c ⟨0, hn⟩ (Nat.zero_mod _)
    rw [show outsAt1 V c 0 hn = _ from e]
    unfold ptA; dsimp only
    rw [soutA_eq]
    show (addf zero1 (mm1 (iblk1 V c 0 ⟨0, hn⟩) (iblk1 V c 1 ⟨0, hn⟩)) (ix2 b h) : EReal) = _
    rw [addf_apply, zero1_apply, zero_add, blockM]
    simp
  | n + 1, hn, b, h => by
    have ih := acc_val c n (Nat.lt_of_succ_lt hn) b h
    by_cases h0 : (n + 1) % 5 = 0
    · have e := outsAt1_A V c ⟨n + 1, hn⟩ h0
      rw [show outsAt1 V c (n + 1) hn = _ from e]
      unfold ptA; dsimp only
      rw [soutA_eq]
      show (addf zero1 (mm1 (iblk1 V c 0 ⟨n + 1, hn⟩) (iblk1 V c 1 ⟨n + 1, hn⟩)) (ix2 b h) : EReal) = _
      rw [addf_apply, zero1_apply, zero_add, blockM, h0]
      simp
    · have hm : (n + 1) % 5 = n % 5 + 1 := by omega
      have hb : n + 1 - (n % 5 + 1) = n - n % 5 := by omega
      have hl : n - n % 5 + (n % 5 + 1) = n + 1 := by omega
      by_cases h1 : (n + 1) % 5 = 4
      · have e := outsAt1_C V c ⟨n + 1, hn⟩ h0 h1
        rw [show outsAt1 V c (n + 1) hn = _ from e]
        unfold ptC; dsimp only
        rw [soutC_eq]
        show (addf (outsAt1 V c n (Nat.lt_of_succ_lt hn)).2 (mm1 (iblk1 V c 0 ⟨n + 1, hn⟩) (iblk1 V c 1 ⟨n + 1, hn⟩)) (ix2 b h) : EReal) = _
        rw [addf_apply, ih, blockM, hm, hb, Finset.sum_range_succ (fun s => M1 V c (n - n % 5 + s) b h) (n % 5 + 1), hl]
      · have e := outsAt1_B V c ⟨n + 1, hn⟩ h0 h1
        rw [show outsAt1 V c (n + 1) hn = _ from e]
        unfold ptB; dsimp only
        rw [soutB_eq]
        show (addf (outsAt1 V c n (Nat.lt_of_succ_lt hn)).2 (mm1 (iblk1 V c 0 ⟨n + 1, hn⟩) (iblk1 V c 1 ⟨n + 1, hn⟩)) (ix2 b h) : EReal) = _
        rw [addf_apply, ih, blockM, hm, hb, Finset.sum_range_succ (fun s => M1 V c (n - n % 5 + s) b h) (n % 5 + 1), hl]

/-- At a point that copies the accumulator out, the output block is the accumulator under a leading unit axis. -/
theorem out_eq_cast (c : Dev nD) (t : Fin cfg1.N) (h1 : t.val % 5 = 4) :
    (outsAt1 V c t.val t.isLt).1 = shapeCast S1x256x256 ((outsAt1 V c t.val t.isLt).2) shapeCasts_S256x256_S1x256x256 := by
  have h0 : ¬t.val % 5 = 0 := by omega
  rw [outsAt1_C V c t h0 h1]
  unfold ptC; dsimp only
  rw [outC_eq, soutC_eq]

/-- THE OUTPUT ARRAY after the region: at `(p, b, h)` the sum, over the five column blocks of half `p`, of the products
    along the block. -/
def G1 (c : Dev nD) : S2x256x256.Idx → Elt Ideal .f32 :=
  fun i => (∑ s ∈ Finset.range 5, M1 V c (5 * (i 0).val + s) (i 1) (i 2) : EReal)

/-- Slab `t / 5` of `G1` read through the output window's block at point `t`. -/
theorem blk_read_G1 (c : Dev nD) (t : Fin cfg1.N) (y : S1x256x256.Idx) (k : S2x256x256.Idx)
    (hk0 : (k 0).val = t.val / 5) (hk1 : (k 1).val = (y 1).val) (hk2 : (k 2).val = (y 2).val) :
    ((cfg1.win 2).blk t).view.read (Elt Ideal) (G1 V c) y = G1 V c k := by
  have hi := index1_2 t
  have hy0 : (y 0).val = 0 := by have := (y 0).isLt; simp at this; omega
  rw [View.read_apply]
  show G1 V c _ = G1 V c _
  congr 1
  funext a
  apply Fin.ext
  match a with
  | ⟨0, _⟩ => show win1_2.index t 0 * 1 + 1 * (y 0).val = (k 0).val; rw [hi.1, hk0, hy0]; omega
  | ⟨1, _⟩ => show win1_2.index t 1 * 256 + 1 * (y 1).val = (k 1).val; rw [hi.2.1, hk1]; omega
  | ⟨2, _⟩ => show win1_2.index t 2 * 256 + 1 * (y 2).val = (k 2).val; rw [hi.2.2, hk2]; omega

/-- What a point that writes back writes is its block of `G1`. -/
theorem flushed_eq1 (c : Dev nD) (t : Fin cfg1.N) (hf : (cfg1.win 2).flush t = true) :
    (dat1 V c).flushed 2 t = ((cfg1.win 2).blk t).view.read (Elt Ideal) (G1 V c) := by
  have h1 : t.val % 5 = 4 := (flush1_2 t).mp hf
  have hN : t.val < 10 := lt_of_lt_of_eq t.isLt (show cfg1.N = 10 from N_1)
  show (cfg1.win 2).cut (grid1.coords t) ((dat1 V c).after 2 t) = _
  rw [after1_2, out_eq_cast V c t h1]
  funext y
  have hy : (y : S1x256x256.Idx) = ix3 (y 0) (y 1) (y 2) := eq_ix3 y
  refine Eq.trans ?_ (blk_read_G1 V c t y (ix3 ⟨t.val / 5, by omega⟩ (y 1) (y 2)) rfl rfl rfl).symm
  show shapeCast S1x256x256 ((outsAt1 V c t.val t.isLt).2) shapeCasts_S256x256_S1x256x256 y = _
  rw [shapeCast_addUnit_apply ![256, 256] ((outsAt1 V c t.val t.isLt).2) shapeCasts_S256x256_S1x256x256 y]
  have e : (fun a : Fin 2 => y a.succ) = ix2 (y 1) (y 2) := by
    funext a; match a with
    | ⟨0, _⟩ => rfl
    | ⟨1, _⟩ => rfl
  rw [e]
  refine (acc_val V c t.val t.isLt (y 1) (y 2)).trans ?_
  unfold G1
  rw [h1]
  have hb : t.val - 4 = 5 * (t.val / 5) := by omega
  rw [hb]

/-- Every index of the output array is in the block of a point that writes back. -/
theorem cover1 (i : S2x256x256.Idx) :
    ∃ t : Fin cfg1.N, (cfg1.win 2).flush t = true ∧ i ∈ ((cfg1.win 2).blk t).view.set := by
  have hN : cfg1.N = 10 := N_1
  have hi0 : (i 0).val < 2 := (i 0).isLt
  have hi1 : (i 1).val < 256 := (i 1).isLt
  have hi2 : (i 2).val < 256 := (i 2).isLt
  let t : Fin cfg1.N := ⟨5 * (i 0).val + 4, by omega⟩
  have hx := index1_2 t
  have hd : t.val / 5 = (i 0).val := by show (5 * (i 0).val + 4) / 5 = _; omega
  refine ⟨t, (flush1_2 t).mpr (by show (5 * (i 0).val + 4) % 5 = 4; omega), ?_⟩
  show i ∈ ((View.whole main_v52).slice (win1_2.rect t)).set
  rw [View.set_slice_whole, Rect.mem_set_unit]
  intro a
  match a with
  | ⟨0, _⟩ => show win1_2.index t 0 * win1_2.size 0 ≤ (i 0 : Nat) ∧ (i 0 : Nat) < win1_2.index t 0 * win1_2.size 0 + win1_2.xsize (grid1.coords t) 0
              rw [hx.1, hd, show win1_2.size 0 = 1 from rfl, show win1_2.xsize (grid1.coords t) 0 = 1 from rfl]; omega
  | ⟨1, _⟩ => show win1_2.index t 1 * win1_2.size 1 ≤ (i 1 : Nat) ∧ (i 1 : Nat) < win1_2.index t 1 * win1_2.size 1 + win1_2.xsize (grid1.coords t) 1
              rw [hx.2.1, show win1_2.size 1 = 256 from rfl, show win1_2.xsize (grid1.coords t) 1 = 256 from rfl]; omega
  | ⟨2, _⟩ => show win1_2.index t 2 * win1_2.size 2 ≤ (i 2 : Nat) ∧ (i 2 : Nat) < win1_2.index t 2 * win1_2.size 2 + win1_2.xsize (grid1.coords t) 2
              rw [hx.2.2, show win1_2.size 2 = 256 from rfl, show win1_2.xsize (grid1.coords t) 2 = 256 from rfl]; omega

/-- THE VALUE of the region: the partial-sum array ends holding `G1`. -/
theorem final1 (c : Dev nD) : (dat1 V c).arrAt 2 cfg1.N = G1 V c :=
  (dat1 V c).arrAt_eq_of_cover 2 (G1 V c) (flushed_eq1 V c) (cover1)

/-- The same at an index, over the array's own coordinates: for half `p`, row `b` of the operand and row `h` of the
    weight, the sum over the half's five column blocks and the 8192 columns of a block. -/
theorem final1_apply (c : Dev nD) (p : Fin 2) (b h : Fin 256) :
    ((dat1 V c).arrAt 2 cfg1.N (ix3 p b h) : EReal)
      = ∑ j : Fin 5, ∑ k : Fin 8192,
          (fcX1 V c (ix2 b ⟨(p.val * 5 + j.val) * 8192 + k.val, by have := p.isLt; have := j.isLt; have := k.isLt; omega⟩) : EReal)
            * (fcW1 V c (ix2 h ⟨(p.val * 5 + j.val) * 8192 + k.val, by have := p.isLt; have := j.isLt; have := k.isLt; omega⟩) : EReal) := by
  rw [final1 V c]
  show (∑ s ∈ Finset.range 5, M1 V c (5 * p.val + s) b h : EReal) = _
  rw [← Fin.sum_univ_eq_sum_range (fun s => M1 V c (5 * p.val + s) b h) 5]
  refine Finset.sum_congr rfl fun j _ => ?_
  unfold M1
  refine Finset.sum_congr rfl fun k _ => ?_
  have hk : (5 * p.val + j.val) * 8192 + k.val < 81920 := by have := p.isLt; have := j.isLt; have := k.isLt; omega
  have he : (p.val * 5 + j.val) * 8192 + k.val = (5 * p.val + j.val) * 8192 + k.val := by ring
  unfold Xn Wn
  rw [dif_pos hk, dif_pos hk]
  simp only [he]

end IdealRun

end Cert.KernelIdeal.Hand

end
-- ==== Proof.KIConvValue.lean ====
/-
  The value of the first kernel region on the extended reals.

  The region's body, per batch element, multiplies the first layer's weights by the six-row window matrix, applies the
  folded scale and shift columns and a clamp at zero, multiplies the stacked three-tap weights of the second layer by
  the result, adds the middle tap's rows to the first tap's rows moved one column right and the last tap's rows moved
  one column left (a zero column entering at the edge), applies the second folded scale and shift and a clamp at zero.
  Here that is read entry by entry: first what the body's stored value is at an index over any seven loaded vectors,
  then the result array after the region as one function of the seven arrays the region reads.
-/
import proofs.«177748_g2000301280579440_pallasbulk_580_2_alg».proof.Proof.KIConv
import proofs.«177748_g2000301280579440_pallasbulk_580_2_alg».proof.Proof.LibPlainDot
import proofs.«177748_g2000301280579440_pallasbulk_580_2_alg».proof.Proof.LibIdxLayout
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## Rows and columns cut out of a matrix, and a column joined at either edge -/

section Layout
variable {α : Type}

/-- Rows `o …` of a matrix, all columns: at `(r, l)` the matrix at `(o + r, l)`. -/
theorem cvSliceRows_apply {m n m' : ℕ} (o : ℕ) (x : (⟨2, ![m, n]⟩ : Shape).Idx → α)
    (h : (⟨2, ![m, n]⟩ : Shape).Slices ![o, 0] ⟨2, ![m', n]⟩) (r : Fin m') (l : Fin n) (hr : o + r.val < m) :
    extractStridedSlice ⟨2, ![m', n]⟩ ![o, 0] x h (ix2 r l) = x (ix2 ⟨o + r.val, hr⟩ l) :=
  extractStridedSlice_apply ![o, 0] x h (ix2 r l) (ix2 ⟨o + r.val, hr⟩ l) fun a => by
    match a with
    | ⟨0, _⟩ => rfl
    | ⟨1, _⟩ => show l.val = 0 + l.val; omega

/-- Columns `o …` of a matrix, all rows: at `(r, l)` the matrix at `(r, o + l)`. -/
theorem cvSliceCols_apply {m n n' : ℕ} (o : ℕ) (x : (⟨2, ![m, n]⟩ : Shape).Idx → α)
    (h : (⟨2, ![m, n]⟩ : Shape).Slices ![0, o] ⟨2, ![m, n']⟩) (r : Fin m) (l : Fin n') (hl : o + l.val < n) :
    extractStridedSlice ⟨2, ![m, n']⟩ ![0, o] x h (ix2 r l) = x (ix2 r ⟨o + l.val, hl⟩) :=
  extractStridedSlice_apply ![0, o] x h (ix2 r l) (ix2 r ⟨o + l.val, hl⟩) fun a => by
    match a with
    | ⟨0, _⟩ => show r.val = 0 + r.val; omega
    | ⟨1, _⟩ => rfl

/-- One column joined in front of a matrix: column 0 is the joined column, column `l ≥ 1` the matrix's column `l - 1`. -/
theorem cvJoinFront_apply {m n : ℕ} (z : (⟨2, ![m, 1]⟩ : Shape).Idx → α) (x : (⟨2, ![m, n]⟩ : Shape).Idx → α)
    (h : Shape.Concatenates [⟨2, ![m, 1]⟩, ⟨2, ![m, n]⟩] ⟨2, ![m, n + 1]⟩ 1) (r : Fin m) (l : Fin (n + 1)) :
    concatenate ⟨2, ![m, n + 1]⟩ 1 [⟨⟨2, ![m, 1]⟩, z⟩, ⟨⟨2, ![m, n]⟩, x⟩] h (ix2 r l)
      = if hl : 1 ≤ l.val then x (ix2 r ⟨l.val - 1, by have := l.isLt; omega⟩) else z (ix2 r (0 : Fin 1)) := by
  split
  · rename_i hl
    refine concatenate_pair_apply_right 1 z x h (ix2 r l) rfl rfl (ix2 r ⟨l.val - 1, by have := l.isLt; omega⟩) (fun b hb => ?_) ?_
    · match b with
      | ⟨0, _⟩ => rfl
      | ⟨1, _⟩ => exact absurd rfl hb
    · show l.val - 1 + 1 = l.val; omega
  · rename_i hl
    refine concatenate_pair_apply_left 1 z x h (ix2 r l) rfl (ix2 r (0 : Fin 1)) fun b => ?_
    match b with
    | ⟨0, _⟩ => rfl
    | ⟨1, _⟩ => show 0 = l.val; omega

/-- One column joined behind a matrix: column `l < n` is the matrix's, the last one the joined column. -/
theorem cvJoinBack_apply {m n : ℕ} (x : (⟨2, ![m, n]⟩ : Shape).Idx → α) (z : (⟨2, ![m, 1]⟩ : Shape).Idx → α)
    (h : Shape.Concatenates [⟨2, ![m, n]⟩, ⟨2, ![m, 1]⟩] ⟨2, ![m, n + 1]⟩ 1) (r : Fin m) (l : Fin (n + 1)) :
    concatenate ⟨2, ![m, n + 1]⟩ 1 [⟨⟨2, ![m, n]⟩, x⟩, ⟨⟨2, ![m, 1]⟩, z⟩] h (ix2 r l)
      = if hl : l.val < n then x (ix2 r ⟨l.val, hl⟩) else z (ix2 r (0 : Fin 1)) := by
  split
  · rename_i hl
    refine concatenate_pair_apply_left 1 x z h (ix2 r l) rfl (ix2 r ⟨l.val, hl⟩) fun b => ?_
    match b with
    | ⟨0, _⟩ => rfl
    | ⟨1, _⟩ => rfl
  · rename_i hl
    refine concatenate_pair_apply_right 1 x z h (ix2 r l) rfl rfl (ix2 r (0 : Fin 1)) (fun b hb => ?_) ?_
    · match b with
      | ⟨0, _⟩ => rfl
      | ⟨1, _⟩ => exact absurd rfl hb
    · show 0 + n = l.val; have := l.isLt; omega

end Layout

/-! ## The body's value at an index -/

theorem cvDot0a_plain : dot_S256x6_S6x1024_S256x1024_1_0_0_1_n_n = DotDims.plain 256 6 1024 := rfl
theorem cvDot0b_plain : dot_S240x256_S256x1024_S240x1024_1_0_0_1_n_n = DotDims.plain 240 256 1024 := rfl

theorem cvExt2 {n0 n1 : ℕ} (x y : (⟨2, ![n0, n1]⟩ : Shape).Idx) (h0 : (x 0 : ℕ) = y 0) (h1 : (x 1 : ℕ) = y 1) : x = y := by
  funext a
  match a with
  | ⟨0, _⟩ => exact Fin.ext h0
  | ⟨1, _⟩ => exact Fin.ext h1

/-- Row `c2` of tap `k` in the stacked three-tap weights. -/
def cvTapRow (k : Fin 3) (c2 : Fin 80) : Fin 240 := ⟨k.val * 80 + c2.val, by have := k.isLt; have := c2.isLt; omega⟩

section Pay
variable (v0 : Vec Ideal S256x6 .f32) (v2 : Vec Ideal S1x6x1024 .f32) (v5 v9 : Vec Ideal S256x1 .f32)
  (v15 : Vec Ideal S240x256 .f32) (v28 v32 : Vec Ideal S80x1 .f32)

/-- The first layer at channel `c1` and column `l`: the six-term product, scaled, shifted, clamped at zero. -/
def cvH (c1 : Fin 256) (l : Fin 1024) : EReal :=
  max ((∑ j : Fin 6, (v0 (ix2 c1 j) : EReal) * (v2 (ix3 (0 : Fin 1) j l) : EReal)) * (v5 (ix2 c1 (0 : Fin 1)) : EReal)
    + (v9 (ix2 c1 (0 : Fin 1)) : EReal)) 0

/-- Row `r` of the stacked weights times the first layer, at column `l`. -/
def cvP (r : Fin 240) (l : Fin 1024) : EReal := ∑ c1 : Fin 256, (v15 (ix2 r c1) : EReal) * cvH v0 v2 v5 v9 c1 l

/-- The body's four stages: the first layer; the stacked product; the three taps aligned and added; the second scale,
    shift and clamp. -/
def cvSt1 : FVec Ideal S256x1024 .f32 :=
  maximumf (addf (mulf (matmul (φ₁ := .f32) (φ₂ := .f32) dot_S256x6_S6x1024_S256x1024_1_0_0_1_n_n none (shapeCast S256x6 v0 shapeCasts_S256x6_S256x6)
        (shapeCast S6x1024 v2 shapeCasts_S1x6x1024_S6x1024) (constant S256x1024 .f32 0x00000000#32))
      (broadcastTo S256x1024 (shapeCast S256x1 v5 shapeCasts_S256x1_S256x1) broadcasts_S256x1_S256x1024))
    (broadcastTo S256x1024 (shapeCast S256x1 v9 shapeCasts_S256x1_S256x1) broadcasts_S256x1_S256x1024)) (broadcast S256x1024 (Scalar.ofBits .f32 0x00000000#32))

def cvSt2 (hh : FVec Ideal S256x1024 .f32) : FVec Ideal S240x1024 .f32 :=
  matmul (φ₁ := .f32) (φ₂ := .f32) dot_S240x256_S256x1024_S240x1024_1_0_0_1_n_n none (shapeCast S240x256 v15 shapeCasts_S240x256_S240x256) hh (constant S240x1024 .f32 0x00000000#32)

def cvSt3 (pp : FVec Ideal S240x1024 .f32) : FVec Ideal S80x1024 .f32 :=
  addf (addf (extractStridedSlice S80x1024 ![80, 0] pp slices_S240x1024_o80_0_S80x1024)
      (concatenate S80x1024 1 [⟨S80x1, broadcast S80x1 (Scalar.ofBits .f32 0x00000000#32)⟩,
        ⟨S80x1023, extractStridedSlice S80x1023 ![0, 0] (extractStridedSlice S80x1024 ![0, 0] pp slices_S240x1024_o0_0_S80x1024) slices_S80x1024_o0_0_S80x1023⟩]
        concatenates_S80x1_S80x1023_S80x1024_d1))
    (concatenate S80x1024 1 [⟨S80x1023, extractStridedSlice S80x1023 ![0, 1] (extractStridedSlice S80x1024 ![160, 0] pp slices_S240x1024_o160_0_S80x1024) slices_S80x1024_o0_1_S80x1023⟩,
        ⟨S80x1, broadcast S80x1 (Scalar.ofBits .f32 0x00000000#32)⟩]
      concatenates_S80x1023_S80x1_S80x1024_d1)

def cvSt4 (aa : FVec Ideal S80x1024 .f32) : FVec Ideal S80x1024 .bf16 :=
  truncf .bf16 (maximumf (addf (mulf aa (broadcastTo S80x1024 (shapeCast S80x1 v28 shapeCasts_S80x1_S80x1) broadcasts_S80x1_S80x1024))
      (broadcastTo S80x1024 (shapeCast S80x1 v32 shapeCasts_S80x1_S80x1) broadcasts_S80x1_S80x1024))
    (broadcast S80x1024 (Scalar.ofBits .f32 0x00000000#32))) bitsLt_bf16_f32

/-- The body's value is the four stages composed. -/
theorem cvPay2_eq : k0_pay2 v0 v2 v5 v9 v15 v28 v32 = cvSt4 v28 v32 (cvSt3 (cvSt2 v15 (cvSt1 v0 v2 v5 v9))) := by
  rfl

theorem cvZeroI : (FloatOps.ofBits .f32 0x00000000#32 : Ideal .f32) = 0 := Ideal.ofBits_zero_f32

theorem cvSt1_apply (c1 : Fin 256) (l : Fin 1024) : (cvSt1 v0 v2 v5 v9 (ix2 c1 l) : EReal) = cvH v0 v2 v5 v9 c1 l := by
  unfold cvSt1 cvH
  simp only [shapeCast_self, matmul]
  rw [maximumf_apply, addf_apply, mulf_apply, broadcast_apply, cvDot0a_plain, Cert.LibPlainDot.matmul_plain_zero_apply,
    Cert.LibIdxLayout.broadcastTo_a1_ab_apply, Cert.LibIdxLayout.broadcastTo_a1_ab_apply, cvZeroI]
  simp only [shapeCast_1ab_ab_apply]

theorem cvSt2_apply (hh : FVec Ideal S256x1024 .f32) (r : Fin 240) (l : Fin 1024) :
    (cvSt2 v15 hh (ix2 r l) : EReal) = ∑ c1 : Fin 256, (v15 (ix2 r c1) : EReal) * (hh (ix2 c1 l) : EReal) := by
  unfold cvSt2
  simp only [shapeCast_self, matmul]
  rw [cvDot0b_plain, Cert.LibPlainDot.matmul_plain_zero_apply]

theorem cvSt3_apply (pp : FVec Ideal S240x1024 .f32) (c2 : Fin 80) (l : Fin 1024) :
    (cvSt3 pp (ix2 c2 l) : EReal)
      = (pp (ix2 (cvTapRow 1 c2) l) : EReal)
        + (if hl : 1 ≤ l.val then (pp (ix2 (cvTapRow 0 c2) ⟨l.val - 1, by have := l.isLt; omega⟩) : EReal) else 0)
        + (if hl : l.val + 1 < 1024 then (pp (ix2 (cvTapRow 2 c2) ⟨l.val + 1, hl⟩) : EReal) else 0) := by
  have hc := c2.isLt
  have hll := l.isLt
  unfold cvSt3
  rw [addf_apply, addf_apply]
  congr 1
  · congr 1
    · exact cvSliceRows_apply 80 pp slices_S240x1024_o80_0_S80x1024 c2 l (by omega)
    · refine (cvJoinFront_apply (m := 80) (n := 1023) _ _ concatenates_S80x1_S80x1023_S80x1024_d1 c2 l).trans ?_
      by_cases hl : 1 ≤ l.val
      · rw [dif_pos hl, dif_pos hl]
        refine (cvSliceCols_apply 0 _ slices_S80x1024_o0_0_S80x1023 c2 ⟨l.val - 1, by omega⟩ (by show 0 + (l.val - 1) < 1024; omega)).trans ?_
        refine (cvSliceRows_apply 0 pp slices_S240x1024_o0_0_S80x1024 c2 ⟨0 + (l.val - 1), by omega⟩ (by omega)).trans ?_
        exact congrArg pp (cvExt2 _ _ (by show 0 + c2.val = 0 * 80 + c2.val; omega) (by show 0 + (l.val - 1) = l.val - 1; omega))
      · rw [dif_neg hl, dif_neg hl, broadcast_apply]; exact cvZeroI
  · refine (cvJoinBack_apply (m := 80) (n := 1023) _ _ concatenates_S80x1023_S80x1_S80x1024_d1 c2 l).trans ?_
    by_cases hl : l.val + 1 < 1024
    · have hl' : l.val < 1023 := by omega
      rw [dif_pos hl', dif_pos hl]
      refine (cvSliceCols_apply 1 _ slices_S80x1024_o0_1_S80x1023 c2 ⟨l.val, hl'⟩ (by show 1 + l.val < 1024; omega)).trans ?_
      refine (cvSliceRows_apply 160 pp slices_S240x1024_o160_0_S80x1024 c2 ⟨1 + l.val, by omega⟩ (by omega)).trans ?_
      exact congrArg pp (cvExt2 _ _ (by show 160 + c2.val = 2 * 80 + c2.val; omega) (by show 1 + l.val = l.val + 1; omega))
    · have hl' : ¬l.val < 1023 := by omega
      rw [dif_neg hl', dif_neg hl, broadcast_apply]; exact cvZeroI

theorem cvSt4_apply (aa : FVec Ideal S80x1024 .f32) (c2 : Fin 80) (l : Fin 1024) :
    (cvSt4 v28 v32 aa (ix2 c2 l) : EReal) = max ((aa (ix2 c2 l) : EReal) * (v28 (ix2 c2 (0 : Fin 1)) : EReal) + (v32 (ix2 c2 (0 : Fin 1)) : EReal)) 0 := by
  unfold cvSt4
  simp only [shapeCast_self]
  rw [truncf_apply, maximumf_apply, addf_apply, mulf_apply, broadcast_apply,
    Cert.LibIdxLayout.broadcastTo_a1_ab_apply, Cert.LibIdxLayout.broadcastTo_a1_ab_apply, cvZeroI]

/-- THE BODY'S VALUE at channel `c2` and column `l`: the middle tap's row times the first layer at `l`, plus the first
    tap's at `l - 1` and the last tap's at `l + 1` (nothing past either edge), scaled, shifted, clamped at zero. -/
theorem cvPay2_apply (c2 : Fin 80) (l : Fin 1024) :
    (k0_pay2 v0 v2 v5 v9 v15 v28 v32 (ix2 c2 l) : EReal)
      = max ((cvP v0 v2 v5 v9 v15 (cvTapRow 1 c2) l
          + (if hl : 1 ≤ l.val then cvP v0 v2 v5 v9 v15 (cvTapRow 0 c2) ⟨l.val - 1, by have := l.isLt; omega⟩ else 0)
          + (if hl : l.val + 1 < 1024 then cvP v0 v2 v5 v9 v15 (cvTapRow 2 c2) ⟨l.val + 1, hl⟩ else 0))
        * (v28 (ix2 c2 (0 : Fin 1)) : EReal) + (v32 (ix2 c2 (0 : Fin 1)) : EReal)) 0 := by
  rw [cvPay2_eq, cvSt4_apply, cvSt3_apply]
  have hP : ∀ (r : Fin 240) (l' : Fin 1024), (cvSt2 v15 (cvSt1 v0 v2 v5 v9) (ix2 r l') : EReal) = cvP v0 v2 v5 v9 v15 r l' := fun r l' => by
    rw [cvSt2_apply]; unfold cvP; exact Finset.sum_congr rfl fun c1 _ => by rw [cvSt1_apply]
  simp only [hP]

end Pay

/-! ## The blocks at a point, and the result array -/

section Arrays
variable (V : (c : Dev nD) → (b : Ref sig .tc) → Buf (Elt Ideal) ((c : Thread nD τ).loc b))

theorem cvHz2 : (![0, 0] : Fin 2 → Nat) = fun _ => 0 := funext fun a => by fin_cases a <;> rfl
theorem cvHz3 : (![0, 0, 0] : Fin 3 → Nat) = fun _ => 0 := funext fun a => by fin_cases a <;> rfl

/-- The window matrix's block and the result's block at point `t` are slab `t` of their arrays. -/
theorem cvIndex0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem cvIndex7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-- The seven arrays the region reads, as it finds them: the window matrix, the first layer's weights, scale and shift
    columns, the stacked second-layer weights, its scale and shift columns. -/
abbrev cvXt (c : Dev nD) : Vec Ideal S256x6x1024 .f32 := V c main_v49
abbrev cvW1t (c : Dev nD) : Vec Ideal S256x6 .f32 := V c main_v27
abbrev cvS1 (c : Dev nD) : Vec Ideal S256x1 .f32 := V c main_v6
abbrev cvT1 (c : Dev nD) : Vec Ideal S256x1 .f32 := V c main_v7
abbrev cvW2t (c : Dev nD) : Vec Ideal S240x256 .f32 := V c main_v29
abbrev cvS2 (c : Dev nD) : Vec Ideal S80x1 .f32 := V c main_v14
abbrev cvT2 (c : Dev nD) : Vec Ideal S80x1 .f32 := V c main_v15

/-- Batch element `b`'s window matrix, as a block. -/
def cvSlab (c : Dev nD) (b : Fin 256) : Vec Ideal S1x6x1024 .f32 := fun y => cvXt V c (ix3 b (y 1) (y 2))

theorem cvBlk0 (c : Dev nD) (t : Fin cfg0.N) :
    (iblk0 V c 0 t : Vec Ideal S1x6x1024 .f32) = cvSlab V c ⟨t.val, lt_of_lt_of_eq t.isLt (show cfg0.N = 256 from N_0)⟩ := by
  have hi := cvIndex0 t
  refine funext fun (y : S1x6x1024.Idx) => ?_
  have hy0 : (y 0).val = 0 := by have := (y 0).isLt; simp at this; omega
  show V c main_v49 (((cfg0.win 0).blk t).view.emb y) = V c main_v49 _
  refine congrArg _ (funext fun a => Fin.ext ?_)
  match a with
  | ⟨0, _⟩ => show win0_0.index t 0 * 1 + 1 * (y 0).val = t.val; rw [hi.1, hy0]; omega
  | ⟨1, _⟩ => show win0_0.index t 1 * 6 + 1 * (y 1).val = (y 1).val; rw [hi.2.1]; omega
  | ⟨2, _⟩ => show win0_0.index t 2 * 1024 + 1 * (y 2).val = (y 2).val; rw [hi.2.2]; omega

theorem cvBlk1 (c : Dev nD) (t : Fin cfg0.N) : (iblk0 V c 1 t : Vec Ideal S256x6 .f32) = (V c main_v27 : Vec Ideal S256x6 .f32) := by
  refine funext fun (j : S256x6.Idx) => ?_
  show V c main_v27 (((cfg0.win 1).blk t).view.emb j) = V c main_v27 j
  refine congrArg _ (funext fun a => Fin.ext ?_)
  match a with
  | ⟨0, _⟩ => show 0 * 256 + 1 * (j 0).val = (j 0).val; omega
  | ⟨1, _⟩ => show 0 * 6 + 1 * (j 1).val = (j 1).val; omega

theorem cvBlk2 (c : Dev nD) (t : Fin cfg0.N) : (iblk0 V c 2 t : Vec Ideal S256x1 .f32) = (V c main_v6 : Vec Ideal S256x1 .f32) := by
  refine funext fun (j : S256x1.Idx) => ?_
  show V c main_v6 (((cfg0.win 2).blk t).view.emb j) = V c main_v6 j
  refine congrArg _ (funext fun a => Fin.ext ?_)
  match a with
  | ⟨0, _⟩ => show 0 * 256 + 1 * (j 0).val = (j 0).val; omega
  | ⟨1, _⟩ => show 0 * 1 + 1 * (j 1).val = (j 1).val; omega

theorem cvBlk3 (c : Dev nD) (t : Fin cfg0.N) : (iblk0 V c 3 t : Vec Ideal S256x1 .f32) = (V c main_v7 : Vec Ideal S256x1 .f32) := by
  refine funext fun (j : S256x1.Idx) => ?_
  show V c main_v7 (((cfg0.win 3).blk t).view.emb j) = V c main_v7 j
  refine congrArg _ (funext fun a => Fin.ext ?_)
  match a with
  | ⟨0, _⟩ => show 0 * 256 + 1 * (j 0).val = (j 0).val; omega
  | ⟨1, _⟩ => show 0 * 1 + 1 * (j 1).val = (j 1).val; omega

theorem cvBlk4 (c : Dev nD) (t : Fin cfg0.N) : (iblk0 V c 4 t : Vec Ideal S240x256 .f32) = (V c main_v29 : Vec Ideal S240x256 .f32) := by
  refine funext fun (j : S240x256.Idx) => ?_
  show V c main_v29 (((cfg0.win 4).blk t).view.emb j) = V c main_v29 j
  refine congrArg _ (funext fun a => Fin.ext ?_)
  match a with
  | ⟨0, _⟩ => show 0 * 240 + 1 * (j 0).val = (j 0).val; omega
  | ⟨1, _⟩ => show 0 * 256 + 1 * (j 1).val = (j 1).val; omega

theorem cvBlk5 (c : Dev nD) (t : Fin cfg0.N) : (iblk0 V c 5 t : Vec Ideal S80x1 .f32) = (V c main_v14 : Vec Ideal S80x1 .f32) := by
  refine funext fun (j : S80x1.Idx) => ?_
  show V c main_v14 (((cfg0.win 5).blk t).view.emb j) = V c main_v14 j
  refine congrArg _ (funext fun a => Fin.ext ?_)
  match a with
  | ⟨0, _⟩ => show 0 * 80 + 1 * (j 0).val = (j 0).val; omega
  | ⟨1, _⟩ => show 0 * 1 + 1 * (j 1).val = (j 1).val; omega

theorem cvBlk6 (c : Dev nD) (t : Fin cfg0.N) : (iblk0 V c 6 t : Vec Ideal S80x1 .f32) = (V c main_v15 : Vec Ideal S80x1 .f32) := by
  refine funext fun (j : S80x1.Idx) => ?_
  show V c main_v15 (((cfg0.win 6).blk t).view.emb j) = V c main_v15 j
  refine congrArg _ (funext fun a => Fin.ext ?_)
  match a with
  | ⟨0, _⟩ => show 0 * 80 + 1 * (j 0).val = (j 0).val; omega
  | ⟨1, _⟩ => show 0 * 1 + 1 * (j 1).val = (j 1).val; omega

theorem cvEmb7 (t : Fin cfg0.N) (u : Fin 1) (c2 : Fin 80) (l : Fin 1024) :
    ((cfg0.win 7).blk t).view.emb (ix3 u c2 l) = (ix3 ⟨t.val, lt_of_lt_of_eq t.isLt (show cfg0.N = 256 from N_0)⟩ c2 l : S256x80x1024.Idx) := by
  have hi := cvIndex7 t
  have hu : u.val = 0 := by omega
  refine funext fun a => Fin.ext ?_
  match a with
  | ⟨0, _⟩ => show win0_7.index t 0 * 1 + 1 * u.val = t.val; rw [hi.1, hu]; omega
  | ⟨1, _⟩ => show win0_7.index t 1 * 80 + 1 * c2.val = c2.val; rw [hi.2.1]; omega
  | ⟨2, _⟩ => show win0_7.index t 2 * 1024 + 1 * l.val = l.val; rw [hi.2.2]; omega

/-- The first layer of batch element `b` at channel `c1`, column `l`. -/
def cvH1 (c : Dev nD) (b c1 : Fin 256) (l : Fin 1024) : EReal :=
  max ((∑ j : Fin 6, (cvW1t V c (ix2 c1 j) : EReal) * (cvXt V c (ix3 b j l) : EReal)) * (cvS1 V c (ix2 c1 (0 : Fin 1)) : EReal)
    + (cvT1 V c (ix2 c1 (0 : Fin 1)) : EReal)) 0

/-- Tap `k`'s row `c2` of the second layer's weights times the first layer of batch element `b`, at column `l`. -/
def cvP2 (c : Dev nD) (b : Fin 256) (k : Fin 3) (c2 : Fin 80) (l : Fin 1024) : EReal :=
  ∑ c1 : Fin 256, (cvW2t V c (ix2 (cvTapRow k c2) c1) : EReal) * cvH1 V c b c1 l

/-- THE RESULT at batch element `b`, channel `c2`, column `l`: the middle tap at `l`, the first tap at `l - 1` and the last tap
    at `l + 1` (nothing past either edge) added in that order, scaled, shifted, clamped at zero. -/
def cvOut (c : Dev nD) (b : Fin 256) (c2 : Fin 80) (l : Fin 1024) : EReal :=
  max ((cvP2 V c b 1 c2 l
      + (if hl : 1 ≤ l.val then cvP2 V c b 0 c2 ⟨l.val - 1, by have := l.isLt; omega⟩ else 0)
      + (if hl : l.val + 1 < 1024 then cvP2 V c b 2 c2 ⟨l.val + 1, hl⟩ else 0))
    * (cvS2 V c (ix2 c2 (0 : Fin 1)) : EReal) + (cvT2 V c (ix2 c2 (0 : Fin 1)) : EReal)) 0

/-- The result array as one function of the seven arrays the region reads. -/
def cvG (c : Dev nD) : Vec Ideal S256x80x1024 .bf16 := fun i => cvOut V c (i 0) (i 1) (i 2)

/-- What every point writes back is its block of `cvG`. -/
theorem cvFlushed (c : Dev nD) (t : Fin cfg0.N) :
    (dat0 V c).flushed 7 t = ((cfg0.win 7).blk t).view.read (Elt Ideal) (cvG V c) := by
  show (cfg0.win 7).cut (grid0.coords t) ((dat0 V c).after 7 t) = _
  rw [after0_7]
  unfold out0_7
  rw [View.canon_unit_zero cvHz3]
  simp only [View.ld_unit_zero (S := S1x6x1024) cvHz3, View.ld_unit_zero (S := S256x6) cvHz2, View.ld_unit_zero (S := S256x1) cvHz2,
    View.ld_unit_zero (S := S240x256) cvHz2, View.ld_unit_zero (S := S80x1) cvHz2]
  refine funext fun (y : S1x80x1024.Idx) => ?_
  show k0_pay1 (F := Ideal) _ y = cvG V c (((cfg0.win 7).blk t).view.emb y)
  obtain ⟨u, c2, l, rfl⟩ : ∃ (u : Fin 1) (c2 : Fin 80) (l : Fin 1024), y = ix3 u c2 l := ⟨y 0, y 1, y 2, eq_ix3 y⟩
  rw [cvEmb7 t u c2 l]
  unfold k0_pay1
  rw [shapeCast_ab_1ab_apply, cvPay2_apply, cvBlk0 V c t, cvBlk1 V c t, cvBlk2 V c t, cvBlk3 V c t, cvBlk4 V c t, cvBlk5 V c t, cvBlk6 V c t]
  rfl

/-- Every index of the result array is in the block of the point its batch element names. -/
theorem cvCover (i : S256x80x1024.Idx) :
    ∃ t : Fin cfg0.N, (cfg0.win 7).flush t = true ∧ i ∈ ((cfg0.win 7).blk t).view.set := by
  have hN : cfg0.N = 256 := N_0
  have hi0 : (i 0).val < 256 := (i 0).isLt
  have hi1 : (i 1).val < 80 := (i 1).isLt
  have hi2 : (i 2).val < 1024 := (i 2).isLt
  let t : Fin cfg0.N := ⟨(i 0).val, by omega⟩
  have hx := cvIndex7 t
  refine ⟨t, flush0_7 t, ?_⟩
  show i ∈ ((View.whole main_v50).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + win0_7.xsize (grid0.coords t) 0
              rw [hx.1, show win0_7.size 0 = 1 from rfl, show win0_7.xsize (grid0.coords t) 0 = 1 from rfl]; show (i 0).val * 1 ≤ (i 0).val ∧ (i 0).val < (i 0).val * 1 + 1; omega
  | ⟨1, _⟩ => show win0_7.index t 1 * win0_7.size 1 ≤ (i 1 : Nat) ∧ (i 1 : Nat) < win0_7.index t 1 * win0_7.size 1 + win0_7.xsize (grid0.coords t) 1
              rw [hx.2.1, show win0_7.size 1 = 80 from rfl, show win0_7.xsize (grid0.coords t) 1 = 80 from rfl]; omega
  | ⟨2, _⟩ => show win0_7.index t 2 * win0_7.size 2 ≤ (i 2 : Nat) ∧ (i 2 : Nat) < win0_7.index t 2 * win0_7.size 2 + win0_7.xsize (grid0.coords t) 2
              rw [hx.2.2, show win0_7.size 2 = 1024 from rfl, show win0_7.xsize (grid0.coords t) 2 = 1024 from rfl]; omega

/-- THE VALUE of the region: the result array ends holding `cvG`. -/
theorem cvFinal (c : Dev nD) : (dat0 V c).arrAt 7 cfg0.N = cvG V c :=
  (dat0 V c).arrAt_eq_of_cover 7 (cvG V c) (fun t _ => cvFlushed V c t) cvCover

/-- The same at an index, over the array's own coordinates. -/
theorem cvFinal_apply (c : Dev nD) (b : Fin 256) (c2 : Fin 80) (l : Fin 1024) :
    ((dat0 V c).arrAt 7 cfg0.N (ix3 b c2 l) : EReal) = cvOut V c b c2 l := by
  rw [cvFinal V c]
  rfl

end Arrays

end Cert.KernelIdeal.Hand

end
-- ==== Proof.HostLayout.lean ====
/-
  Layout operations of the host side read at an index given by coordinates, and the two terms both programs' host sides
  share: an input row with one zero before and after it, and the square root of the batch-norm variance literal.

  Each lemma reads ONE operation applied at an index written by coordinates as its operand at the coordinates the
  operation keeps: an array with its two trailing axes merged, or one axis split in two; a transpose of a rank-3 array;
  a concatenation of six unit pieces along the middle axis, or of three pieces of width two along the last axis; a
  padding of one entry at both ends of the last or of the middle axis.
-/
import Idealize.ShloMosaic.Lib.ValueLayout
import Idealize.ShloMosaic.Lib.KernelVsHost

namespace Cert.HostLayout

open Idealize.ShloMosaic Idealize.ShloMosaic.ValueIdx

variable {α : Type}

/-! ## Axes merged and split -/

/-- An `[a, b, c]` array cast to `[a, n]` reads, at `(p, s·c + d)`, the array at `(p, s, d)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (p : Fin a) (s : Fin b) (d : Fin c) (k : Fin n)
    (hk : k.val = s.val * c + d.val) :
    shapeCast ⟨2, ![a, n]⟩ x h (ix2 p k) = x (ix3 p s d) :=
  shapeCast_apply x h _ _ (by
    rw [Shape.rowMajor_val_three, Shape.rowMajor_val_two]
    show (p.val * b + s.val) * c + d.val = p.val * n + k.val
    rw [hk, hn, Nat.add_mul, Nat.mul_assoc, Nat.add_assoc])

/-- An `[a, n]` array cast to `[a, b, c]` reads, at `(p, s, d)`, the array at `(p, s·c + d)`. -/
theorem shapeCast_an_abc_apply {a b c n : ℕ} (x : (⟨2, ![a, n]⟩ : Shape).Idx → α)
    (h : (⟨2, ![a, n]⟩ : Shape).ShapeCasts ⟨3, ![a, b, c]⟩) (hn : n = b * c) (p : Fin a) (s : Fin b) (d : Fin c) (k : Fin n)
    (hk : k.val = s.val * c + d.val) :
    shapeCast ⟨3, ![a, b, c]⟩ x h (ix3 p s d) = x (ix2 p k) :=
  shapeCast_apply x h _ _ (by
    rw [Shape.rowMajor_val_three, Shape.rowMajor_val_two]
    show p.val * n + k.val = (p.val * b + s.val) * c + d.val
    rw [hk, hn, Nat.add_mul, Nat.mul_assoc, Nat.add_assoc])

/-- An `[a, b, c]` array cast to `[n, c]` reads, at `(p·b + s, d)`, the array at `(p, s, d)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (d : Fin c) (k : Fin n)
    (hk : k.val = p.val * b + s.val) :
    shapeCast ⟨2, ![n, c]⟩ x h (ix2 k d) = x (ix3 p s d) :=
  shapeCast_apply x h _ _ (by
    rw [Shape.rowMajor_val_three, Shape.rowMajor_val_two]
    show (p.val * b + s.val) * c + d.val = k.val * c + d.val
    rw [hk])

/-- An `[a, 1, c]` array cast to `[a, c]` reads, at `(p, d)`, the array at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-! ## Broadcasts -/

/-- A scalar repeated over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- An `[a, b]` array given a unit middle axis reads, at `(p, u, q)`, the array at `(p, q)`. -/
theorem broadcastInDim_ab_a1b_apply {a b : ℕ} (x : (⟨2, ![a, b]⟩ : Shape).Idx → α)
    (h : (⟨2, ![a, b]⟩ : Shape).BroadcastsInDim ⟨3, ![a, 1, b]⟩ (![0, 2] : Fin 2 → Fin 3)) (p : Fin a) (u : Fin 1) (q : Fin b) :
    broadcastInDim ⟨3, ![a, 1, b]⟩ ![0, 2] h x (ix3 p u q) = x (ix2 p q) := by
  refine broadcastInDim_apply _ h x (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-! ## Transposes of a rank-3 array -/

/-- The axes reversed: the result at `(k, j, i)` is the operand at `(i, j, k)`. -/
theorem transpose_ix3_210_apply {a b c : ℕ} (x : (⟨3, ![a, b, c]⟩ : Shape).Idx → α)
    (h : (⟨3, ![a, b, c]⟩ : Shape).Transposes [2, 1, 0] ⟨3, ![c, b, a]⟩) (k : Fin c) (j : Fin b) (i : Fin a) :
    transpose ⟨3, ![c, b, a]⟩ [2, 1, 0] x h (ix3 k j i) = x (ix3 i j k) :=
  transpose_apply _ x h _ _ fun e => match e with | ⟨0, _⟩ => rfl | ⟨1, _⟩ => rfl | ⟨2, _⟩ => rfl

/-- The last axis brought to the front: the result at `(k, i, j)` is the operand at `(i, j, k)`. -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun e => match e with | ⟨0, _⟩ => rfl | ⟨1, _⟩ => rfl | ⟨2, _⟩ => rfl

/-! ## Concatenations -/

/-- Six `[a, 1, c]` pieces laid along the middle axis: the result at `(p, j, d)` is piece `j` at `(p, 0, d)`. -/
theorem concatenate6_mid_apply {a c : ℕ} (x0 x1 x2 x3 x4 x5 : (⟨3, ![a, 1, c]⟩ : Shape).Idx → α)
    (h : Shape.Concatenates [(⟨3, ![a, 1, c]⟩ : Shape), ⟨3, ![a, 1, c]⟩, ⟨3, ![a, 1, c]⟩, ⟨3, ![a, 1, c]⟩, ⟨3, ![a, 1, c]⟩, ⟨3, ![a, 1, c]⟩]
      ⟨3, ![a, 6, c]⟩ 1) (p : Fin a) (j : Fin 6) (d : Fin c) (n : ℕ) (hj : j.val = n)
    (xn : (⟨3, ![a, 1, c]⟩ : Shape).Idx → α) (hx : [x0, x1, x2, x3, x4, x5][n]? = some xn) :
    concatenate (⟨3, ![a, 6, c]⟩ : Shape) 1
        [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h
        (ix3 p j d)
      = xn (ix3 p (0 : Fin 1) d) := by
  have hi : ∀ (e : Fin 3), e.cast (rfl : (3 : ℕ) = 3) ≠ (1 : Fin 3) →
      ((ix3 p (0 : Fin 1) d : (⟨3, ![a, 1, c]⟩ : Shape).Idx) e).val
        = ((ix3 p j d : (⟨3, ![a, 6, c]⟩ : Shape).Idx) (e.cast (rfl : (3 : ℕ) = 3))).val := fun e he => by
    match e with
    | ⟨0, _⟩ => rfl
    | ⟨1, _⟩ => exact absurd rfl he
    | ⟨2, _⟩ => rfl
  have hn : n < 6 := hj ▸ j.isLt
  interval_cases n
  · obtain rfl : x0 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 0 (by simp) _ x0 rfl rfl 0 rfl (ix3 p 0 d) hi (by show 0 + 0 = j.val; omega)
  · obtain rfl : x1 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 1 (by simp) _ x1 rfl rfl 1 rfl (ix3 p 0 d) hi (by show 1 + 0 = j.val; omega)
  · obtain rfl : x2 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 2 (by simp) _ x2 rfl rfl 2 rfl (ix3 p 0 d) hi (by show 2 + 0 = j.val; omega)
  · obtain rfl : x3 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 3 (by simp) _ x3 rfl rfl 3 rfl (ix3 p 0 d) hi (by show 3 + 0 = j.val; omega)
  · obtain rfl : x4 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 4 (by simp) _ x4 rfl rfl 4 rfl (ix3 p 0 d) hi (by show 4 + 0 = j.val; omega)
  · obtain rfl : x5 = xn := by simpa using hx
    exact concatenate_apply_piece 1 [⟨⟨3, ![a, 1, c]⟩, x0⟩, ⟨⟨3, ![a, 1, c]⟩, x1⟩, ⟨⟨3, ![a, 1, c]⟩, x2⟩, ⟨⟨3, ![a, 1, c]⟩, x3⟩, ⟨⟨3, ![a, 1, c]⟩, x4⟩, ⟨⟨3, ![a, 1, c]⟩, x5⟩] h (ix3 p j d) 5 (by simp) _ x5 rfl rfl 5 rfl (ix3 p 0 d) hi (by show 5 + 0 = j.val; omega)

/-- Three `[a, b, 2]` pieces laid along the last axis: the result at `(p, q, 2·k + e)` is piece `k` at `(p, q, e)`. -/
theorem concatenate3_last_apply {a b : ℕ} (x0 x1 x2 : (⟨3, ![a, b, 2]⟩ : Shape).Idx → α)
    (h : Shape.Concatenates [(⟨3, ![a, b, 2]⟩ : Shape), ⟨3, ![a, b, 2]⟩, ⟨3, ![a, b, 2]⟩] ⟨3, ![a, b, 6]⟩ 2)
    (p : Fin a) (q : Fin b) (j : Fin 6) (k : ℕ) (e : Fin 2) (hj : j.val = 2 * k + e.val)
    (xk : (⟨3, ![a, b, 2]⟩ : Shape).Idx → α) (hx : [x0, x1, x2][k]? = some xk) :
    concatenate (⟨3, ![a, b, 6]⟩ : Shape) 2 [⟨⟨3, ![a, b, 2]⟩, x0⟩, ⟨⟨3, ![a, b, 2]⟩, x1⟩, ⟨⟨3, ![a, b, 2]⟩, x2⟩] h (ix3 p q j)
      = xk (ix3 p q e) := by
  have hi : ∀ (f : Fin 3), f.cast (rfl : (3 : ℕ) = 3) ≠ (2 : Fin 3) →
      ((ix3 p q e : (⟨3, ![a, b, 2]⟩ : Shape).Idx) f).val
        = ((ix3 p q j : (⟨3, ![a, b, 6]⟩ : Shape).Idx) (f.cast (rfl : (3 : ℕ) = 3))).val := fun f hf => by
    match f with
    | ⟨0, _⟩ => rfl
    | ⟨1, _⟩ => rfl
    | ⟨2, _⟩ => exact absurd rfl hf
  have hk : k < 3 := by have := j.isLt; omega
  interval_cases k
  · obtain rfl : x0 = xk := by simpa using hx
    exact concatenate_apply_piece 2 [⟨⟨3, ![a, b, 2]⟩, x0⟩, ⟨⟨3, ![a, b, 2]⟩, x1⟩, ⟨⟨3, ![a, b, 2]⟩, x2⟩] h (ix3 p q j) 0 (by simp) _ x0 rfl rfl 0 rfl (ix3 p q e) hi
      (by show 0 + e.val = j.val; omega)
  · obtain rfl : x1 = xk := by simpa using hx
    exact concatenate_apply_piece 2 [⟨⟨3, ![a, b, 2]⟩, x0⟩, ⟨⟨3, ![a, b, 2]⟩, x1⟩, ⟨⟨3, ![a, b, 2]⟩, x2⟩] h (ix3 p q j) 1 (by simp) _ x1 rfl rfl 2 rfl (ix3 p q e) hi
      (by show 2 + e.val = j.val; omega)
  · obtain rfl : x2 = xk := by simpa using hx
    exact concatenate_apply_piece 2 [⟨⟨3, ![a, b, 2]⟩, x0⟩, ⟨⟨3, ![a, b, 2]⟩, x1⟩, ⟨⟨3, ![a, b, 2]⟩, x2⟩] h (ix3 p q j) 2 (by simp) _ x2 rfl rfl 4 rfl (ix3 p q e) hi
      (by show 4 + e.val = j.val; omega)

/-! ## One entry of padding at both ends of an axis -/

/-- Padding the last axis by one entry at both ends: inside, the operand one place earlier. -/
theorem pad_last_inside {a b n m : ℕ} (x : (⟨3, ![a, b, n]⟩ : Shape).Idx → α) {u : Shape} (v : u.Idx → α)
    (h : (⟨3, ![a, b, n]⟩ : Shape).Pads (![0, 0, 1] : Fin 3 → ℕ) ![0, 0, 1] ![0, 0, 0] ⟨3, ![a, b, m]⟩) (hu : 0 < u.numel)
    (p : Fin a) (q : Fin b) (r : Fin m) (r' : Fin n) (hr : r.val = 1 + r'.val) :
    pad ⟨3, ![a, b, m]⟩ ![0, 0, 1] ![0, 0, 1] ![0, 0, 0] x v h hu (ix3 p q r) = x (ix3 p q r') :=
  pad_apply_of_inside _ _ _ x v h hu _ (ix3 p q r') fun e => by
    match e with
    | ⟨0, _⟩ => show p.val = 0 + p.val * (0 + 1); omega
    | ⟨1, _⟩ => show q.val = 0 + q.val * (0 + 1); omega
    | ⟨2, _⟩ => show r.val = 1 + r'.val * (0 + 1); omega

/-- Padding the last axis by one entry at both ends: at either end, the padding value. -/
theorem pad_last_outside {a b n m : ℕ} (x : (⟨3, ![a, b, n]⟩ : Shape).Idx → α) {u : Shape} (v : u.Idx → α)
    (h : (⟨3, ![a, b, n]⟩ : Shape).Pads (![0, 0, 1] : Fin 3 → ℕ) ![0, 0, 1] ![0, 0, 0] ⟨3, ![a, b, m]⟩) (hu : 0 < u.numel)
    (p : Fin a) (q : Fin b) (r : Fin m) (hr : r.val = 0 ∨ n + 1 ≤ r.val) :
    pad ⟨3, ![a, b, m]⟩ ![0, 0, 1] ![0, 0, 1] ![0, 0, 0] x v h hu (ix3 p q r) = v (Shape.Idx.first hu) :=
  pad_apply_of_not_inside _ _ _ x v h hu _ (2 : Fin 3) (by
    show ¬(1 ≤ r.val ∧ (r.val - 1) % (0 + 1) = 0 ∧ (r.val - 1) / (0 + 1) < n)
    intro hh
    have h3 := hh.2.2
    rw [Nat.zero_add, Nat.div_one] at h3
    omega)

/-- Padding the middle axis by one entry at both ends: inside, the operand one place earlier. -/
theorem pad_mid_inside {a n c m : ℕ} (x : (⟨3, ![a, n, c]⟩ : Shape).Idx → α) {u : Shape} (v : u.Idx → α)
    (h : (⟨3, ![a, n, c]⟩ : Shape).Pads (![0, 1, 0] : Fin 3 → ℕ) ![0, 1, 0] ![0, 0, 0] ⟨3, ![a, m, c]⟩) (hu : 0 < u.numel)
    (p : Fin a) (r : Fin m) (q : Fin c) (r' : Fin n) (hr : r.val = 1 + r'.val) :
    pad ⟨3, ![a, m, c]⟩ ![0, 1, 0] ![0, 1, 0] ![0, 0, 0] x v h hu (ix3 p r q) = x (ix3 p r' q) :=
  pad_apply_of_inside _ _ _ x v h hu _ (ix3 p r' q) fun e => by
    match e with
    | ⟨0, _⟩ => show p.val = 0 + p.val * (0 + 1); omega
    | ⟨1, _⟩ => show r.val = 1 + r'.val * (0 + 1); omega
    | ⟨2, _⟩ => show q.val = 0 + q.val * (0 + 1); omega

/-- Padding the middle axis by one entry at both ends: at either end, the padding value. -/
theorem pad_mid_outside {a n c m : ℕ} (x : (⟨3, ![a, n, c]⟩ : Shape).Idx → α) {u : Shape} (v : u.Idx → α)
    (h : (⟨3, ![a, n, c]⟩ : Shape).Pads (![0, 1, 0] : Fin 3 → ℕ) ![0, 1, 0] ![0, 0, 0] ⟨3, ![a, m, c]⟩) (hu : 0 < u.numel)
    (p : Fin a) (r : Fin m) (q : Fin c) (hr : r.val = 0 ∨ n + 1 ≤ r.val) :
    pad ⟨3, ![a, m, c]⟩ ![0, 1, 0] ![0, 1, 0] ![0, 0, 0] x v h hu (ix3 p r q) = v (Shape.Idx.first hu) :=
  pad_apply_of_not_inside _ _ _ x v h hu _ (1 : Fin 3) (by
    show ¬(1 ≤ r.val ∧ (r.val - 1) % (0 + 1) = 0 ∧ (r.val - 1) / (0 + 1) < n)
    intro hh
    have h3 := hh.2.2
    rw [Nat.zero_add, Nat.div_one] at h3
    omega)

/-! ## The two shared terms -/

/-- An input row with one zero before and one after it: entry `r` of the padded row of channel `q` of sample `p`. -/
noncomputable def padRow {a b n : ℕ} (x : (⟨3, ![a, b, n]⟩ : Shape).Idx → EReal) (p : Fin a) (q : Fin b) (r : ℕ) : EReal :=
  if h : 1 ≤ r ∧ r ≤ n then x (ix3 p q ⟨r - 1, by omega⟩) else 0

theorem padRow_inside {a b n : ℕ} (x : (⟨3, ![a, b, n]⟩ : Shape).Idx → EReal) (p : Fin a) (q : Fin b) (r : ℕ) (r' : Fin n)
    (hr : r = 1 + r'.val) : padRow x p q r = x (ix3 p q r') := by
  unfold padRow
  rw [dif_pos ⟨by omega, by have := r'.isLt; omega⟩]
  exact congrArg (fun t => x (ix3 p q t)) (Fin.ext (by show r - 1 = r'.val; omega))

theorem padRow_outside {a b n : ℕ} (x : (⟨3, ![a, b, n]⟩ : Shape).Idx → EReal) (p : Fin a) (q : Fin b) (r : ℕ)
    (hr : r = 0 ∨ n + 1 ≤ r) : padRow x p q r = 0 := by
  unfold padRow
  rw [dif_neg (by omega)]

/-- The last axis padded by one zero at both ends is `padRow`. -/
theorem pad_last_eq_padRow {a b n m : ℕ} (x : (⟨3, ![a, b, n]⟩ : Shape).Idx → EReal) {u : Shape} (v : u.Idx → EReal)
    (h : (⟨3, ![a, b, n]⟩ : Shape).Pads (![0, 0, 1] : Fin 3 → ℕ) ![0, 0, 1] ![0, 0, 0] ⟨3, ![a, b, m]⟩) (hu : 0 < u.numel)
    (hm : m = n + 2) (hv : v (Shape.Idx.first hu) = 0) (p : Fin a) (q : Fin b) (r : Fin m) :
    pad ⟨3, ![a, b, m]⟩ ![0, 0, 1] ![0, 0, 1] ![0, 0, 0] x v h hu (ix3 p q r) = padRow x p q r.val := by
  by_cases hr : 1 ≤ r.val ∧ r.val ≤ n
  · rw [pad_last_inside x v h hu p q r ⟨r.val - 1, by omega⟩ (by show r.val = 1 + (r.val - 1); omega),
      padRow_inside x p q r.val ⟨r.val - 1, by omega⟩ (by show r.val = 1 + (r.val - 1); omega)]
  · rw [pad_last_outside x v h hu p q r (by omega), hv, padRow_outside x p q r.val (by omega)]

/-- The middle axis of the array with its two trailing axes swapped, padded by one zero at both ends, is `padRow`. -/
theorem pad_mid_eq_padRow {a n c m : ℕ} (x : (⟨3, ![a, n, c]⟩ : Shape).Idx → EReal) (y : (⟨3, ![a, c, n]⟩ : Shape).Idx → EReal)
    (hxy : ∀ (p : Fin a) (r : Fin n) (q : Fin c), x (ix3 p r q) = y (ix3 p q r)) {u : Shape} (v : u.Idx → EReal)
    (h : (⟨3, ![a, n, c]⟩ : Shape).Pads (![0, 1, 0] : Fin 3 → ℕ) ![0, 1, 0] ![0, 0, 0] ⟨3, ![a, m, c]⟩) (hu : 0 < u.numel)
    (hm : m = n + 2) (hv : v (Shape.Idx.first hu) = 0) (p : Fin a) (r : Fin m) (q : Fin c) :
    pad ⟨3, ![a, m, c]⟩ ![0, 1, 0] ![0, 1, 0] ![0, 0, 0] x v h hu (ix3 p r q) = padRow y p q r.val := by
  by_cases hr : 1 ≤ r.val ∧ r.val ≤ n
  · rw [pad_mid_inside x v h hu p r q ⟨r.val - 1, by omega⟩ (by show r.val = 1 + (r.val - 1); omega), hxy,
      padRow_inside y p q r.val ⟨r.val - 1, by omega⟩ (by show r.val = 1 + (r.val - 1); omega)]
  · rw [pad_mid_outside x v h hu p r q (by omega), hv, padRow_outside y p q r.val (by omega)]

/-- The square root of the batch-norm variance literal (one plus epsilon, as a 32-bit float). -/
noncomputable def sigma : EReal := Ideal.sqrt (Ideal.ofBits .f32 0x3F800054#32)

/-- The host's square root of the literal, at its one index. -/
theorem host_sqrt_literal (i : (⟨0, ![]⟩ : Shape).Idx) :
    (Host.sqrt (constant (F := Ideal) ⟨0, ![]⟩ .f32 0x3F800054#32) : (⟨0, ![]⟩ : Shape).Idx → EReal) i = sigma := rfl

/-- The batch-norm scale per channel: `γ / σ`. -/
theorem bn_scale_apply {n : ℕ} (g : (⟨1, ![n]⟩ : Shape).Idx → EReal)
    (h : (⟨0, ![]⟩ : Shape).BroadcastsInDim ⟨1, ![n]⟩ (![] : Fin 0 → Fin 1)) (i : Fin n) :
    (Host.divf (F := Ideal) (s := ⟨1, ![n]⟩) (φ := .f32) g
        (broadcastInDim ⟨1, ![n]⟩ (![] : Fin 0 → Fin 1) h (id (Host.sqrt (constant (F := Ideal) ⟨0, ![]⟩ .f32 0x3F800054#32))))) (ix1 i)
      = Ideal.div (g (ix1 i)) sigma := by
  have hb := broadcastInDim_scalar_apply (t := ⟨1, ![n]⟩)
    (id (Host.sqrt (constant (F := Ideal) ⟨0, ![]⟩ .f32 0x3F800054#32)) : (⟨0, ![]⟩ : Shape).Idx → EReal) h (ix1 i)
  show Ideal.div (g (ix1 i)) _ = _
  rw [hb]
  rfl

/-- The batch-norm shift per channel: `b · s + β`, `s` the scale. -/
theorem bn_shift_apply {n : ℕ} (b s be : (⟨1, ![n]⟩ : Shape).Idx → EReal) (i : Fin n) :
    (addf (F := Ideal) (s := ⟨1, ![n]⟩) (φ := .f32) (mulf (F := Ideal) (s := ⟨1, ![n]⟩) (φ := .f32) b s) be) (ix1 i)
      = b (ix1 i) * s (ix1 i) + be (ix1 i) := rfl

/-- The integer zero made a float is zero. -/
theorem sitofp_zero (i : (⟨0, ![]⟩ : Shape).Idx) :
    (sitofp (F := Ideal) .f32 (constantI ⟨0, ![]⟩ 32 0#32) : (⟨0, ![]⟩ : Shape).Idx → EReal) i = 0 := by
  show (((0#32 : BitVec 32).toInt : ℝ) : EReal) = 0
  rw [show (0#32 : BitVec 32).toInt = 0 by decide, Int.cast_zero, EReal.coe_zero]

end Cert.HostLayout
-- ==== Proof.Spec.lean ====
/-
  The network as one function of its fifteen arguments, on the extended reals.
  With σ the square root of the literal 1.00001, every normalisation folds to a scale g/σ and a shift b·(g/σ) + β.
  First convolution (kernel 3, padding 1, 2 → 256 channels), at batch element b, channel c1, place l:
      h1 = max((Σ_{j<6} w1[c1, j mod 2, j div 2] · xpad[b, j mod 2, l + j div 2]) · scale1 + shift1, 0).
  Second convolution (256 → 80 channels), channel c2, place l, with the three taps' products
      P_k[l'] = Σ_{c1} w2[c2, c1, k] · h1[c1, l']:
      conv = max(((P_1[l] + [l ≥ 1] P_0[l−1]) + [l+1 < 1024] P_2[l+1]) · scale2 + shift2, 0).
  Wide layer over the 81920 = 80 · 1024 positions n = c2 · 1024 + l:
      fc[h] = Σ_n conv[n div 1024, n mod 1024] · w3[h, n].
  Head: out[o] = max((Σ_h max(fc[h] · scale3 + shift3, 0) · w4[o, h]) + b4[o], 0).
-/
import proofs.«177748_g2000301280579440_pallasbulk_580_2_alg».proof.Proof.HostLayout

noncomputable section

namespace Cert.Spec

open Idealize.ShloMosaic Idealize.ShloMosaic.ValueIdx Cert.HostLayout

abbrev SX : Shape := ⟨3, ![256, 2, 1024]⟩
abbrev SW1 : Shape := ⟨3, ![256, 2, 3]⟩
abbrev SW2 : Shape := ⟨3, ![80, 256, 3]⟩
abbrev SW3 : Shape := ⟨2, ![256, 81920]⟩
abbrev SW4 : Shape := ⟨2, ![10, 256]⟩
abbrev SV (n : ℕ) : Shape := ⟨1, ![n]⟩

/-- The folded scale g/σ of a normalisation. -/
def scale {n : ℕ} (g : (SV n).Idx → EReal) (i : Fin n) : EReal := Ideal.div (g (ix1 i)) sigma
/-- The folded shift b·(g/σ) + β. -/
def shift {n : ℕ} (b g be : (SV n).Idx → EReal) (i : Fin n) : EReal := b (ix1 i) * scale g i + be (ix1 i)

section
variable (x : SX.Idx → EReal) (w1 : SW1.Idx → EReal) (b1 g1 be1 : (SV 256).Idx → EReal)
  (w2 : SW2.Idx → EReal) (b2 g2 be2 : (SV 80).Idx → EReal)
  (w3 : SW3.Idx → EReal) (b3 g3 be3 : (SV 256).Idx → EReal) (w4 : SW4.Idx → EReal) (b4 : (SV 10).Idx → EReal)

/-- Tap `j` of the first convolution reads input channel `j mod 2` at offset `j div 2`. -/
def jc (j : Fin 6) : Fin 2 := ⟨j.val % 2, Nat.mod_lt _ (by norm_num)⟩
def jk (j : Fin 6) : Fin 3 := ⟨j.val / 2, by have := j.isLt; omega⟩

/-- The first convolution with its affine map and clamp. -/
def h1 (b : Fin 256) (c1 : Fin 256) (l : Fin 1024) : EReal :=
  max ((∑ j : Fin 6, w1 (ix3 c1 (jc j) (jk j)) * padRow x b (jc j) (l.val + (jk j).val)) * scale g1 c1 + shift b1 g1 be1 c1) 0

/-- One tap's product of the second convolution. -/
def tap (k : Fin 3) (b : Fin 256) (c2 : Fin 80) (l : Fin 1024) : EReal :=
  ∑ c1 : Fin 256, w2 (ix3 c2 c1 k) * h1 x w1 b1 g1 be1 b c1 l

/-- The second convolution with its affine map and clamp. -/
def conv (b : Fin 256) (c2 : Fin 80) (l : Fin 1024) : EReal :=
  max (((tap x w1 b1 g1 be1 w2 1 b c2 l
        + (if h : 1 ≤ l.val then tap x w1 b1 g1 be1 w2 0 b c2 ⟨l.val - 1, by have := l.isLt; omega⟩ else 0))
        + (if h : l.val + 1 < 1024 then tap x w1 b1 g1 be1 w2 2 b c2 ⟨l.val + 1, h⟩ else 0))
      * scale g2 c2 + shift b2 g2 be2 c2) 0

/-- The wide layer: a contraction over the 81920 positions, channel-major. -/
def fc (b : Fin 256) (h : Fin 256) : EReal :=
  ∑ n : Fin 81920, conv x w1 b1 g1 be1 w2 b2 g2 be2 b ⟨n.val / 1024, by have := n.isLt; omega⟩ ⟨n.val % 1024, Nat.mod_lt _ (by norm_num)⟩
    * w3 (ix2 h n)

/-- The head. -/
def out (b : Fin 256) (o : Fin 10) : EReal :=
  max ((∑ h : Fin 256, max (fc x w1 b1 g1 be1 w2 b2 g2 be2 w3 b h * scale g3 h + shift b3 g3 be3 h) 0 * w4 (ix2 o h)) + b4 (ix1 o)) 0

end

end Cert.Spec

end
-- ==== Proof.HostK.lean ====
/-
  The host side of the kernel program, at the ideal instance: what each operand buffer of the three kernel regions holds
  when its region is entered, read at an index given by coordinates as a closed formula of the program's arguments.

  The operations before the first region build, from the input `x`, the six shifted windows of its zero-padded rows laid
  along one axis (window `2·k + c` is channel `c` shifted by `k`); from the convolution weights, the matrices the regions
  multiply by; and from the batch-norm parameters, a scale `γ / σ` and a shift `b · (γ / σ) + β` per channel, `σ` the square
  root of the variance literal. Before the second region the convolution output's two trailing axes are merged; before
  the third the last weight matrix is transposed. Every statement is over an arbitrary valuation of the buffers.
-/
import proofs.«177748_g2000301280579440_pallasbulk_580_2_alg».proof.Proof.Gen.KernelIdeal.Launch
import proofs.«177748_g2000301280579440_pallasbulk_580_2_alg».proof.Proof.HostLayout
import Idealize.ShloMosaic.Lib.StableHlo.Run

noncomputable section

namespace Cert.KernelIdeal.HostValue

open Cert.KernelIdeal Cert.KernelIdeal.Gen Cert.HostLayout
open Idealize.ShloMosaic Idealize.ShloMosaic.TcCoe Idealize.ShloMosaic.StableHlo Idealize.ShloMosaic.ValueIdx

/-- The buffers' contents when the first region is entered, from the contents `W` at launch. -/
abbrev W3 (W : Valuation τ sig (Elt Ideal)) : Valuation τ sig (Elt Ideal) :=
  after hostOps0_2 (after hostOps0_1 (after hostOps0 W))

/-! ## The arguments, read as arrays of extended reals -/

/-- The input `x`, `[256, 2, 1024]`. -/
abbrev aX (W : Valuation τ sig (Elt Ideal)) : S256x2x1024.Idx → EReal := W (main_arg0 : DevRef τ sig)
/-- The first convolution's weights, `[256, 2, 3]`. -/
abbrev aW1 (W : Valuation τ sig (Elt Ideal)) : S256x2x3.Idx → EReal := W (main_arg1 : DevRef τ sig)
/-- The first convolution's bias, and the first batch norm's `γ` and `β`. -/
abbrev aB1 (W : Valuation τ sig (Elt Ideal)) : S256.Idx → EReal := W (main_arg2 : DevRef τ sig)
@[inherit_doc aB1] abbrev aG1 (W : Valuation τ sig (Elt Ideal)) : S256.Idx → EReal := W (main_arg3 : DevRef τ sig)
@[inherit_doc aB1] abbrev aBe1 (W : Valuation τ sig (Elt Ideal)) : S256.Idx → EReal := W (main_arg4 : DevRef τ sig)
/-- The second convolution's weights, `[80, 256, 3]`. -/
abbrev aW2 (W : Valuation τ sig (Elt Ideal)) : S80x256x3.Idx → EReal := W (main_arg5 : DevRef τ sig)
/-- The second convolution's bias, and the second batch norm's `γ` and `β`. -/
abbrev aB2 (W : Valuation τ sig (Elt Ideal)) : S80.Idx → EReal := W (main_arg6 : DevRef τ sig)
@[inherit_doc aB2] abbrev aG2 (W : Valuation τ sig (Elt Ideal)) : S80.Idx → EReal := W (main_arg7 : DevRef τ sig)
@[inherit_doc aB2] abbrev aBe2 (W : Valuation τ sig (Elt Ideal)) : S80.Idx → EReal := W (main_arg8 : DevRef τ sig)
/-- The first dense layer's weights, `[256, 81920]`. -/
abbrev aW3 (W : Valuation τ sig (Elt Ideal)) : S256x81920.Idx → EReal := W (main_arg9 : DevRef τ sig)
/-- The first dense layer's bias, and the third batch norm's `γ` and `β`. -/
abbrev aB3 (W : Valuation τ sig (Elt Ideal)) : S256.Idx → EReal := W (main_arg10 : DevRef τ sig)
@[inherit_doc aB3] abbrev aG3 (W : Valuation τ sig (Elt Ideal)) : S256.Idx → EReal := W (main_arg11 : DevRef τ sig)
@[inherit_doc aB3] abbrev aBe3 (W : Valuation τ sig (Elt Ideal)) : S256.Idx → EReal := W (main_arg12 : DevRef τ sig)
/-- The second dense layer's weights, `[10, 256]`, and bias. -/
abbrev aW4 (W : Valuation τ sig (Elt Ideal)) : S10x256.Idx → EReal := W (main_arg13 : DevRef τ sig)
@[inherit_doc aW4] abbrev aB4 (W : Valuation τ sig (Elt Ideal)) : S10.Idx → EReal := W (main_arg14 : DevRef τ sig)

/-! ## Before the second and the third region -/

/-- The convolution output with its trailing axes merged: entry `(b, c2·1024 + l)` is entry `(b, c2, l)`. -/
theorem v51_apply (W : Valuation τ sig (Elt Ideal)) (b : Fin 256) (c2 : Fin 80) (l : Fin 1024) (k : Fin 81920)
    (hk : k.val = c2.val * 1024 + l.val) :
    (after (hostOps1 (F := Ideal)) W (main_v51 : DevRef τ sig) : S256x81920.Idx → EReal) (ix2 b k)
      = (W (main_v50 : DevRef τ sig) : S256x80x1024.Idx → EReal) (ix3 b c2 l) := by
  have e : (after (hostOps1 (F := Ideal)) W (main_v51 : DevRef τ sig) : S256x81920.Idx → EReal)
      = shapeCast S256x81920 (W (main_v50 : DevRef τ sig) : S256x80x1024.Idx → EReal) shapeCasts_S256x80x1024_S256x81920 := by
    after_results_simp
    rfl
  rw [e]
  exact shapeCast_abc_an_apply _ _ (by decide) b c2 l k hk

/-- The last weight matrix transposed: entry `(h, o)` is entry `(o, h)` of the argument. -/
theorem v53_apply (W : Valuation τ sig (Elt Ideal)) (h : Fin 256) (o : Fin 10) :
    (after (hostOps2 (F := Ideal)) W (main_v53 : DevRef τ sig) : S256x10.Idx → EReal) (ix2 h o)
      = aW4 W (ix2 o h) := by
  have e : (after (hostOps2 (F := Ideal)) W (main_v53 : DevRef τ sig) : S256x10.Idx → EReal)
      = transpose S256x10 [1, 0] (W (main_arg13 : DevRef τ sig) : S10x256.Idx → EReal) transposes_S10x256_S256x10_1_0 := by
    after_results_simp
  rw [e]
  exact transpose_ix2_apply _ _ h o

/-- The last bias as a row: entry `(0, o)` is entry `o` of the argument. -/
theorem v54_apply (W : Valuation τ sig (Elt Ideal)) (u : Fin 1) (o : Fin 10) :
    (after (hostOps2 (F := Ideal)) W (main_v54 : DevRef τ sig) : S1x10.Idx → EReal) (ix2 u o)
      = aB4 W (ix1 o) := by
  have e : (after (hostOps2 (F := Ideal)) W (main_v54 : DevRef τ sig) : S1x10.Idx → EReal)
      = shapeCast S1x10 (W (main_arg14 : DevRef τ sig) : S10.Idx → EReal) shapeCasts_S10_S1x10 := by
    after_results_simp
    rfl
  rw [e]
  exact shapeCast_a_1a_apply _ _ u o

/-! ## What these two stretches leave alone -/

section Keep
variable {F : FTy → Type} [FloatOps F]

/-- The stretch before the second region writes one buffer only. -/
theorem hostOps1_keep (W : Valuation τ sig (Elt F)) (r : Ref sig .tc) (h : r ≠ main_v51) :
    after (hostOps1 (F := F)) W (r : DevRef τ sig) = W (r : DevRef τ sig) := by
  simp only [after_cons, after_nil]
  rw [reshape_result_ne (h := h)]

/-- The stretch before the third region writes two buffers only. -/
theorem hostOps2_keep (W : Valuation τ sig (Elt F)) (r : Ref sig .tc) (h53 : r ≠ main_v53) (h54 : r ≠ main_v54) :
    after (hostOps2 (F := F)) W (r : DevRef τ sig) = W (r : DevRef τ sig) := by
  simp only [after_cons, after_nil]
  rw [reshape_result_ne (h := h54), unary_result_ne (h := h53)]

end Keep

/-! ## Before the first region: the weights -/

/-- The first convolution's weights as a `[256, 6]` matrix: column `2·k + c` of row `c1` is `w1 (c1, c, k)`. -/
theorem v27_apply (W : Valuation τ sig (Elt Ideal)) (c1 : Fin 256) (j : Fin 6) (c : Fin 2) (k : Fin 3)
    (hj : j.val = 2 * k.val + c.val) :
    (W3 W (main_v27 : DevRef τ sig) : S256x6.Idx → EReal) (ix2 c1 j)
      = aW1 W (ix3 c1 c k) := by
  have e : (W3 W (main_v27 : DevRef τ sig) : S256x6.Idx → EReal)
      = transpose S256x6 [1, 0] (shapeCast S6x256 (transpose S3x2x256 [2, 1, 0]
          (W (main_arg1 : DevRef τ sig) : S256x2x3.Idx → EReal) transposes_S256x2x3_S3x2x256_2_1_0)
          shapeCasts_S3x2x256_S6x256) transposes_S6x256_S256x6_1_0 := by
    after_results_simp
    rfl
  rw [e, transpose_ix2_apply, shapeCast_abc_nc_apply _ _ k c c1 j (by omega), transpose_ix3_210_apply]

/-- The second convolution's weights as a `[240, 256]` matrix: row `k·80 + c2`, column `c1` is `w2 (c2, c1, k)`. -/
theorem v29_apply (W : Valuation τ sig (Elt Ideal)) (r : Fin 240) (c1 : Fin 256) (c2 : Fin 80) (k : Fin 3)
    (hr : r.val = k.val * 80 + c2.val) :
    (W3 W (main_v29 : DevRef τ sig) : S240x256.Idx → EReal) (ix2 r c1)
      = aW2 W (ix3 c2 c1 k) := by
  have e : (W3 W (main_v29 : DevRef τ sig) : S240x256.Idx → EReal)
      = shapeCast S240x256 (transpose S3x80x256 [2, 0, 1]
          (W (main_arg5 : DevRef τ sig) : S80x256x3.Idx → EReal) transposes_S80x256x3_S3x80x256_2_0_1)
          shapeCasts_S3x80x256_S240x256 := by
    after_results_simp
    rfl
  rw [e, shapeCast_abc_nc_apply _ _ k c2 c1 r hr, transpose_ix3_201_apply]

/-! ## Before the first region: the batch-norm scales and shifts -/

/-- The first batch norm's scale as a column: `γ₁ / σ`. -/
theorem v6_apply (W : Valuation τ sig (Elt Ideal)) (c1 : Fin 256) (u : Fin 1) :
    (W3 W (main_v6 : DevRef τ sig) : S256x1.Idx → EReal) (ix2 c1 u)
      = Ideal.div (aG1 W (ix1 c1)) sigma := by
  have e : (W3 W (main_v6 : DevRef τ sig) : S256x1.Idx → EReal)
      = shapeCast S256x1 (Host.divf (W (main_arg3 : DevRef τ sig) : S256.Idx → EReal)
          (broadcastInDim S256 ![] bcast_S_S256 (id (Host.sqrt (constant (F := Ideal) S_ .f32 0x3F800054#32)))))
          shapeCasts_S256_S256x1 := by
    after_results_simp
    rfl
  rw [e, shapeCast_a_a1_apply]
  exact bn_scale_apply _ _ c1

/-- The first batch norm's shift as a column: `b₁ · (γ₁ / σ) + β₁`. -/
theorem v7_apply (W : Valuation τ sig (Elt Ideal)) (c1 : Fin 256) (u : Fin 1) :
    (W3 W (main_v7 : DevRef τ sig) : S256x1.Idx → EReal) (ix2 c1 u)
      = aB1 W (ix1 c1) * Ideal.div (aG1 W (ix1 c1)) sigma + aBe1 W (ix1 c1) := by
  have e : (W3 W (main_v7 : DevRef τ sig) : S256x1.Idx → EReal)
      = shapeCast S256x1 (addf (mulf (W (main_arg2 : DevRef τ sig) : S256.Idx → EReal)
          (Host.divf (W (main_arg3 : DevRef τ sig) : S256.Idx → EReal)
            (broadcastInDim S256 ![] bcast_S_S256 (id (Host.sqrt (constant (F := Ideal) S_ .f32 0x3F800054#32))))))
          (W (main_arg4 : DevRef τ sig) : S256.Idx → EReal)) shapeCasts_S256_S256x1 := by
    after_results_simp
    rfl
  rw [e, shapeCast_a_a1_apply, bn_shift_apply, bn_scale_apply]

/-- The second batch norm's scale as a column: `γ₂ / σ`. -/
theorem v14_apply (W : Valuation τ sig (Elt Ideal)) (c2 : Fin 80) (u : Fin 1) :
    (W3 W (main_v14 : DevRef τ sig) : S80x1.Idx → EReal) (ix2 c2 u)
      = Ideal.div (aG2 W (ix1 c2)) sigma := by
  have e : (W3 W (main_v14 : DevRef τ sig) : S80x1.Idx → EReal)
      = shapeCast S80x1 (Host.divf (W (main_arg7 : DevRef τ sig) : S80.Idx → EReal)
          (broadcastInDim S80 ![] bcast_S_S80 (id (Host.sqrt (constant (F := Ideal) S_ .f32 0x3F800054#32)))))
          shapeCasts_S80_S80x1 := by
    after_results_simp
    rfl
  rw [e, shapeCast_a_a1_apply]
  exact bn_scale_apply _ _ c2

/-- The second batch norm's shift as a column: `b₂ · (γ₂ / σ) + β₂`. -/
theorem v15_apply (W : Valuation τ sig (Elt Ideal)) (c2 : Fin 80) (u : Fin 1) :
    (W3 W (main_v15 : DevRef τ sig) : S80x1.Idx → EReal) (ix2 c2 u)
      = aB2 W (ix1 c2) * Ideal.div (aG2 W (ix1 c2)) sigma + aBe2 W (ix1 c2) := by
  have e : (W3 W (main_v15 : DevRef τ sig) : S80x1.Idx → EReal)
      = shapeCast S80x1 (addf (mulf (W (main_arg6 : DevRef τ sig) : S80.Idx → EReal)
          (Host.divf (W (main_arg7 : DevRef τ sig) : S80.Idx → EReal)
            (broadcastInDim S80 ![] bcast_S_S80 (id (Host.sqrt (constant (F := Ideal) S_ .f32 0x3F800054#32))))))
          (W (main_arg8 : DevRef τ sig) : S80.Idx → EReal)) shapeCasts_S80_S80x1 := by
    after_results_simp
    rfl
  rw [e, shapeCast_a_a1_apply, bn_shift_apply, bn_scale_apply]

/-- The third batch norm's scale as a row: `γ₃ / σ`. -/
theorem v20_apply (W : Valuation τ sig (Elt Ideal)) (u : Fin 1) (h : Fin 256) :
    (W3 W (main_v20 : DevRef τ sig) : S1x256.Idx → EReal) (ix2 u h)
      = Ideal.div (aG3 W (ix1 h)) sigma := by
  have e : (W3 W (main_v20 : DevRef τ sig) : S1x256.Idx → EReal)
      = shapeCast S1x256 (Host.divf (W (main_arg11 : DevRef τ sig) : S256.Idx → EReal)
          (broadcastInDim S256 ![] bcast_S_S256 (id (Host.sqrt (constant (F := Ideal) S_ .f32 0x3F800054#32)))))
          shapeCasts_S256_S1x256 := by
    after_results_simp
    rfl
  rw [e, shapeCast_a_1a_apply]
  exact bn_scale_apply _ _ h

/-- The third batch norm's shift as a row: `b₃ · (γ₃ / σ) + β₃`. -/
theorem v24_apply (W : Valuation τ sig (Elt Ideal)) (u : Fin 1) (h : Fin 256) :
    (W3 W (main_v24 : DevRef τ sig) : S1x256.Idx → EReal) (ix2 u h)
      = aB3 W (ix1 h) * Ideal.div (aG3 W (ix1 h)) sigma + aBe3 W (ix1 h) := by
  have e : (W3 W (main_v24 : DevRef τ sig) : S1x256.Idx → EReal)
      = shapeCast S1x256 (addf (mulf (W (main_arg10 : DevRef τ sig) : S256.Idx → EReal)
          (shapeCast S256 (shapeCast S1x256 (Host.divf (W (main_arg11 : DevRef τ sig) : S256.Idx → EReal)
            (broadcastInDim S256 ![] bcast_S_S256 (id (Host.sqrt (constant (F := Ideal) S_ .f32 0x3F800054#32)))))
            shapeCasts_S256_S1x256) shapeCasts_S1x256_S256))
          (W (main_arg12 : DevRef τ sig) : S256.Idx → EReal)) shapeCasts_S256_S1x256 := by
    after_results_simp
    rfl
  rw [e, shapeCast_a_1a_apply, bn_shift_apply, shapeCast_1a_a_apply, shapeCast_a_1a_apply, bn_scale_apply]

/-! ## Before the first region: the six shifted windows of the padded input -/

/-- One window: rows of the padded input from the offsets `off`, their unit channel axis dropped and put back. -/
abbrev wnd (off : Fin 3 → ℕ) (hs : S256x2x1026.Slices off S256x1x1024) (x : S256x2x1026.Idx → EReal) : S256x1x1024.Idx → EReal :=
  broadcastInDim S256x1x1024 ![0, 2] bcast_S256x1024_S256x1x1024_0_2
    (shapeCast S256x1024 (extractStridedSlice S256x1x1024 off x hs) shapeCasts_S256x1x1024_S256x1024)

/-- The six windows laid along the middle axis. -/
def win6 (x : S256x2x1026.Idx → EReal) : S256x6x1024.Idx → EReal :=
  concatenate S256x6x1024 1
    [⟨S256x1x1024, wnd ![0, 0, 0] slices_S256x2x1026_S256x1x1024_0_0_0 x⟩,
     ⟨S256x1x1024, wnd ![0, 1, 0] slices_S256x2x1026_S256x1x1024_0_1_0 x⟩,
     ⟨S256x1x1024, wnd ![0, 0, 1] slices_S256x2x1026_S256x1x1024_0_0_1 x⟩,
     ⟨S256x1x1024, wnd ![0, 1, 1] slices_S256x2x1026_S256x1x1024_0_1_1 x⟩,
     ⟨S256x1x1024, wnd ![0, 0, 2] slices_S256x2x1026_S256x1x1024_0_0_2 x⟩,
     ⟨S256x1x1024, wnd ![0, 1, 2] slices_S256x2x1026_S256x1x1024_0_1_2 x⟩]
    concatenates_S256x1x1024_S256x1x1024_S256x1x1024_S256x1x1024_S256x1x1024_S256x1x1024_S256x6x1024_d1

/-- A window at `(b, 0, l)` is the padded input at channel `c`, place `k + l`. -/
theorem wnd_apply (c k : ℕ) (hs : S256x2x1026.Slices ![0, c, k] S256x1x1024) (x : S256x2x1026.Idx → EReal)
    (b : Fin 256) (u : Fin 1) (l : Fin 1024) (cc : Fin 2) (p : Fin 1026) (hc : cc.val = c) (hp : p.val = k + l.val) :
    wnd ![0, c, k] hs x (ix3 b u l) = x (ix3 b cc p) := by
  unfold wnd
  rw [broadcastInDim_ab_a1b_apply, shapeCast_a1c_ac_apply]
  exact extractStridedSlice_apply _ x hs _ (ix3 b cc p) fun a => by
    match a with
    | ⟨0, _⟩ => exact (Nat.zero_add _).symm
    | ⟨1, _⟩ => show cc.val = c + 0; omega
    | ⟨2, _⟩ => exact hp

/-- What the first region's input buffer holds: the six windows of the padded input. -/
theorem v49_eq (W : Valuation τ sig (Elt Ideal)) :
    (W3 W (main_v49 : DevRef τ sig) : S256x6x1024.Idx → EReal)
      = win6 (pad S256x2x1026 ![0, 0, 1] ![0, 0, 1] ![0, 0, 0] (W (main_arg0 : DevRef τ sig) : S256x2x1024.Idx → EReal)
          (sitofp (F := Ideal) .f32 (constantI S_ 32 0#32)) pads_S256x2x1024_S256x2x1026_000_000_110 h_S_) := by
  simp (disch := decide) only [after_cons, after_nil, nullary_result', unary_result', binary_result', reshape_result',
    nary_result', nullary_result_ne', unary_result_ne', binary_result_ne', reshape_result_ne', nary_result_ne',
    Matrix.cons_val]
  rfl

/-- The six windows at `(b, 2·k + c, l)`: the array at channel `c`, place `k + l`. -/
theorem win6_apply (X : S256x2x1026.Idx → EReal) (b : Fin 256) (j : Fin 6) (l : Fin 1024) (c : Fin 2) (k : Fin 3)
    (hj : j.val = 2 * k.val + c.val) (p : Fin 1026) (hp : p.val = k.val + l.val) :
    win6 X (ix3 b j l) = X (ix3 b c p) := by
  unfold win6
  have hk := k.isLt
  have hc := c.isLt
  have key : ∀ (cn kn : ℕ) (hs : S256x2x1026.Slices ![0, cn, kn] S256x1x1024), c.val = cn → k.val = kn →
      wnd ![0, cn, kn] hs X (ix3 b (0 : Fin 1) l) = X (ix3 b c p) := fun cn kn hs hcn hkn =>
    wnd_apply cn kn hs X b 0 l c p hcn (by omega)
  rcases (show k.val = 0 ∨ k.val = 1 ∨ k.val = 2 by omega) with hk0 | hk0 | hk0 <;>
    rcases (show c.val = 0 ∨ c.val = 1 by omega) with hc0 | hc0
  · exact (concatenate6_mid_apply _ _ _ _ _ _ _ b j l 0 (by omega) _ rfl).trans (key 0 0 _ hc0 hk0)
  · exact (concatenate6_mid_apply _ _ _ _ _ _ _ b j l 1 (by omega) _ rfl).trans (key 1 0 _ hc0 hk0)
  · exact (concatenate6_mid_apply _ _ _ _ _ _ _ b j l 2 (by omega) _ rfl).trans (key 0 1 _ hc0 hk0)
  · exact (concatenate6_mid_apply _ _ _ _ _ _ _ b j l 3 (by omega) _ rfl).trans (key 1 1 _ hc0 hk0)
  · exact (concatenate6_mid_apply _ _ _ _ _ _ _ b j l 4 (by omega) _ rfl).trans (key 0 2 _ hc0 hk0)
  · exact (concatenate6_mid_apply _ _ _ _ _ _ _ b j l 5 (by omega) _ rfl).trans (key 1 2 _ hc0 hk0)

/-- The first region's input at `(b, 2·k + c, l)`: channel `c` of sample `b`, its row padded by one zero at both ends,
    at place `l + k`. -/
theorem v49_apply (W : Valuation τ sig (Elt Ideal)) (b : Fin 256) (j : Fin 6) (l : Fin 1024) (c : Fin 2) (k : Fin 3)
    (hj : j.val = 2 * k.val + c.val) :
    (W3 W (main_v49 : DevRef τ sig) : S256x6x1024.Idx → EReal) (ix3 b j l) = padRow (aX W) b c (l.val + k.val) := by
  have hk := k.isLt
  rw [v49_eq, win6_apply _ b j l c k hj ⟨k.val + l.val, by omega⟩ rfl,
    pad_last_eq_padRow _ _ _ _ (by decide) (sitofp_zero _)]
  show padRow _ b c (k.val + l.val) = _
  rw [Nat.add_comm]

end Cert.KernelIdeal.HostValue

end
-- ==== Proof.KIConvSpec.lean ====
import proofs.«177748_g2000301280579440_pallasbulk_580_2_alg».proof.Proof.KIConvValue
import proofs.«177748_g2000301280579440_pallasbulk_580_2_alg».proof.Proof.Spec
import proofs.«177748_g2000301280579440_pallasbulk_580_2_alg».proof.Proof.HostK

/-! # The kernel's convolution stack is the specification's

The closed form of the first kernel region's output, read at the operand arrays the host prepares from the arguments,
is the specification's second convolution: the transposed im2col input is the padded rows, the reshaped weights are
the weights with their axes permuted, the scale and shift columns are the folded normalisations. The closed form
already multiplies weight by activation and adds the taps in the specification's order, so each factor is rewritten
in place. -/

set_option maxRecDepth 16384

noncomputable section

namespace Cert.KernelIdeal.Hand

open Cert.KernelIdeal Cert.KernelIdeal.Gen Cert.KernelIdeal.HostValue Cert.HostLayout
open Idealize.ShloMosaic Idealize.ShloMosaic.TcCoe Idealize.ShloMosaic.StableHlo Idealize.ShloMosaic.ValueIdx

/-- The first layer's activations are the specification's, once the region's operand arrays are the host-prepared ones. -/
theorem cvH1_eq_h1 (V : (c : Dev nD) → (b : Ref sig .tc) → Buf (Elt Ideal) ((c : Thread nD τ).loc b)) (c : Dev nD)
    (W : Valuation τ sig (Elt Ideal))
    (h49 : (V c main_v49 : Vec Ideal S256x6x1024 .f32) = (W3 W (main_v49 : DevRef τ sig) : S256x6x1024.Idx → EReal))
    (h27 : (V c main_v27 : Vec Ideal S256x6 .f32) = (W3 W (main_v27 : DevRef τ sig) : S256x6.Idx → EReal))
    (h6 : (V c main_v6 : Vec Ideal S256x1 .f32) = (W3 W (main_v6 : DevRef τ sig) : S256x1.Idx → EReal))
    (h7 : (V c main_v7 : Vec Ideal S256x1 .f32) = (W3 W (main_v7 : DevRef τ sig) : S256x1.Idx → EReal))
    (b c1 : Fin 256) (l : Fin 1024) :
    cvH1 V c b c1 l = Cert.Spec.h1 (aX W) (aW1 W) (aB1 W) (aG1 W) (aBe1 W) b c1 l := by
  unfold cvH1 Cert.Spec.h1 Cert.Spec.shift Cert.Spec.scale
  simp only [cvXt, cvW1t, cvS1, cvT1]
  rw [h49, h27, h6, h7, v6_apply W c1 0, v7_apply W c1 0]
  refine congrArg (fun s => max (s * Ideal.div (aG1 W (ix1 c1)) sigma
    + (aB1 W (ix1 c1) * Ideal.div (aG1 W (ix1 c1)) sigma + aBe1 W (ix1 c1))) 0) ?_
  refine Finset.sum_congr rfl fun j _ => ?_
  have hj : j.val = 2 * (Cert.Spec.jk j).val + (Cert.Spec.jc j).val := by
    show j.val = 2 * (j.val / 2) + j.val % 2
    omega
  rw [v49_apply W b j l _ _ hj, v27_apply W c1 j _ _ hj]

/-- A tap's row of the stacked weights against the first layer is the specification's tap. -/
theorem cvP2_eq_tap (V : (c : Dev nD) → (b : Ref sig .tc) → Buf (Elt Ideal) ((c : Thread nD τ).loc b)) (c : Dev nD)
    (W : Valuation τ sig (Elt Ideal))
    (h49 : (V c main_v49 : Vec Ideal S256x6x1024 .f32) = (W3 W (main_v49 : DevRef τ sig) : S256x6x1024.Idx → EReal))
    (h27 : (V c main_v27 : Vec Ideal S256x6 .f32) = (W3 W (main_v27 : DevRef τ sig) : S256x6.Idx → EReal))
    (h6 : (V c main_v6 : Vec Ideal S256x1 .f32) = (W3 W (main_v6 : DevRef τ sig) : S256x1.Idx → EReal))
    (h7 : (V c main_v7 : Vec Ideal S256x1 .f32) = (W3 W (main_v7 : DevRef τ sig) : S256x1.Idx → EReal))
    (h29 : (V c main_v29 : Vec Ideal S240x256 .f32) = (W3 W (main_v29 : DevRef τ sig) : S240x256.Idx → EReal))
    (b : Fin 256) (k : Fin 3) (c2 : Fin 80) (l : Fin 1024) :
    cvP2 V c b k c2 l = Cert.Spec.tap (aX W) (aW1 W) (aB1 W) (aG1 W) (aBe1 W) (aW2 W) k b c2 l := by
  unfold cvP2 Cert.Spec.tap
  simp only [cvW2t]
  rw [h29]
  refine Finset.sum_congr rfl fun c1 _ => ?_
  rw [v29_apply W (cvTapRow k c2) c1 c2 k rfl, cvH1_eq_h1 V c W h49 h27 h6 h7]

/-- THE CONVOLUTION STACK: the closed form of the first kernel region's output, at operand arrays that are the
    host-prepared ones, is the specification's second convolution of the arguments. -/
theorem cvOut_eq_spec (V : (c : Dev nD) → (b : Ref sig .tc) → Buf (Elt Ideal) ((c : Thread nD τ).loc b)) (c : Dev nD)
    (W : Valuation τ sig (Elt Ideal))
    (h49 : (V c main_v49 : Vec Ideal S256x6x1024 .f32) = (W3 W (main_v49 : DevRef τ sig) : S256x6x1024.Idx → EReal))
    (h27 : (V c main_v27 : Vec Ideal S256x6 .f32) = (W3 W (main_v27 : DevRef τ sig) : S256x6.Idx → EReal))
    (h6 : (V c main_v6 : Vec Ideal S256x1 .f32) = (W3 W (main_v6 : DevRef τ sig) : S256x1.Idx → EReal))
    (h7 : (V c main_v7 : Vec Ideal S256x1 .f32) = (W3 W (main_v7 : DevRef τ sig) : S256x1.Idx → EReal))
    (h29 : (V c main_v29 : Vec Ideal S240x256 .f32) = (W3 W (main_v29 : DevRef τ sig) : S240x256.Idx → EReal))
    (h14 : (V c main_v14 : Vec Ideal S80x1 .f32) = (W3 W (main_v14 : DevRef τ sig) : S80x1.Idx → EReal))
    (h15 : (V c main_v15 : Vec Ideal S80x1 .f32) = (W3 W (main_v15 : DevRef τ sig) : S80x1.Idx → EReal))
    (b : Fin 256) (c2 : Fin 80) (l : Fin 1024) :
    cvOut V c b c2 l
      = Cert.Spec.conv (aX W) (aW1 W) (aB1 W) (aG1 W) (aBe1 W) (aW2 W) (aB2 W) (aG2 W) (aBe2 W) b c2 l := by
  unfold cvOut Cert.Spec.conv Cert.Spec.shift Cert.Spec.scale
  simp only [cvS2, cvT2]
  rw [h14, h15, v14_apply W c2 0, v15_apply W c2 0]
  simp only [cvP2_eq_tap V c W h49 h27 h6 h7 h29]

end Cert.KernelIdeal.Hand

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.FcSums.lean ====
/-
  The wide layer contracts over 81920 = 80 · 1024 positions. One program walks them in ten tiles of 8192, five per
  half, and adds the two halves; the other walks ten tiles of 8192 in a row. One numbers a position as
  channel · 1024 + place, the other as place · 80 + channel. All of these are the same finite sum, in any additive
  commutative monoid: a sum over a range cut into equal blocks is the sum of the blocks' sums, and a double sum may
  be taken in either order.
-/
import proofs.«177748_g2000301280579440_pallasbulk_580_2_alg».proof.Proof.LibTileSum

namespace Cert.FcSums

open Finset Cert.LibTileSum

variable {M : Type*} [AddCommMonoid M]

/-- Ten tiles of 8192 in a row. -/
theorem sum_ten_tiles (G : Fin 81920 → M) (idx : Fin 10 → Fin 8192 → Fin 81920)
    (h : ∀ j k, (idx j k).val = j.val * 8192 + k.val) : ∑ j, ∑ k, G (idx j k) = ∑ n, G n := by
  rw [sum_blocks (A := 10) (B := 8192) (by norm_num) G]
  refine Finset.sum_congr rfl fun j _ => Finset.sum_congr rfl fun k _ => congrArg G (Fin.ext ?_)
  rw [h, blk_val]; omega

/-- Two halves of five tiles of 8192. -/
theorem sum_two_by_five_tiles (F : Fin 81920 → M) (idx : Fin 2 → Fin 5 → Fin 8192 → Fin 81920)
    (h : ∀ p j k, (idx p j k).val = (p.val * 5 + j.val) * 8192 + k.val) : ∑ p, ∑ j, ∑ k, F (idx p j k) = ∑ n, F n := by
  rw [← sum_ten_tiles F (fun i k => ⟨i.val * 8192 + k.val, by have := i.isLt; have := k.isLt; omega⟩) (fun _ _ => rfl)]
  rw [sum_blocks (A := 2) (B := 5) (N := 10) (by norm_num)
    (fun i : Fin 10 => ∑ k : Fin 8192, F ⟨i.val * 8192 + k.val, by have := i.isLt; have := k.isLt; omega⟩)]
  refine Finset.sum_congr rfl fun p _ => Finset.sum_congr rfl fun j _ => Finset.sum_congr rfl fun k _ => congrArg F (Fin.ext ?_)
  rw [h]; show _ = (blk _ p j).val * 8192 + k.val; rw [blk_val]; omega

/-- Channel-major numbering: position `channel · 1024 + place`. -/
theorem sum_channel_major (F : Fin 81920 → M) (idx : Fin 80 → Fin 1024 → Fin 81920)
    (h : ∀ c l, (idx c l).val = c.val * 1024 + l.val) : ∑ n, F n = ∑ c, ∑ l, F (idx c l) := by
  rw [sum_blocks (A := 80) (B := 1024) (by norm_num) F]
  refine Finset.sum_congr rfl fun c _ => Finset.sum_congr rfl fun l _ => congrArg F (Fin.ext ?_)
  rw [h, blk_val]; omega

/-- Place-major numbering: position `place · 80 + channel`. -/
theorem sum_place_major (G : Fin 81920 → M) (idx : Fin 1024 → Fin 80 → Fin 81920)
    (h : ∀ l c, (idx l c).val = l.val * 80 + c.val) : ∑ n, G n = ∑ l, ∑ c, G (idx l c) := by
  rw [sum_blocks (A := 1024) (B := 80) (by norm_num) G]
  refine Finset.sum_congr rfl fun l _ => Finset.sum_congr rfl fun c _ => congrArg G (Fin.ext ?_)
  rw [h, blk_val]; omega

/-- The two programs' contractions agree once their terms agree position by position. -/
theorem contraction_eq (F G : Fin 81920 → M)
    (iK : Fin 2 → Fin 5 → Fin 8192 → Fin 81920) (hK : ∀ p j k, (iK p j k).val = (p.val * 5 + j.val) * 8192 + k.val)
    (iR : Fin 10 → Fin 8192 → Fin 81920) (hR : ∀ j k, (iR j k).val = j.val * 8192 + k.val)
    (hFG : ∀ (c : Fin 80) (l : Fin 1024) (x y : Fin 81920), x.val = c.val * 1024 + l.val → y.val = l.val * 80 + c.val → F x = G y) :
    ∑ p, ∑ j, ∑ k, F (iK p j k) = ∑ j, ∑ k, G (iR j k) := by
  rw [sum_two_by_five_tiles F iK hK, sum_ten_tiles G iR hR]
  rw [sum_channel_major F (fun c l => ⟨c.val * 1024 + l.val, by have := c.isLt; have := l.isLt; omega⟩) (fun _ _ => rfl),
    sum_place_major G (fun l c => ⟨l.val * 80 + c.val, by have := c.isLt; have := l.isLt; omega⟩) (fun _ _ => rfl),
    Finset.sum_comm]
  exact Finset.sum_congr rfl fun l _ => Finset.sum_congr rfl fun c _ => hFG c l _ _ rfl rfl

end Cert.FcSums
-- ==== Proof.KIValue.lean ====
/-
  The kernel program's result array as the network's specification applied to the launch contents of its arguments.

  Read backwards from the result. The last region's array is the head's formula of the five arrays that region reads:
  the two partial sums of the wide layer, the folded scale and shift rows, the last weights transposed and the last bias
  as a row. The two partial sums, each a sum over five tiles of 8192 positions, add up to one sum over all 81920
  positions of the flattened convolution output times the wide layer's weights; the flattened output at position
  `c2 · 1024 + l` is the convolution output at channel `c2`, place `l`. The rows and matrices the host prepared are
  closed formulas of the arguments, and no item of the program writes an argument.
-/
import proofs.«177748_g2000301280579440_pallasbulk_580_2_alg».proof.Proof.KIRun
import proofs.«177748_g2000301280579440_pallasbulk_580_2_alg».proof.Proof.KIHeadValue
import proofs.«177748_g2000301280579440_pallasbulk_580_2_alg».proof.Proof.KIFcValue
import proofs.«177748_g2000301280579440_pallasbulk_580_2_alg».proof.Proof.KIConvValue
import proofs.«177748_g2000301280579440_pallasbulk_580_2_alg».proof.Proof.KIConvSpec
import proofs.«177748_g2000301280579440_pallasbulk_580_2_alg».proof.Proof.FcSums
import proofs.«177748_g2000301280579440_pallasbulk_580_2_alg».proof.Proof.HostK
import proofs.«177748_g2000301280579440_pallasbulk_580_2_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.HostLayout

variable (m : (ℓ : Loc nD τ sig) → Buf (Elt Ideal) ℓ) (ρ : Dev nD → PrngReg) (c : Dev nD)

/-- The two partial sums of the wide layer as the second region leaves them, and the convolution output as the first
    region leaves it, at their literal types. -/
abbrev kvPart : S2x256x256.Idx → EReal := W6 m ρ c (Proc.devRef .tc main_v52)
@[inherit_doc kvPart] abbrev kvConv : S256x80x1024.Idx → EReal := W4 m ρ c (Proc.devRef .tc main_v50)

/-! ## A buffer nothing writes is as launched -/

/-- Before the second region. -/
theorem kvW5_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) :
    W5 m ρ c (Proc.devRef .tc r) = W0 m ρ c (Proc.devRef .tc r) :=
  (W5_of m ρ c r h4).trans <| (W4_of_ne m ρ c r h3).trans <| (W3_of m ρ c r h2).trans <| (W2_of m ρ c r h1).trans (W1_of m ρ c r h0)

/-- Before the last host stretch. -/
theorem kvW6_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = W0 m ρ c (Proc.devRef .tc r) :=
  (W6_of_ne m ρ c r h5).trans (kvW5_launch m ρ c r h0 h1 h2 h3 h4)

/-- A buffer the first three stretches prepared, that no later item writes, reaches the last region as prepared. -/
theorem kvW7_prepared (r : Ref sig .tc) (h3 : ∀ w, Pipeline.arrRef spec0 w ≠ r) (h4 : r ∉ hostOps1_W)
    (h5 : ∀ w, Pipeline.arrRef spec1 w ≠ r) (h6 : r ∉ hostOps2_W) :
    W7 m ρ c (Proc.devRef .tc r) = W3 m ρ c (Proc.devRef .tc r) :=
  (W7_of m ρ c r h6).trans <| (W6_of_ne m ρ c r h5).trans <| (W5_of m ρ c r h4).trans (W4_of_ne m ρ c r h3)

/-! ## The last region's operands -/

theorem kvHdB (o : Fin 10) : hdB (V7 m ρ) c (ix2 (0 : Fin 1) o) = HostValue.aB4 (W0 m ρ c) (ix1 o) :=
  (HostValue.v54_apply (W6 m ρ c) 0 o).trans
    (congrFun (kvW6_launch m ρ c main_arg14 (by decide) (by decide) (by decide) (by decide) (by decide) (by decide)) (ix1 o))

theorem kvHdW (h : Fin 256) (o : Fin 10) : hdW (V7 m ρ) c (ix2 h o) = HostValue.aW4 (W0 m ρ c) (ix2 o h) :=
  (HostValue.v53_apply (W6 m ρ c) h o).trans
    (congrFun (kvW6_launch m ρ c main_arg13 (by decide) (by decide) (by decide) (by decide) (by decide) (by decide)) (ix2 o h))

theorem kvHdScale (h : Fin 256) :
    hdScale (V7 m ρ) c (ix2 (0 : Fin 1) h) = Spec.scale (HostValue.aG3 (W0 m ρ c)) h :=
  (congrFun (kvW7_prepared m ρ c main_v20 (by decide) (by decide) (by decide) (by decide)) (ix2 (0 : Fin 1) h)).trans
    (HostValue.v20_apply (W0 m ρ c) 0 h)

theorem kvHdShift (h : Fin 256) :
    hdShift (V7 m ρ) c (ix2 (0 : Fin 1) h)
      = Spec.shift (HostValue.aB3 (W0 m ρ c)) (HostValue.aG3 (W0 m ρ c)) (HostValue.aBe3 (W0 m ρ c)) h :=
  (congrFun (kvW7_prepared m ρ c main_v24 (by decide) (by decide) (by decide) (by decide)) (ix2 (0 : Fin 1) h)).trans
    (HostValue.v24_apply (W0 m ρ c) 0 h)

theorem kvHdPart (p : Fin 2) (b h : Fin 256) :
    hdPart (V7 m ρ) c (ix3 p b h) = kvPart m ρ c (ix3 p b h) :=
  congrFun (W7_of m ρ c main_v52 (by decide)) (ix3 p b h)

/-! ## The wide layer -/

/-- The two partial sums add up to the wide layer's contraction, given the convolution output. -/
theorem kvFc
    (h_conv : ∀ (b : Fin 256) (c2 : Fin 80) (l : Fin 1024),
      kvConv m ρ c (ix3 b c2 l)
        = Spec.conv (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) b c2 l)
    (b h : Fin 256) :
    kvPart m ρ c (ix3 0 b h)
        + kvPart m ρ c (ix3 1 b h)
      = Spec.fc (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) (HostValue.aW3 (W0 m ρ c)) b h := by
  have e : ∀ p : Fin 2, kvPart m ρ c (ix3 p b h)
      = ∑ j : Fin 5, ∑ k : Fin 8192,
          (fcX1 (V5 m ρ) c (ix2 b ⟨(p.val * 5 + j.val) * 8192 + k.val, by have := p.isLt; have := j.isLt; have := k.isLt; omega⟩) : EReal)
            * (fcW1 (V5 m ρ) c (ix2 h ⟨(p.val * 5 + j.val) * 8192 + k.val, by have := p.isLt; have := j.isLt; have := k.isLt; omega⟩) : EReal) :=
    fun p => (congrFun (W6_arr m ρ c 2) (ix3 p b h)).trans (final1_apply (V5 m ρ) c p b h)
  rw [e 0, e 1]
  have hsum := Cert.FcSums.sum_two_by_five_tiles
    (fun n : Fin 81920 => (fcX1 (V5 m ρ) c (ix2 b n) : EReal) * (fcW1 (V5 m ρ) c (ix2 h n) : EReal))
    (fun p j k => ⟨(p.val * 5 + j.val) * 8192 + k.val, by have := p.isLt; have := j.isLt; have := k.isLt; omega⟩)
    (fun _ _ _ => rfl)
  rw [Fin.sum_univ_two] at hsum
  refine hsum.trans ?_
  unfold Spec.fc
  refine Finset.sum_congr rfl fun n _ => ?_
  have hn := n.isLt
  have hx : (fcX1 (V5 m ρ) c (ix2 b n) : EReal)
      = Spec.conv (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) b ⟨n.val / 1024, by omega⟩ ⟨n.val % 1024, Nat.mod_lt _ (by norm_num)⟩ :=
    (HostValue.v51_apply (W4 m ρ c) b ⟨n.val / 1024, by omega⟩ ⟨n.val % 1024, Nat.mod_lt _ (by norm_num)⟩ n
      (by show n.val = n.val / 1024 * 1024 + n.val % 1024; omega)).trans (h_conv b _ _)
  have hw : (fcW1 (V5 m ρ) c (ix2 h n) : EReal) = HostValue.aW3 (W0 m ρ c) (ix2 h n) :=
    congrFun (kvW5_launch m ρ c main_arg9 (by decide) (by decide) (by decide) (by decide) (by decide)) (ix2 h n)
  rw [hx, hw]

/-! ## The result -/

/-- The kernel program's result at `(b, o)` is the specification's, given the convolution output. -/
theorem value_K_of_conv
    (h_conv : ∀ (b : Fin 256) (c2 : Fin 80) (l : Fin 1024),
      kvConv m ρ c (ix3 b c2 l)
        = Spec.conv (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) b c2 l)
    (b : Fin 256) (o : Fin 10) :
    (W8 m ρ c (Proc.devRef .tc main_v55) : S256x10.Idx → EReal) (ix2 b o)
      = Spec.out (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) (HostValue.aW3 (W0 m ρ c))
          (HostValue.aB3 (W0 m ρ c)) (HostValue.aG3 (W0 m ρ c)) (HostValue.aBe3 (W0 m ρ c))
          (HostValue.aW4 (W0 m ρ c)) (HostValue.aB4 (W0 m ρ c)) b o := by
  refine (congrFun (W8_arr m ρ c 5) (ix2 b o)).trans ((head_value (V7 m ρ) c b o).trans ?_)
  rw [kvHdB m ρ c o]
  unfold Spec.out
  refine congrArg (fun z => max (z + HostValue.aB4 (W0 m ρ c) (ix1 o)) 0) (Finset.sum_congr rfl fun h _ => ?_)
  rw [kvHdW m ρ c h o, kvHdScale m ρ c h, kvHdShift m ρ c h, kvHdPart m ρ c 0 b h, kvHdPart m ρ c 1 b h,
    kvFc m ρ c h_conv b h]

/-- The convolution output as the first region leaves it is the specification's second convolution of the arguments:
    the region's closed form, at the operand arrays the host prepared. -/
theorem kvConv_eq (b : Fin 256) (c2 : Fin 80) (l : Fin 1024) :
    kvConv m ρ c (ix3 b c2 l)
      = Spec.conv (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) b c2 l :=
  (congrFun (W4_arr m ρ c 7) (ix3 b c2 l)).trans <| (cvFinal_apply (V3 m ρ) c b c2 l).trans
    (cvOut_eq_spec (V3 m ρ) c (W0 m ρ c) rfl rfl rfl rfl rfl rfl rfl b c2 l)

/-- THE KERNEL PROGRAM'S VALUE: its result at `(b, o)` is the specification of the launch contents of its arguments. -/
theorem value_K (m : (ℓ : Loc nD τ sig) → Buf (Elt Ideal) ℓ) (ρ : Dev nD → PrngReg) (c : Dev nD) (b : Fin 256) (o : Fin 10) :
    (W8 m ρ c (Proc.devRef .tc main_v55) : S256x10.Idx → EReal) (ix2 b o)
      = Spec.out (HostValue.aX (W0 m ρ c)) (HostValue.aW1 (W0 m ρ c)) (HostValue.aB1 (W0 m ρ c)) (HostValue.aG1 (W0 m ρ c)) (HostValue.aBe1 (W0 m ρ c)) (HostValue.aW2 (W0 m ρ c)) (HostValue.aB2 (W0 m ρ c)) (HostValue.aG2 (W0 m ρ c)) (HostValue.aBe2 (W0 m ρ c)) (HostValue.aW3 (W0 m ρ c))
          (HostValue.aB3 (W0 m ρ c)) (HostValue.aG3 (W0 m ρ c)) (HostValue.aBe3 (W0 m ρ c))
          (HostValue.aW4 (W0 m ρ c)) (HostValue.aB4 (W0 m ρ c)) b o :=
  value_K_of_conv m ρ c (kvConv_eq m ρ c) b o

end Cert.KernelIdeal.Hand

end
-- ==== Proof.RConvValue.lean ====
import proofs.«177748_g2000301280579440_pallasbulk_580_2_alg».proof.Proof.RConv
import Idealize.ShloMosaic.Lib.Pipeline.Value
import Idealize.ShloMosaic.Lib.ValueIdx
import Idealize.ShloMosaic.PureOps.Ideal.Laws

/-! # Region 0 of the reference program, read at the ideal values

The output array after the region, element by element, as a closed formula of the operand arrays: the second
convolution's three taps over the zero-padded first-layer activations, scaled, shifted and clamped at zero. -/

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Idealize.ShloMosaic.ValueIdx

/-! ## The two block products at an index -/

/-- The first layer's product at (l, c): the sum over the six taps-by-channels. -/
theorem mm1_apply (A : FVec Ideal S1024x6 .f32) (B : FVec Ideal S6x256 .f32) (l : Fin 1024) (c : Fin 256) :
    matmul dot_S1024x6_S6x256_S1024x256_1_0_0_1_n_n none A B (constant S1024x256 .f32 0x00000000#32) (ix2 l c)
      = ∑ k : Fin 6, A (ix2 l k) * B (ix2 k c) := by
  simp only [matmul]
  rw [Ideal.matmul_constant_zero_apply]
  rw [← Equiv.sum_comp (contrEquiv1 dot_S1024x6_S6x256_S1024x256_1_0_0_1_n_n 6 rfl rfl).symm]
  refine Finset.sum_congr rfl fun k _ => ?_
  have hk := contrEquiv1_symm_val dot_S1024x6_S6x256_S1024x256_1_0_0_1_n_n 6 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-- A tap's product at (l, c): the sum over the 256 first-layer channels. -/
theorem mm2_apply (A : FVec Ideal S1024x256 .f32) (B : FVec Ideal S256x80 .f32) (l : Fin 1024) (c : Fin 80) :
    matmul dot_S1024x256_S256x80_S1024x80_1_0_0_1_n_n none A B (constant S1024x80 .f32 0x00000000#32) (ix2 l c)
      = ∑ k : Fin 256, A (ix2 l k) * B (ix2 k c) := by
  simp only [matmul]
  rw [Ideal.matmul_constant_zero_apply]
  rw [← Equiv.sum_comp (contrEquiv1 dot_S1024x256_S256x80_S1024x80_1_0_0_1_n_n 256 rfl rfl).symm]
  refine Finset.sum_congr rfl fun k _ => ?_
  have hk := contrEquiv1_symm_val dot_S1024x256_S256x80_S1024x80_1_0_0_1_n_n 256 rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

/-! ## The payloads at an index -/

theorem cons0_ix2 {n0 n1 : Nat} (a : Fin n0) (b : Fin n1) :
    (Fin.cons (⟨0, Nat.one_pos⟩ : Fin 1) (ix2 a b) : (⟨3, ![1, n0, n1]⟩ : Shape).Idx) = ix3 (0 : Fin 1) a b := by
  funext d
  match d with
  | ⟨0, _⟩ => rfl
  | ⟨1, _⟩ => rfl
  | ⟨2, _⟩ => rfl

theorem succ_ix3 {n0 n1 : Nat} (z : Fin 1) (a : Fin n0) (b : Fin n1) :
    (fun d : Fin 2 => (ix3 z a b : (⟨3, ![1, n0, n1]⟩ : Shape).Idx) d.succ) = ix2 a b := by
  funext d
  match d with
  | ⟨0, _⟩ => rfl
  | ⟨1, _⟩ => rfl

/-- The zero fill. -/
theorem pay2_apply (j : S1026x256.Idx) : k0_pay2 (F := Ideal) j = 0 := by
  unfold k0_pay2
  simp only [shapeCast_self]
  exact Ideal.ofBits_zero_f32

/-- The first layer's activations at (l, c): the six-term product, scaled, shifted, clamped at zero. -/
theorem pay3_apply (v0 : Vec Ideal S1x1024x6 .f32) (v2 : Vec Ideal S6x256 .f32) (v5 v9 : Vec Ideal S1x256 .f32)
    (l : Fin 1024) (c1 : Fin 256) :
    k0_pay3 v0 v2 v5 v9 (ix2 l c1)
      = max ((∑ k : Fin 6, v0 (ix3 0 l k) * v2 (ix2 k c1)) * v5 (ix2 0 c1) + v9 (ix2 0 c1)) 0 := by
  unfold k0_pay3
  simp only [shapeCast_self]
  rw [maximumf_apply, addf_apply, mulf_apply, mm1_apply]
  rw [broadcastTo_apply v5 broadcasts_S1x256_S1024x256 (ix2 l c1) (ix2 0 c1) (fun a => by
      match a with
      | ⟨0, _⟩ => rfl
      | ⟨1, _⟩ => rfl),
    broadcastTo_apply v9 broadcasts_S1x256_S1024x256 (ix2 l c1) (ix2 0 c1) (fun a => by
      match a with
      | ⟨0, _⟩ => rfl
      | ⟨1, _⟩ => rfl)]
  rw [broadcast_apply]
  rw [show (Scalar.ofBits (F := Ideal) .f32 0x00000000#32) = (0 : EReal) from Ideal.ofBits_zero_f32]
  refine congrArg (fun s => max (s * v5 (ix2 0 c1) + v9 (ix2 0 c1)) 0) ?_
  refine Finset.sum_congr rfl fun k _ => ?_
  rw [shapeCast_dropUnit_apply ![1024, 6] v0 shapeCasts_S1x1024x6_S1024x6 (ix2 l k)]
  refine congrArg (fun z => z * v2 (ix2 k c1)) (congrArg v0 ?_)
  funext d
  match d with
  | ⟨0, _⟩ => rfl
  | ⟨1, _⟩ => rfl
  | ⟨2, _⟩ => rfl

/-! ## Loads through the body's rectangles -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the scratch's 1024 rows from row `k` reads row `l + k` at its row `l`. -/
theorem ld_rs_0 (X : Vec Ideal S1026x256 .f32) (l : Fin 1024) (c1 : Fin 256) :
    View.ld X rs_0 (ix2 l c1) = X (ix2 (⟨l.val + 0, by omega⟩ : Fin 1026) c1) := by
  show X (rs_0.idx (ix2 l c1)) = _
  refine congrArg X (funext fun a => Fin.ext ?_)
  match a with
  | ⟨0, _⟩ => show 0 + 1 * l.val = l.val + 0; omega
  | ⟨1, _⟩ => show 0 + 1 * c1.val = c1.val; omega
theorem ld_rs_1 (X : Vec Ideal S1026x256 .f32) (l : Fin 1024) (c1 : Fin 256) :
    View.ld X rs_1 (ix2 l c1) = X (ix2 (⟨l.val + 1, by omega⟩ : Fin 1026) c1) := by
  show X (rs_1.idx (ix2 l c1)) = _
  refine congrArg X (funext fun a => Fin.ext ?_)
  match a with
  | ⟨0, _⟩ => show 1 + 1 * l.val = l.val + 1; omega
  | ⟨1, _⟩ => show 0 + 1 * c1.val = c1.val; omega
theorem ld_rs_2 (X : Vec Ideal S1026x256 .f32) (l : Fin 1024) (c1 : Fin 256) :
    View.ld X rs_2 (ix2 l c1) = X (ix2 (⟨l.val + 2, by omega⟩ : Fin 1026) c1) := by
  show X (rs_2.idx (ix2 l c1)) = _
  refine congrArg X (funext fun a => Fin.ext ?_)
  match a with
  | ⟨0, _⟩ => show 2 + 1 * l.val = l.val + 2; omega
  | ⟨1, _⟩ => show 0 + 1 * c1.val = c1.val; omega

/-- A load of tap `k`'s weights reads them at (k, c1, c2). -/
theorem ld_r0_4a (X : Vec Ideal S3x256x80 .f32) (z : Fin 1) (c1 : Fin 256) (c2 : Fin 80) :
    View.ld X r0_4a (ix3 z c1 c2) = X (ix3 (0 : Fin 3) c1 c2) := by
  show X (r0_4a.idx (ix3 z c1 c2)) = _
  refine congrArg X (funext fun a => Fin.ext ?_)
  match a with
  | ⟨0, _⟩ => show 0 + 1 * z.val = 0; omega
  | ⟨1, _⟩ => show 0 + 1 * c1.val = c1.val; omega
  | ⟨2, _⟩ => show 0 + 1 * c2.val = c2.val; omega
theorem ld_r0_4b (X : Vec Ideal S3x256x80 .f32) (z : Fin 1) (c1 : Fin 256) (c2 : Fin 80) :
    View.ld X r0_4b (ix3 z c1 c2) = X (ix3 (1 : Fin 3) c1 c2) := by
  show X (r0_4b.idx (ix3 z c1 c2)) = _
  refine congrArg X (funext fun a => Fin.ext ?_)
  match a with
  | ⟨0, _⟩ => show 1 + 1 * z.val = 1; omega
  | ⟨1, _⟩ => show 0 + 1 * c1.val = c1.val; omega
  | ⟨2, _⟩ => show 0 + 1 * c2.val = c2.val; omega
theorem ld_r0_4c (X : Vec Ideal S3x256x80 .f32) (z : Fin 1) (c1 : Fin 256) (c2 : Fin 80) :
    View.ld X r0_4c (ix3 z c1 c2) = X (ix3 (2 : Fin 3) c1 c2) := by
  show X (r0_4c.idx (ix3 z c1 c2)) = _
  refine congrArg X (funext fun a => Fin.ext ?_)
  match a with
  | ⟨0, _⟩ => show 2 + 1 * z.val = 2; omega
  | ⟨1, _⟩ => show 0 + 1 * c1.val = c1.val; omega
  | ⟨2, _⟩ => show 0 + 1 * c2.val = c2.val; omega

/-! ## The scratch at an index: the activations between two zero rows -/

/-- The first layer's activations of the loaded blocks. -/
def act1 (x0 : Vec Ideal S1x1024x6 .f32) (x1 : Vec Ideal S6x256 .f32) (x2 x3 : Vec Ideal S1x256 .f32) (l : Fin 1024) (c1 : Fin 256) : EReal :=
  max ((∑ k : Fin 6, x0 (ix3 0 l k) * x1 (ix2 k c1)) * x2 (ix2 0 c1) + x3 (ix2 0 c1)) 0

/-- The padded activations: zero at rows 0 and 1025, the activations of row `r - 1` between. -/
def pad1 (x0 : Vec Ideal S1x1024x6 .f32) (x1 : Vec Ideal S6x256 .f32) (x2 x3 : Vec Ideal S1x256 .f32) (r : Fin 1026) (c1 : Fin 256) : EReal :=
  if h : 1 ≤ r.val ∧ r.val ≤ 1024 then act1 x0 x1 x2 x3 ⟨r.val - 1, by omega⟩ c1 else 0

theorem scr0_apply (x0 : Vec Ideal S1x1024x6 .f32) (x1 : Vec Ideal S6x256 .f32) (x2 x3 : Vec Ideal S1x256 .f32) (r : Fin 1026) (c1 : Fin 256) :
    scr0 x0 x1 x2 x3 (ix2 r c1) = pad1 x0 x1 x2 x3 r c1 := by
  unfold scr0 pad1
  by_cases h : 1 ≤ r.val ∧ r.val ≤ 1024
  · rw [dif_pos h]
    have he : (ix2 r c1 : S1026x256.Idx) = rs_1.emb (ix2 (⟨r.val - 1, by omega⟩ : Fin 1024) c1) := by
      funext a; apply Fin.ext
      match a with
      | ⟨0, _⟩ => show r.val = 1 + 1 * (r.val - 1); omega
      | ⟨1, _⟩ => show c1.val = 0 + 1 * c1.val; omega
    rw [he, View.canon_cons_emb, pay3_apply]
    rw [View.ld_unit_zero (S := S1x1024x6) hz3, View.ld_unit_zero (S := S6x256) hz2, View.ld_unit_zero (S := S1x256) hz2, View.ld_unit_zero (S := S1x256) hz2]
    rfl
  · rw [dif_neg h]
    have hm : (ix2 r c1 : S1026x256.Idx) ∉ (rs_1 : Rect S1026x256).set := by
      rw [Rect.mem_set_unit]
      intro hm
      have h0 := hm (0 : Fin 2)
      have h0' : 1 ≤ r.val ∧ r.val < 1 + 1024 := h0
      omega
    refine (View.canon_cons_of_not_mem (⟨rs_1, _⟩ : View.Piece (Elt Ideal) S1026x256 .f32) _ hm).trans ?_
    rw [View.canon_unit_zero hz2, pay2_apply]

/-! ## The taps and the output payload at an index -/

theorem drop_S1x256x80 (v : Vec Ideal S1x256x80 .f32) (k : Fin 256) (c2 : Fin 80) :
    shapeCast S256x80 v shapeCasts_S1x256x80_S256x80 (ix2 k c2) = v (ix3 0 k c2) := by
  rw [shapeCast_dropUnit_apply ![256, 80] v shapeCasts_S1x256x80_S256x80 (ix2 k c2)]
  refine congrArg v ?_
  funext d
  match d with
  | ⟨0, _⟩ => rfl
  | ⟨1, _⟩ => rfl
  | ⟨2, _⟩ => rfl

theorem pay4_apply (v22 : Vec Ideal S1024x256 .f32) (v23 : Vec Ideal S1x256x80 .f32) (l : Fin 1024) (c2 : Fin 80) :
    k0_pay4 v22 v23 (ix2 l c2) = ∑ k : Fin 256, v22 (ix2 l k) * v23 (ix3 0 k c2) := by
  unfold k0_pay4
  rw [mm2_apply]
  refine Finset.sum_congr rfl fun k _ => ?_
  rw [drop_S1x256x80]

theorem pay5_apply (v27 : Vec Ideal S1x256x80 .f32) (k : Fin 256) (c2 : Fin 80) :
    k0_pay5 v27 (ix2 k c2) = v27 (ix3 0 k c2) := by
  unfold k0_pay5
  rw [drop_S1x256x80]

/-- The output payload at (0, l, c): the three taps summed as the body sums them, scaled, shifted, clamped at zero. -/
theorem pay1_apply (v25 : FVec Ideal S1024x80 .f32) (v26 : Vec Ideal S1024x256 .f32) (v28 : FVec Ideal S256x80 .f32)
    (v31 : Vec Ideal S1024x256 .f32) (v32 : Vec Ideal S1x256x80 .f32) (v36 v40 : Vec Ideal S1x80 .f32)
    (z : Fin 1) (l : Fin 1024) (c2 : Fin 80) :
    k0_pay1 v25 v26 v28 (constant S1024x80 .f32 0x00000000#32) v31 v32 v36 v40 (ix3 z l c2)
      = max ((v25 (ix2 l c2) + (∑ k : Fin 256, v26 (ix2 l k) * v28 (ix2 k c2))
              + (∑ k : Fin 256, v31 (ix2 l k) * v32 (ix3 0 k c2))) * v36 (ix2 0 c2) + v40 (ix2 0 c2)) 0 := by
  unfold k0_pay1
  simp only [shapeCast_self]
  have hj : (fun a : Fin 2 => (ix3 z l c2 : (⟨3, Matrix.vecCons 1 ![1024, 80]⟩ : Shape).Idx) a.succ)
      = (ix2 l c2 : (⟨2, ![1024, 80]⟩ : Shape).Idx) := by
    funext d
    match d with
    | ⟨0, _⟩ => rfl
    | ⟨1, _⟩ => rfl
  refine (shapeCast_addUnit_apply ![1024, 80] _ shapeCasts_S1024x80_S1x1024x80 (ix3 z l c2)).trans ?_
  refine (congrArg (maximumf _ _) hj).trans ?_
  rw [maximumf_apply, addf_apply, mulf_apply, addf_apply, addf_apply, mm2_apply, mm2_apply]
  rw [broadcastTo_apply v36 broadcasts_S1x80_S1024x80 (ix2 l c2) (ix2 0 c2) (fun a => by
      match a with
      | ⟨0, _⟩ => rfl
      | ⟨1, _⟩ => rfl),
    broadcastTo_apply v40 broadcasts_S1x80_S1024x80 (ix2 l c2) (ix2 0 c2) (fun a => by
      match a with
      | ⟨0, _⟩ => rfl
      | ⟨1, _⟩ => rfl)]
  rw [broadcast_apply]
  rw [show (Scalar.ofBits (F := Ideal) .f32 0x00000000#32) = (0 : EReal) from Ideal.ofBits_zero_f32]
  refine congrArg (fun s => max ((v25 (ix2 l c2) + (∑ k : Fin 256, v26 (ix2 l k) * v28 (ix2 k c2)) + s) * v36 (ix2 0 c2) + v40 (ix2 0 c2)) 0) ?_
  refine Finset.sum_congr rfl fun k _ => ?_
  rw [drop_S1x256x80]

/-- One tap: the padded activations of row `l + k` against tap `k`'s weights. -/
def tap (x0 : Vec Ideal S1x1024x6 .f32) (x1 : Vec Ideal S6x256 .f32) (x2 x3 : Vec Ideal S1x256 .f32) (x4 : Vec Ideal S3x256x80 .f32)
    (k : Fin 3) (l : Fin 1024) (c2 : Fin 80) : EReal :=
  ∑ c1 : Fin 256, pad1 x0 x1 x2 x3 ⟨l.val + k.val, by omega⟩ c1 * x4 (ix3 k c1 c2)

/-- The output window's buffer after the body, at (0, l, c). -/
theorem out0_7_apply (x0 : Vec Ideal S1x1024x6 .f32) (x1 : Vec Ideal S6x256 .f32) (x2 x3 : Vec Ideal S1x256 .f32)
    (x4 : Vec Ideal S3x256x80 .f32) (x5 x6 : Vec Ideal S1x80 .f32) (z : Fin 1) (l : Fin 1024) (c2 : Fin 80) :
    out0_7 x0 x1 x2 x3 x4 x5 x6 (ix3 z l c2)
      = max ((tap x0 x1 x2 x3 x4 0 l c2 + tap x0 x1 x2 x3 x4 1 l c2 + tap x0 x1 x2 x3 x4 2 l c2) * x5 (ix2 0 c2) + x6 (ix2 0 c2)) 0 := by
  unfold out0_7
  rw [View.canon_unit_zero hz3, pay1_apply, pay4_apply]
  rw [View.ld_unit_zero (S := S1x80) hz2, View.ld_unit_zero (S := S1x80) hz2]
  unfold tap
  refine congrArg (fun s => max (s * x5 (ix2 0 c2) + x6 (ix2 0 c2)) 0) ?_
  refine congrArg₂ (· + ·) (congrArg₂ (· + ·) ?_ ?_) ?_
  · exact Finset.sum_congr rfl fun k _ =>
      congrArg₂ (· * ·) ((ld_rs_0 (scr0 x0 x1 x2 x3) l k).trans (scr0_apply x0 x1 x2 x3 _ k)) (ld_r0_4a x4 0 k c2)
  · exact Finset.sum_congr rfl fun k _ =>
      congrArg₂ (· * ·) ((ld_rs_1 (scr0 x0 x1 x2 x3) l k).trans (scr0_apply x0 x1 x2 x3 _ k))
        ((pay5_apply (View.ld x4 r0_4b) k c2).trans (ld_r0_4b x4 0 k c2))
  · exact Finset.sum_congr rfl fun k _ =>
      congrArg₂ (· * ·) ((ld_rs_2 (scr0 x0 x1 x2 x3) l k).trans (scr0_apply x0 x1 x2 x3 _ k)) (ld_r0_4c x4 0 k c2)

/-! ## The closed form, unfolded one layer at a time -/

theorem tap_def (x0 : Vec Ideal S1x1024x6 .f32) (x1 : Vec Ideal S6x256 .f32) (x2 x3 : Vec Ideal S1x256 .f32) (x4 : Vec Ideal S3x256x80 .f32)
    (k : Fin 3) (l : Fin 1024) (c2 : Fin 80) :
    tap x0 x1 x2 x3 x4 k l c2 = ∑ c1 : Fin 256, pad1 x0 x1 x2 x3 ⟨l.val + k.val, by omega⟩ c1 * x4 (ix3 k c1 c2) := rfl

/-- Between the two zero rows the padded activations are the activations of the row before. -/
theorem pad1_of_mid (x0 : Vec Ideal S1x1024x6 .f32) (x1 : Vec Ideal S6x256 .f32) (x2 x3 : Vec Ideal S1x256 .f32) (r : Fin 1026) (c1 : Fin 256)
    (h : 1 ≤ r.val ∧ r.val ≤ 1024) : pad1 x0 x1 x2 x3 r c1 = act1 x0 x1 x2 x3 ⟨r.val - 1, by omega⟩ c1 := dif_pos h

/-- Rows 0 and 1025 are zero. -/
theorem pad1_of_edge (x0 : Vec Ideal S1x1024x6 .f32) (x1 : Vec Ideal S6x256 .f32) (x2 x3 : Vec Ideal S1x256 .f32) (r : Fin 1026) (c1 : Fin 256)
    (h : ¬(1 ≤ r.val ∧ r.val ≤ 1024)) : pad1 x0 x1 x2 x3 r c1 = 0 := dif_neg h

/-! ## The windows' blocks at a point, off the arrays -/

section Arrays

variable (V : (c : Dev nD) → (b : Ref sig .tc) → Buf (Elt Ideal) ((c : Thread nD τ).loc b))

/-- The index maps, decided over the grid: the input and the output move with the grid point on the batch axis, every
    other window stays at its whole array. -/
theorem idx_facts0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_facts0_1 : ∀ t : Fin cfg0.N, win0_1.index t (0 : Fin 2) = 0 ∧ win0_1.index t (1 : Fin 2) = 0 :=
  (by decide +kernel : ∀ t : Fin grid0.N, _)
theorem idx_facts0_2 : ∀ t : Fin cfg0.N, win0_2.index t (0 : Fin 2) = 0 ∧ win0_2.index t (1 : Fin 2) = 0 :=
  (by decide +kernel : ∀ t : Fin grid0.N, _)
theorem idx_facts0_3 : ∀ t : Fin cfg0.N, win0_3.index t (0 : Fin 2) = 0 ∧ win0_3.index t (1 : Fin 2) = 0 :=
  (by decide +kernel : ∀ t : Fin grid0.N, _)
theorem idx_facts0_4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_facts0_5 : ∀ t : Fin cfg0.N, win0_5.index t (0 : Fin 2) = 0 ∧ win0_5.index t (1 : Fin 2) = 0 :=
  (by decide +kernel : ∀ t : Fin grid0.N, _)
theorem idx_facts0_6 : ∀ t : Fin cfg0.N, win0_6.index t (0 : Fin 2) = 0 ∧ win0_6.index t (1 : Fin 2) = 0 :=
  (by decide +kernel : ∀ t : Fin grid0.N, _)
theorem idx_facts0_7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Batch element `b` of the im2col input, as one block. -/
def xb (xw : Vec Ideal S256x1024x6 .f32) (b : Fin 256) : Vec Ideal S1x1024x6 .f32 := fun j => xw (ix3 b (j 1) (j 2))

/-- Window 0's block at point `t` is batch element `t` of its array. -/
theorem iblk0_0_eq (c : Dev nD) (t : Fin cfg0.N) :
    iblk0 V c 0 t = xb (V c main_v37) ⟨t.val, lt_of_lt_of_eq t.isLt (show cfg0.N = 256 from N_0)⟩ := by
  have hf := idx_facts0_0 t
  funext j
  show V c main_v37 (((cfg0.win 0).blk t).view.emb j) = V c main_v37 (ix3 _ (j 1) (j 2))
  refine congrArg (V c main_v37) (funext fun a => Fin.ext ?_)
  match a with
  | ⟨0, _⟩ =>
    show win0_0.index t (0 : Fin 3) * 1 + 1 * (j 0).val = t.val
    have hj : (j 0).val < 1 := (j 0).isLt
    omega
  | ⟨1, _⟩ => show win0_0.index t (1 : Fin 3) * 1024 + 1 * (j 1).val = (j 1).val; omega
  | ⟨2, _⟩ => show win0_0.index t (2 : Fin 3) * 6 + 1 * (j 2).val = (j 2).val; omega

/-- Window 1's block is its whole array at every point. -/
theorem iblk0_1_eq (c : Dev nD) (t : Fin cfg0.N) : iblk0 V c 1 t = V c main_v25 := by
  have hf := idx_facts0_1 t
  funext j
  show V c main_v25 (((cfg0.win 1).blk t).view.emb j) = V c main_v25 j
  refine congrArg (V c main_v25) (funext fun a => Fin.ext ?_)
  match a with
    | ⟨0, _⟩ => show win0_1.index t (0 : Fin 2) * 6 + 1 * (j 0).val = (j 0).val; omega
    | ⟨1, _⟩ => show win0_1.index t (1 : Fin 2) * 256 + 1 * (j 1).val = (j 1).val; omega

/-- Window 2's block is its whole array at every point. -/
theorem iblk0_2_eq (c : Dev nD) (t : Fin cfg0.N) : iblk0 V c 2 t = V c main_v6 := by
  have hf := idx_facts0_2 t
  funext j
  show V c main_v6 (((cfg0.win 2).blk t).view.emb j) = V c main_v6 j
  refine congrArg (V c main_v6) (funext fun a => Fin.ext ?_)
  match a with
    | ⟨0, _⟩ => show win0_2.index t (0 : Fin 2) * 1 + 1 * (j 0).val = (j 0).val; omega
    | ⟨1, _⟩ => show win0_2.index t (1 : Fin 2) * 256 + 1 * (j 1).val = (j 1).val; omega

/-- Window 3's block is its whole array at every point. -/
theorem iblk0_3_eq (c : Dev nD) (t : Fin cfg0.N) : iblk0 V c 3 t = V c main_v7 := by
  have hf := idx_facts0_3 t
  funext j
  show V c main_v7 (((cfg0.win 3).blk t).view.emb j) = V c main_v7 j
  refine congrArg (V c main_v7) (funext fun a => Fin.ext ?_)
  match a with
    | ⟨0, _⟩ => show win0_3.index t (0 : Fin 2) * 1 + 1 * (j 0).val = (j 0).val; omega
    | ⟨1, _⟩ => show win0_3.index t (1 : Fin 2) * 256 + 1 * (j 1).val = (j 1).val; omega

/-- Window 4's block is its whole array at every point. -/
theorem iblk0_4_eq (c : Dev nD) (t : Fin cfg0.N) : iblk0 V c 4 t = V c main_v26 := by
  have hf := idx_facts0_4 t
  funext j
  show V c main_v26 (((cfg0.win 4).blk t).view.emb j) = V c main_v26 j
  refine congrArg (V c main_v26) (funext fun a => Fin.ext ?_)
  match a with
    | ⟨0, _⟩ => show win0_4.index t (0 : Fin 3) * 3 + 1 * (j 0).val = (j 0).val; omega
    | ⟨1, _⟩ => show win0_4.index t (1 : Fin 3) * 256 + 1 * (j 1).val = (j 1).val; omega
    | ⟨2, _⟩ => show win0_4.index t (2 : Fin 3) * 80 + 1 * (j 2).val = (j 2).val; omega

/-- Window 5's block is its whole array at every point. -/
theorem iblk0_5_eq (c : Dev nD) (t : Fin cfg0.N) : iblk0 V c 5 t = V c main_v14 := by
  have hf := idx_facts0_5 t
  funext j
  show V c main_v14 (((cfg0.win 5).blk t).view.emb j) = V c main_v14 j
  refine congrArg (V c main_v14) (funext fun a => Fin.ext ?_)
  match a with
    | ⟨0, _⟩ => show win0_5.index t (0 : Fin 2) * 1 + 1 * (j 0).val = (j 0).val; omega
    | ⟨1, _⟩ => show win0_5.index t (1 : Fin 2) * 80 + 1 * (j 1).val = (j 1).val; omega

/-- Window 6's block is its whole array at every point. -/
theorem iblk0_6_eq (c : Dev nD) (t : Fin cfg0.N) : iblk0 V c 6 t = V c main_v15 := by
  have hf := idx_facts0_6 t
  funext j
  show V c main_v15 (((cfg0.win 6).blk t).view.emb j) = V c main_v15 j
  refine congrArg (V c main_v15) (funext fun a => Fin.ext ?_)
  match a with
    | ⟨0, _⟩ => show win0_6.index t (0 : Fin 2) * 1 + 1 * (j 0).val = (j 0).val; omega
    | ⟨1, _⟩ => show win0_6.index t (1 : Fin 2) * 80 + 1 * (j 1).val = (j 1).val; omega

/-! ## The output array after the region -/

/-- The second layer's activations at batch element `b`, row `l`, channel `c`: the three taps over the padded first-layer
    activations, summed as the body sums them, scaled, shifted, clamped at zero. -/
def convAt (xw : Vec Ideal S256x1024x6 .f32) (w1 : Vec Ideal S6x256 .f32) (s1 t1 : Vec Ideal S1x256 .f32)
    (w2 : Vec Ideal S3x256x80 .f32) (s2 t2 : Vec Ideal S1x80 .f32) (b : Fin 256) (l : Fin 1024) (c2 : Fin 80) : EReal :=
  max ((tap (xb xw b) w1 s1 t1 w2 0 l c2 + tap (xb xw b) w1 s1 t1 w2 1 l c2 + tap (xb xw b) w1 s1 t1 w2 2 l c2) * s2 (ix2 0 c2) + t2 (ix2 0 c2)) 0

/-- The whole output array in closed form. -/
def G7 (c : Dev nD) : Vec Ideal S256x1024x80 .f32 := fun i =>
  convAt (V c main_v37) (V c main_v25) (V c main_v6) (V c main_v7) (V c main_v26) (V c main_v14) (V c main_v15) (i 0) (i 1) (i 2)

/-- Where point `t`'s output block sits in the array. -/
theorem emb7 (t : Fin cfg0.N) (z : Fin 1) (l : Fin 1024) (c2 : Fin 80) :
    ((cfg0.win 7).blk t).view.emb (ix3 z l c2)
      = (ix3 (⟨t.val, lt_of_lt_of_eq t.isLt (show cfg0.N = 256 from N_0)⟩ : Fin 256) l c2 : S256x1024x80.Idx) := by
  have hf := idx_facts0_7 t
  funext a; apply Fin.ext
  match a with
  | ⟨0, _⟩ =>
    show win0_7.index t (0 : Fin 3) * 1 + 1 * z.val = t.val
    have hz : z.val < 1 := z.isLt
    omega
  | ⟨1, _⟩ => show win0_7.index t (1 : Fin 3) * 1024 + 1 * l.val = l.val; omega
  | ⟨2, _⟩ => show win0_7.index t (2 : Fin 3) * 80 + 1 * c2.val = c2.val; omega

/-- What point `t` writes back is block `t` of the closed form. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, iblk0_0_eq, iblk0_1_eq, iblk0_2_eq, iblk0_3_eq, iblk0_4_eq, iblk0_5_eq, iblk0_6_eq]
  funext j
  obtain ⟨z, l, c2, rfl⟩ : ∃ (z : Fin 1) (l : Fin 1024) (c2 : Fin 80), j = ix3 z l c2 := ⟨j 0, j 1, j 2, eq_ix3 j⟩
  show out0_7 _ _ _ _ _ _ _ (ix3 z l c2) = G7 V c (((cfg0.win 7).blk t).view.emb (ix3 z l c2))
  rw [out0_7_apply, emb7]
  rfl

/-- THE VALUE: after the region the output array holds the closed form at every element. -/
theorem conv_value (c : Dev nD) (b : Fin 256) (l : Fin 1024) (c2 : Fin 80) :
    (dat0 (F := Ideal) V c).arrAt 7 cfg0.N (ix3 b l c2)
      = convAt (V c main_v37) (V c main_v25) (V c main_v6) (V c main_v7) (V c main_v26) (V c main_v14) (V c main_v15) b l c2 := by
  have hN : cfg0.N = 256 := N_0
  let t : Fin cfg0.N := ⟨b.val, by rw [hN]; exact b.isLt⟩
  have h := (dat0 V c).arrAt_apply_of_mem 7 (G7 V c) (fun t _ => flushed7_eq V c t) cfg0.N t
    (((cfg0.win 7).blk t).view.emb (ix3 (0 : Fin 1) l c2)) t.isLt (flush0_7 t) (((cfg0.win 7).blk t).view.emb_mem_set _)
  rw [emb7] at h
  exact h

/-- The first layer's activations of batch element `b`, off the whole input array. -/
theorem act1_xb (xw : Vec Ideal S256x1024x6 .f32) (w1 : Vec Ideal S6x256 .f32) (s1 t1 : Vec Ideal S1x256 .f32) (b : Fin 256) (l : Fin 1024) (c1 : Fin 256) :
    act1 (xb xw b) w1 s1 t1 l c1 = max ((∑ j : Fin 6, xw (ix3 b l j) * w1 (ix2 j c1)) * s1 (ix2 0 c1) + t1 (ix2 0 c1)) 0 := rfl

theorem convAt_def (xw : Vec Ideal S256x1024x6 .f32) (w1 : Vec Ideal S6x256 .f32) (s1 t1 : Vec Ideal S1x256 .f32)
    (w2 : Vec Ideal S3x256x80 .f32) (s2 t2 : Vec Ideal S1x80 .f32) (b : Fin 256) (l : Fin 1024) (c2 : Fin 80) :
    convAt xw w1 s1 t1 w2 s2 t2 b l c2
      = max ((tap (xb xw b) w1 s1 t1 w2 0 l c2 + tap (xb xw b) w1 s1 t1 w2 1 l c2 + tap (xb xw b) w1 s1 t1 w2 2 l c2) * s2 (ix2 0 c2) + t2 (ix2 0 c2)) 0 := rfl

end Arrays

end Cert.ReferenceIdeal.Hand

end
-- ==== Proof.HostR.lean ====
/-
  The host side of the reference program, at the ideal instance: what each operand buffer of the two kernel regions holds
  when its region is entered, read at an index given by coordinates as a closed formula of the program's arguments.

  The operations before the first region build, from the input `x` with its channel axis moved last, the three shifted
  windows of its zero-padded rows laid along the channel axis (entry `2·k + c` is channel `c` shifted by `k`); from the
  weights, the matrices the regions multiply by, the first dense layer's with its input axis re-ordered place-major; and
  from the batch-norm parameters, a scale `γ / σ` and a shift `b · (γ / σ) + β` per channel, `σ` the square root of the
  variance literal. Before the second region the convolution output's two trailing axes are merged and the last bias is
  made a row. Every statement is over an arbitrary valuation of the buffers.
-/
import proofs.«177748_g2000301280579440_pallasbulk_580_2_alg».proof.Proof.Gen.ReferenceIdeal.Launch
import proofs.«177748_g2000301280579440_pallasbulk_580_2_alg».proof.Proof.HostLayout
import Idealize.ShloMosaic.Lib.StableHlo.Run

noncomputable section

namespace Cert.ReferenceIdeal.HostValue

open Cert.ReferenceIdeal Cert.ReferenceIdeal.Gen Cert.HostLayout
open Idealize.ShloMosaic Idealize.ShloMosaic.TcCoe Idealize.ShloMosaic.StableHlo Idealize.ShloMosaic.ValueIdx

/-- The buffers' contents when the first region is entered, from the contents `W` at launch. -/
abbrev W3 (W : Valuation τ sig (Elt Ideal)) : Valuation τ sig (Elt Ideal) :=
  after hostOps0_2 (after hostOps0_1 (after hostOps0 W))

/-! ## The arguments, read as arrays of extended reals -/

/-- The input `x`, `[256, 2, 1024]`. -/
abbrev aX (W : Valuation τ sig (Elt Ideal)) : S256x2x1024.Idx → EReal := W (main_arg0 : DevRef τ sig)
/-- The first convolution's weights, `[256, 2, 3]`. -/
abbrev aW1 (W : Valuation τ sig (Elt Ideal)) : S256x2x3.Idx → EReal := W (main_arg1 : DevRef τ sig)
/-- The first convolution's bias, and the first batch norm's `γ` and `β`. -/
abbrev aB1 (W : Valuation τ sig (Elt Ideal)) : S256.Idx → EReal := W (main_arg2 : DevRef τ sig)
@[inherit_doc aB1] abbrev aG1 (W : Valuation τ sig (Elt Ideal)) : S256.Idx → EReal := W (main_arg3 : DevRef τ sig)
@[inherit_doc aB1] abbrev aBe1 (W : Valuation τ sig (Elt Ideal)) : S256.Idx → EReal := W (main_arg4 : DevRef τ sig)
/-- The second convolution's weights, `[80, 256, 3]`. -/
abbrev aW2 (W : Valuation τ sig (Elt Ideal)) : S80x256x3.Idx → EReal := W (main_arg5 : DevRef τ sig)
/-- The second convolution's bias, and the second batch norm's `γ` and `β`. -/
abbrev aB2 (W : Valuation τ sig (Elt Ideal)) : S80.Idx → EReal := W (main_arg6 : DevRef τ sig)
@[inherit_doc aB2] abbrev aG2 (W : Valuation τ sig (Elt Ideal)) : S80.Idx → EReal := W (main_arg7 : DevRef τ sig)
@[inherit_doc aB2] abbrev aBe2 (W : Valuation τ sig (Elt Ideal)) : S80.Idx → EReal := W (main_arg8 : DevRef τ sig)
/-- The first dense layer's weights, `[256, 81920]`. -/
abbrev aW3 (W : Valuation τ sig (Elt Ideal)) : S256x81920.Idx → EReal := W (main_arg9 : DevRef τ sig)
/-- The first dense layer's bias, and the third batch norm's `γ` and `β`. -/
abbrev aB3 (W : Valuation τ sig (Elt Ideal)) : S256.Idx → EReal := W (main_arg10 : DevRef τ sig)
@[inherit_doc aB3] abbrev aG3 (W : Valuation τ sig (Elt Ideal)) : S256.Idx → EReal := W (main_arg11 : DevRef τ sig)
@[inherit_doc aB3] abbrev aBe3 (W : Valuation τ sig (Elt Ideal)) : S256.Idx → EReal := W (main_arg12 : DevRef τ sig)
/-- The second dense layer's weights, `[10, 256]`, and bias. -/
abbrev aW4 (W : Valuation τ sig (Elt Ideal)) : S10x256.Idx → EReal := W (main_arg13 : DevRef τ sig)
@[inherit_doc aW4] abbrev aB4 (W : Valuation τ sig (Elt Ideal)) : S10.Idx → EReal := W (main_arg14 : DevRef τ sig)

/-! ## Before the second region -/

/-- The convolution output with its trailing axes merged: entry `(b, l·80 + c2)` is entry `(b, l, c2)`. -/
theorem v39_apply (W : Valuation τ sig (Elt Ideal)) (b : Fin 256) (l : Fin 1024) (c2 : Fin 80) (k : Fin 81920)
    (hk : k.val = l.val * 80 + c2.val) :
    (after (hostOps1 (F := Ideal)) W (main_v39 : DevRef τ sig) : S256x81920.Idx → EReal) (ix2 b k)
      = (W (main_v38 : DevRef τ sig) : S256x1024x80.Idx → EReal) (ix3 b l c2) := by
  have e : (after (hostOps1 (F := Ideal)) W (main_v39 : DevRef τ sig) : S256x81920.Idx → EReal)
      = shapeCast S256x81920 (W (main_v38 : DevRef τ sig) : S256x1024x80.Idx → EReal) shapeCasts_S256x1024x80_S256x81920 := by
    after_results_simp
    rfl
  rw [e]
  exact shapeCast_abc_an_apply _ _ (by decide) b l c2 k hk

/-- The last bias as a row: entry `(0, o)` is entry `o` of the argument. -/
theorem v40_apply (W : Valuation τ sig (Elt Ideal)) (u : Fin 1) (o : Fin 10) :
    (after (hostOps1 (F := Ideal)) W (main_v40 : DevRef τ sig) : S1x10.Idx → EReal) (ix2 u o) = aB4 W (ix1 o) := by
  have e : (after (hostOps1 (F := Ideal)) W (main_v40 : DevRef τ sig) : S1x10.Idx → EReal)
      = shapeCast S1x10 (W (main_arg14 : DevRef τ sig) : S10.Idx → EReal) shapeCasts_S10_S1x10 := by
    after_results_simp
    rfl
  rw [e]
  exact shapeCast_a_1a_apply _ _ u o

section Keep
variable {F : FTy → Type} [FloatOps F]

/-- The stretch before the second region writes two buffers only. -/
theorem hostOps1_keep (W : Valuation τ sig (Elt F)) (r : Ref sig .tc) (h39 : r ≠ main_v39) (h40 : r ≠ main_v40) :
    after (hostOps1 (F := F)) W (r : DevRef τ sig) = W (r : DevRef τ sig) := by
  simp only [after_cons, after_nil]
  rw [reshape_result_ne (h := h40), reshape_result_ne (h := h39)]

end Keep

/-! ## Before the first region: the weights -/

/-- The first convolution's weights as a `[6, 256]` matrix: row `2·k + c`, column `c1` is `w1 (c1, c, k)`. -/
theorem v25_apply (W : Valuation τ sig (Elt Ideal)) (j : Fin 6) (c1 : Fin 256) (c : Fin 2) (k : Fin 3)
    (hj : j.val = 2 * k.val + c.val) :
    (W3 W (main_v25 : DevRef τ sig) : S6x256.Idx → EReal) (ix2 j c1) = aW1 W (ix3 c1 c k) := by
  have e : (W3 W (main_v25 : DevRef τ sig) : S6x256.Idx → EReal)
      = shapeCast S6x256 (transpose S3x2x256 [2, 1, 0]
          (W (main_arg1 : DevRef τ sig) : S256x2x3.Idx → EReal) transposes_S256x2x3_S3x2x256_2_1_0)
          shapeCasts_S3x2x256_S6x256 := by
    after_results_simp
    rfl
  rw [e, shapeCast_abc_nc_apply _ _ k c c1 j (by omega), transpose_ix3_210_apply]

/-- The second convolution's weights with their axes reversed: entry `(k, c1, c2)` is `w2 (c2, c1, k)`. -/
theorem v26_apply (W : Valuation τ sig (Elt Ideal)) (k : Fin 3) (c1 : Fin 256) (c2 : Fin 80) :
    (W3 W (main_v26 : DevRef τ sig) : S3x256x80.Idx → EReal) (ix3 k c1 c2) = aW2 W (ix3 c2 c1 k) := by
  have e : (W3 W (main_v26 : DevRef τ sig) : S3x256x80.Idx → EReal)
      = transpose S3x256x80 [2, 1, 0] (W (main_arg5 : DevRef τ sig) : S80x256x3.Idx → EReal)
          transposes_S80x256x3_S3x256x80_2_1_0 := by
    after_results_simp
  rw [e, transpose_ix3_210_apply]

/-- The first dense layer's weights, transposed and their input axis re-ordered place-major: row `l·80 + c2`, column
    `h` is `w3 (h, c2·1024 + l)`. -/
theorem v30_apply (W : Valuation τ sig (Elt Ideal)) (r : Fin 81920) (h : Fin 256) (l : Fin 1024) (c2 : Fin 80)
    (kk : Fin 81920) (hr : r.val = l.val * 80 + c2.val) (hkk : kk.val = c2.val * 1024 + l.val) :
    (W3 W (main_v30 : DevRef τ sig) : S81920x256.Idx → EReal) (ix2 r h) = aW3 W (ix2 h kk) := by
  have e : (W3 W (main_v30 : DevRef τ sig) : S81920x256.Idx → EReal)
      = truncf (F := Ideal) .bf16 (shapeCast S81920x256 (transpose S1024x80x256 [2, 1, 0]
          (shapeCast S256x80x1024 (W (main_arg9 : DevRef τ sig) : S256x81920.Idx → EReal) shapeCasts_S256x81920_S256x80x1024)
          transposes_S256x80x1024_S1024x80x256_2_1_0) shapeCasts_S1024x80x256_S81920x256) bitsLt_bf16_f32 := by
    after_results_simp
    rfl
  rw [e, truncf_apply, shapeCast_abc_nc_apply _ _ l c2 h r hr, transpose_ix3_210_apply,
    shapeCast_an_abc_apply _ _ (by decide) h c2 l kk hkk]

/-- The last weight matrix transposed: entry `(h, o)` is entry `(o, h)` of the argument. -/
theorem v31_apply (W : Valuation τ sig (Elt Ideal)) (h : Fin 256) (o : Fin 10) :
    (W3 W (main_v31 : DevRef τ sig) : S256x10.Idx → EReal) (ix2 h o) = aW4 W (ix2 o h) := by
  have e : (W3 W (main_v31 : DevRef τ sig) : S256x10.Idx → EReal)
      = transpose S256x10 [1, 0] (W (main_arg13 : DevRef τ sig) : S10x256.Idx → EReal) transposes_S10x256_S256x10_1_0 := by
    after_results_simp
  rw [e]
  exact transpose_ix2_apply _ _ h o

/-! ## Before the first region: the batch-norm scales and shifts -/

/-- The first batch norm's scale as a row: `γ₁ / σ`. -/
theorem v6_apply (W : Valuation τ sig (Elt Ideal)) (u : Fin 1) (c1 : Fin 256) :
    (W3 W (main_v6 : DevRef τ sig) : S1x256.Idx → EReal) (ix2 u c1) = Ideal.div (aG1 W (ix1 c1)) sigma := by
  have e : (W3 W (main_v6 : DevRef τ sig) : S1x256.Idx → EReal)
      = shapeCast S1x256 (Host.divf (W (main_arg3 : DevRef τ sig) : S256.Idx → EReal)
          (broadcastInDim S256 ![] bcast_S_S256 (id (Host.sqrt (constant (F := Ideal) S_ .f32 0x3F800054#32)))))
          shapeCasts_S256_S1x256 := by
    after_results_simp
    rfl
  rw [e, shapeCast_a_1a_apply]
  exact bn_scale_apply _ _ c1

/-- The first batch norm's shift as a row: `b₁ · (γ₁ / σ) + β₁`. -/
theorem v7_apply (W : Valuation τ sig (Elt Ideal)) (u : Fin 1) (c1 : Fin 256) :
    (W3 W (main_v7 : DevRef τ sig) : S1x256.Idx → EReal) (ix2 u c1)
      = aB1 W (ix1 c1) * Ideal.div (aG1 W (ix1 c1)) sigma + aBe1 W (ix1 c1) := by
  have e : (W3 W (main_v7 : DevRef τ sig) : S1x256.Idx → EReal)
      = shapeCast S1x256 (addf (mulf (W (main_arg2 : DevRef τ sig) : S256.Idx → EReal)
          (Host.divf (W (main_arg3 : DevRef τ sig) : S256.Idx → EReal)
            (broadcastInDim S256 ![] bcast_S_S256 (id (Host.sqrt (constant (F := Ideal) S_ .f32 0x3F800054#32))))))
          (W (main_arg4 : DevRef τ sig) : S256.Idx → EReal)) shapeCasts_S256_S1x256 := by
    after_results_simp
    rfl
  rw [e, shapeCast_a_1a_apply, bn_shift_apply, bn_scale_apply]

/-- The second batch norm's scale as a row: `γ₂ / σ`. -/
theorem v14_apply (W : Valuation τ sig (Elt Ideal)) (u : Fin 1) (c2 : Fin 80) :
    (W3 W (main_v14 : DevRef τ sig) : S1x80.Idx → EReal) (ix2 u c2) = Ideal.div (aG2 W (ix1 c2)) sigma := by
  have e : (W3 W (main_v14 : DevRef τ sig) : S1x80.Idx → EReal)
      = shapeCast S1x80 (Host.divf (W (main_arg7 : DevRef τ sig) : S80.Idx → EReal)
          (broadcastInDim S80 ![] bcast_S_S80 (id (Host.sqrt (constant (F := Ideal) S_ .f32 0x3F800054#32)))))
          shapeCasts_S80_S1x80 := by
    after_results_simp
    rfl
  rw [e, shapeCast_a_1a_apply]
  exact bn_scale_apply _ _ c2

/-- The second batch norm's shift as a row: `b₂ · (γ₂ / σ) + β₂`. -/
theorem v15_apply (W : Valuation τ sig (Elt Ideal)) (u : Fin 1) (c2 : Fin 80) :
    (W3 W (main_v15 : DevRef τ sig) : S1x80.Idx → EReal) (ix2 u c2)
      = aB2 W (ix1 c2) * Ideal.div (aG2 W (ix1 c2)) sigma + aBe2 W (ix1 c2) := by
  have e : (W3 W (main_v15 : DevRef τ sig) : S1x80.Idx → EReal)
      = shapeCast S1x80 (addf (mulf (W (main_arg6 : DevRef τ sig) : S80.Idx → EReal)
          (Host.divf (W (main_arg7 : DevRef τ sig) : S80.Idx → EReal)
            (broadcastInDim S80 ![] bcast_S_S80 (id (Host.sqrt (constant (F := Ideal) S_ .f32 0x3F800054#32))))))
          (W (main_arg8 : DevRef τ sig) : S80.Idx → EReal)) shapeCasts_S80_S1x80 := by
    after_results_simp
    rfl
  rw [e, shapeCast_a_1a_apply, bn_shift_apply, bn_scale_apply]

/-- The third batch norm's scale as a row: `γ₃ / σ`. -/
theorem v22_apply (W : Valuation τ sig (Elt Ideal)) (u : Fin 1) (h : Fin 256) :
    (W3 W (main_v22 : DevRef τ sig) : S1x256.Idx → EReal) (ix2 u h) = Ideal.div (aG3 W (ix1 h)) sigma := by
  have e : (W3 W (main_v22 : DevRef τ sig) : S1x256.Idx → EReal)
      = shapeCast S1x256 (Host.divf (W (main_arg11 : DevRef τ sig) : S256.Idx → EReal)
          (broadcastInDim S256 ![] bcast_S_S256 (id (Host.sqrt (constant (F := Ideal) S_ .f32 0x3F800054#32)))))
          shapeCasts_S256_S1x256 := by
    after_results_simp
    rfl
  rw [e, shapeCast_a_1a_apply]
  exact bn_scale_apply _ _ h

/-- The third batch norm's shift as a row: `b₃ · (γ₃ / σ) + β₃`. -/
theorem v23_apply (W : Valuation τ sig (Elt Ideal)) (u : Fin 1) (h : Fin 256) :
    (W3 W (main_v23 : DevRef τ sig) : S1x256.Idx → EReal) (ix2 u h)
      = aB3 W (ix1 h) * Ideal.div (aG3 W (ix1 h)) sigma + aBe3 W (ix1 h) := by
  have e : (W3 W (main_v23 : DevRef τ sig) : S1x256.Idx → EReal)
      = shapeCast S1x256 (addf (mulf (W (main_arg10 : DevRef τ sig) : S256.Idx → EReal)
          (Host.divf (W (main_arg11 : DevRef τ sig) : S256.Idx → EReal)
            (broadcastInDim S256 ![] bcast_S_S256 (id (Host.sqrt (constant (F := Ideal) S_ .f32 0x3F800054#32))))))
          (W (main_arg12 : DevRef τ sig) : S256.Idx → EReal)) shapeCasts_S256_S1x256 := by
    after_results_simp
    rfl
  rw [e, shapeCast_a_1a_apply, bn_shift_apply, bn_scale_apply]

/-! ## Before the first region: the three shifted windows of the padded input -/

/-- The three windows laid along the channel axis. -/
def win3 (X : S256x1026x2.Idx → EReal) : S256x1024x6.Idx → EReal :=
  concatenate S256x1024x6 2
    [⟨S256x1024x2, extractStridedSlice S256x1024x2 ![0, 0, 0] X slices_S256x1026x2_S256x1024x2_0_0_0⟩,
     ⟨S256x1024x2, extractStridedSlice S256x1024x2 ![0, 1, 0] X slices_S256x1026x2_S256x1024x2_0_1_0⟩,
     ⟨S256x1024x2, extractStridedSlice S256x1024x2 ![0, 2, 0] X slices_S256x1026x2_S256x1024x2_0_2_0⟩]
    concatenates_S256x1024x2_S256x1024x2_S256x1024x2_S256x1024x6_d2

/-- A window at `(b, l, c)` is the padded input at place `k + l`, channel `c`. -/
theorem slice_mid_apply (k : ℕ) (hs : S256x1026x2.Slices ![0, k, 0] S256x1024x2) (X : S256x1026x2.Idx → EReal)
    (b : Fin 256) (l : Fin 1024) (c : Fin 2) (p : Fin 1026) (hp : p.val = k + l.val) :
    extractStridedSlice S256x1024x2 ![0, k, 0] X hs (ix3 b l c) = X (ix3 b p c) :=
  extractStridedSlice_apply _ X hs _ (ix3 b p c) fun a => by
    match a with
    | ⟨0, _⟩ => exact (Nat.zero_add _).symm
    | ⟨1, _⟩ => exact hp
    | ⟨2, _⟩ => exact (Nat.zero_add _).symm

/-- The three windows at `(b, l, 2·k + c)`: the array at place `k + l`, channel `c`. -/
theorem win3_apply (X : S256x1026x2.Idx → EReal) (b : Fin 256) (l : Fin 1024) (j : Fin 6) (c : Fin 2) (k : Fin 3)
    (hj : j.val = 2 * k.val + c.val) (p : Fin 1026) (hp : p.val = k.val + l.val) :
    win3 X (ix3 b l j) = X (ix3 b p c) := by
  unfold win3
  have hk := k.isLt
  rcases (show k.val = 0 ∨ k.val = 1 ∨ k.val = 2 by omega) with hk0 | hk0 | hk0
  · exact (concatenate3_last_apply _ _ _ _ b l j 0 c (by omega) _ rfl).trans
      (slice_mid_apply 0 _ X b l c p (by omega))
  · exact (concatenate3_last_apply _ _ _ _ b l j 1 c (by omega) _ rfl).trans
      (slice_mid_apply 1 _ X b l c p (by omega))
  · exact (concatenate3_last_apply _ _ _ _ b l j 2 c (by omega) _ rfl).trans
      (slice_mid_apply 2 _ X b l c p (by omega))

/-- What the first region's input buffer holds: the three windows of the padded, channel-last input. -/
theorem v37_eq (W : Valuation τ sig (Elt Ideal)) :
    (W3 W (main_v37 : DevRef τ sig) : S256x1024x6.Idx → EReal)
      = win3 (pad S256x1026x2 ![0, 1, 0] ![0, 1, 0] ![0, 0, 0]
          (transpose S256x1024x2 [0, 2, 1] (W (main_arg0 : DevRef τ sig) : S256x2x1024.Idx → EReal)
            transposes_S256x2x1024_S256x1024x2_0_2_1)
          (sitofp (F := Ideal) .f32 (constantI S_ 32 0#32)) pads_S256x1024x2_S256x1026x2_000_110_000 h_S_) := by
  simp (disch := decide) only [after_cons, after_nil, nullary_result', unary_result', binary_result', reshape_result',
    nary_result', nullary_result_ne', unary_result_ne', binary_result_ne', reshape_result_ne', nary_result_ne',
    Matrix.cons_val]
  rfl

/-- The first region's input at `(b, l, 2·k + c)`: channel `c` of sample `b`, its row padded by one zero at both ends,
    at place `l + k`. -/
theorem v37_apply (W : Valuation τ sig (Elt Ideal)) (b : Fin 256) (l : Fin 1024) (j : Fin 6) (c : Fin 2) (k : Fin 3)
    (hj : j.val = 2 * k.val + c.val) :
    (W3 W (main_v37 : DevRef τ sig) : S256x1024x6.Idx → EReal) (ix3 b l j) = padRow (aX W) b c (l.val + k.val) := by
  have hk := k.isLt
  rw [v37_eq, win3_apply _ b l j c k hj ⟨k.val + l.val, by omega⟩ rfl,
    pad_mid_eq_padRow _ (aX W) (fun p r q => transpose_ix3_021_apply _ _ p r q) _ _ _ (by decide) (sitofp_zero _)]
  show padRow _ b c (k.val + l.val) = _
  rw [Nat.add_comm]

end Cert.ReferenceIdeal.HostValue

end
-- ==== Proof.RConvSpec.lean ====
import proofs.«177748_g2000301280579440_pallasbulk_580_2_alg».proof.Proof.RConvValue
import proofs.«177748_g2000301280579440_pallasbulk_580_2_alg».proof.Proof.Spec
import proofs.«177748_g2000301280579440_pallasbulk_580_2_alg».proof.Proof.HostR

/-! # The reference's convolution stack is the specification's

The closed form of region 0's output, read at the operand arrays the host prepares from the arguments, is the
specification's second convolution: the im2col input is the padded rows, the reshaped weights are the weights with
their axes permuted, the scale and shift rows are the folded normalisations; products commute, and the padded
activations' zero rows are the specification's missing taps at the two ends. -/

set_option maxRecDepth 16384

noncomputable section

namespace Cert.ReferenceIdeal.Hand

open Cert.ReferenceIdeal Cert.ReferenceIdeal.Gen Cert.ReferenceIdeal.HostValue Cert.HostLayout
open Idealize.ShloMosaic Idealize.ShloMosaic.TcCoe Idealize.ShloMosaic.StableHlo Idealize.ShloMosaic.ValueIdx

variable (W : Valuation τ sig (Elt Ideal))

local notation "xw" => (W3 W (main_v37 : DevRef τ sig) : S256x1024x6.Idx → EReal)
local notation "w1m" => (W3 W (main_v25 : DevRef τ sig) : S6x256.Idx → EReal)
local notation "s1r" => (W3 W (main_v6 : DevRef τ sig) : S1x256.Idx → EReal)
local notation "t1r" => (W3 W (main_v7 : DevRef τ sig) : S1x256.Idx → EReal)
local notation "w2k" => (W3 W (main_v26 : DevRef τ sig) : S3x256x80.Idx → EReal)
local notation "s2r" => (W3 W (main_v14 : DevRef τ sig) : S1x80.Idx → EReal)
local notation "t2r" => (W3 W (main_v15 : DevRef τ sig) : S1x80.Idx → EReal)

/-- The first layer's activations are the specification's. -/
theorem act1_eq_h1 (b : Fin 256) (l : Fin 1024) (c1 : Fin 256) :
    act1 (xb xw b) w1m s1r t1r l c1 = Cert.Spec.h1 (aX W) (aW1 W) (aB1 W) (aG1 W) (aBe1 W) b c1 l := by
  rw [act1_xb]
  unfold Cert.Spec.h1 Cert.Spec.shift Cert.Spec.scale
  rw [v6_apply W 0 c1, v7_apply W 0 c1]
  refine congrArg (fun s => max (s * Ideal.div (aG1 W (ix1 c1)) sigma
    + (aB1 W (ix1 c1) * Ideal.div (aG1 W (ix1 c1)) sigma + aBe1 W (ix1 c1))) 0) ?_
  refine Finset.sum_congr rfl fun j _ => ?_
  have hj : j.val = 2 * (Cert.Spec.jk j).val + (Cert.Spec.jc j).val := by
    show j.val = 2 * (j.val / 2) + j.val % 2
    omega
  rw [v37_apply W b l j _ _ hj, v25_apply W j c1 _ _ hj, mul_comm]

/-- A tap over a row of the padded activations that is a real row: the specification's tap at that row. -/
theorem tapRow_mid (b : Fin 256) (k : Fin 3) (c2 : Fin 80) (r : Fin 1026) (l' : Fin 1024) (hr : r.val = l'.val + 1) :
    (∑ c1 : Fin 256, pad1 (xb xw b) w1m s1r t1r r c1 * w2k (ix3 k c1 c2))
      = Cert.Spec.tap (aX W) (aW1 W) (aB1 W) (aG1 W) (aBe1 W) (aW2 W) k b c2 l' := by
  unfold Cert.Spec.tap
  refine Finset.sum_congr rfl fun c1 _ => ?_
  rw [pad1_of_mid _ _ _ _ r c1 ⟨by omega, by have := l'.isLt; omega⟩]
  have hl : (⟨r.val - 1, by have := l'.isLt; omega⟩ : Fin 1024) = l' := Fin.ext (by show r.val - 1 = l'.val; omega)
  rw [hl, act1_eq_h1, v26_apply, mul_comm]

/-- A tap over one of the two zero rows is zero. -/
theorem tapRow_edge (b : Fin 256) (k : Fin 3) (c2 : Fin 80) (r : Fin 1026) (hr : ¬(1 ≤ r.val ∧ r.val ≤ 1024)) :
    (∑ c1 : Fin 256, pad1 (xb xw b) w1m s1r t1r r c1 * w2k (ix3 k c1 c2)) = 0 := by
  refine Finset.sum_eq_zero fun c1 _ => ?_
  rw [pad1_of_edge _ _ _ _ r c1 hr, zero_mul]

/-- THE CONVOLUTION STACK: the closed form of region 0's output at the host-prepared operands is the specification's
    second convolution of the arguments. -/
theorem convAt_eq_spec (b : Fin 256) (l : Fin 1024) (c2 : Fin 80) :
    convAt xw w1m s1r t1r w2k s2r t2r b l c2
      = Cert.Spec.conv (aX W) (aW1 W) (aB1 W) (aG1 W) (aBe1 W) (aW2 W) (aB2 W) (aG2 W) (aBe2 W) b c2 l := by
  rw [convAt_def, tap_def, tap_def, tap_def]
  unfold Cert.Spec.conv Cert.Spec.shift Cert.Spec.scale
  rw [v14_apply W 0 c2, v15_apply W 0 c2]
  have hl := l.isLt
  have h1 : (∑ c1 : Fin 256, pad1 (xb xw b) w1m s1r t1r ⟨l.val + (1 : Fin 3).val, by omega⟩ c1 * w2k (ix3 1 c1 c2))
      = Cert.Spec.tap (aX W) (aW1 W) (aB1 W) (aG1 W) (aBe1 W) (aW2 W) 1 b c2 l :=
    tapRow_mid W b 1 c2 _ l rfl
  have h0 : (∑ c1 : Fin 256, pad1 (xb xw b) w1m s1r t1r ⟨l.val + (0 : Fin 3).val, by omega⟩ c1 * w2k (ix3 0 c1 c2))
      = (if h : 1 ≤ l.val then Cert.Spec.tap (aX W) (aW1 W) (aB1 W) (aG1 W) (aBe1 W) (aW2 W) 0 b c2 ⟨l.val - 1, by omega⟩ else 0) := by
    by_cases h : 1 ≤ l.val
    · rw [dif_pos h]
      exact tapRow_mid W b 0 c2 _ ⟨l.val - 1, by omega⟩ (by show l.val + 0 = l.val - 1 + 1; omega)
    · rw [dif_neg h]
      exact tapRow_edge W b 0 c2 _ (by show ¬(1 ≤ l.val + 0 ∧ l.val + 0 ≤ 1024); omega)
  have h2 : (∑ c1 : Fin 256, pad1 (xb xw b) w1m s1r t1r ⟨l.val + (2 : Fin 3).val, by omega⟩ c1 * w2k (ix3 2 c1 c2))
      = (if h : l.val + 1 < 1024 then Cert.Spec.tap (aX W) (aW1 W) (aB1 W) (aG1 W) (aBe1 W) (aW2 W) 2 b c2 ⟨l.val + 1, h⟩ else 0) := by
    by_cases h : l.val + 1 < 1024
    · rw [dif_pos h]
      exact tapRow_mid W b 2 c2 _ ⟨l.val + 1, h⟩ (by show l.val + 2 = l.val + 1 + 1; omega)
    · rw [dif_neg h]
      exact tapRow_edge W b 2 c2 _ (by show ¬(1 ≤ l.val + 2 ∧ l.val + 2 ≤ 1024); omega)
  rw [h0, h1, h2, add_comm (dite _ _ _) (Cert.Spec.tap _ _ _ _ _ _ 1 b c2 l)]

end Cert.ReferenceIdeal.Hand

end
-- ==== Proof.RFcPay.lean ====
/-
  The two values the body of the reference program's second region stores, read at an index on the extended reals:
  the accumulation step is the accumulator plus the sum over the tile's 8192 positions of activation times weight; the
  head is the sum over the 256 hidden units of the accumulator, scaled, shifted and clamped at zero, times the second
  layer's weight, plus the bias, clamped at zero. The contraction index of each product is re-indexed by its coordinate.
-/
import proofs.«177748_g2000301280579440_pallasbulk_580_2_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.ValueIdx

/-! # The payloads of the fused fully connected layers at the ideal values, read at an index -/

/-- The accumulation step at an index: the accumulator there plus the row of the activations' tile times the column of
    the weights' tile. -/
theorem fc_pay2_apply (a : Vec Ideal S256x256 .f32) (x : Vec Ideal S256x8192 .f32) (w : Vec Ideal S8192x256 .bf16)
    (b : Fin 256) (h : Fin 256) :
    k1_pay2 (F := Ideal) a x w (ix2 b h) = a (ix2 b h) + ∑ k : Fin 8192, x (ix2 b k) * w (ix2 k h) := by
  unfold k1_pay2
  simp only [shapeCast_self]
  rw [addf_apply]
  simp only [matmul]
  rw [Ideal.matmul_constant_zero_apply]
  refine congrArg (a (ix2 b h) + ·) ?_
  rw [← Equiv.sum_comp (contrEquiv1 dot_S256x8192_S8192x256_S256x256_1_0_0_1_n_n 8192 (by decide) (by decide)).symm]
  refine Finset.sum_congr rfl fun k _ => ?_
  have hl : dot_S256x8192_S8192x256_S256x256_1_0_0_1_n_n.lhsIdx (ix2 b h)
      ((contrEquiv1 dot_S256x8192_S8192x256_S256x256_1_0_0_1_n_n 8192 (by decide) (by decide)).symm k) = ix2 b k := by
    funext a; apply Fin.ext
    match a with
    | ⟨0, _⟩ => rfl
    | ⟨1, _⟩ => exact contrEquiv1_symm_val dot_S256x8192_S8192x256_S256x256_1_0_0_1_n_n 8192 (by decide) (by decide) k
  have hr : dot_S256x8192_S8192x256_S256x256_1_0_0_1_n_n.rhsIdx (ix2 b h)
      ((contrEquiv1 dot_S256x8192_S8192x256_S256x256_1_0_0_1_n_n 8192 (by decide) (by decide)).symm k) = ix2 k h := by
    funext a; apply Fin.ext
    match a with
    | ⟨0, _⟩ => exact contrEquiv1_symm_val dot_S256x8192_S8192x256_S256x256_1_0_0_1_n_n 8192 (by decide) (by decide) k
    | ⟨1, _⟩ => rfl
  rw [truncf_apply, hl, hr]

/-- The head at an index: the row of the accumulator, scaled and shifted by the batch normalisation's folded constants
    and clipped at zero, times the column of the second layer's weights, plus its bias, clipped at zero. -/
theorem fc_pay3_apply (a : Vec Ideal S256x256 .f32) (s t : Vec Ideal S1x256 .f32) (w4 : Vec Ideal S256x10 .f32)
    (b4 : Vec Ideal S1x10 .f32) (b : Fin 256) (o : Fin 10) :
    k1_pay3 (F := Ideal) a s t w4 b4 (ix2 b o)
      = max ((∑ h : Fin 256, max (a (ix2 b h) * s (ix2 (0 : Fin 1) h) + t (ix2 (0 : Fin 1) h)) 0 * w4 (ix2 h o)) + b4 (ix2 (0 : Fin 1) o)) 0 := by
  unfold k1_pay3
  simp only [shapeCast_self]
  have hz : (FloatOps.ofBits FTy.f32 0#32 : Ideal .f32) = 0 := Ideal.ofBits_zero_f32
  rw [maximumf_apply, addf_apply, broadcast_apply, hz]
  simp only [matmul]
  rw [Ideal.matmul_constant_zero_apply, broadcastTo_1b_ab_apply]
  refine congrArg (fun z => max (z + b4 (ix2 (0 : Fin 1) o)) 0) ?_
  rw [← Equiv.sum_comp (contrEquiv1 dot_S256x256_S256x10_S256x10_1_0_0_1_n_n 256 (by decide) (by decide)).symm]
  refine Finset.sum_congr rfl fun k _ => ?_
  have hl : dot_S256x256_S256x10_S256x10_1_0_0_1_n_n.lhsIdx (ix2 b o)
      ((contrEquiv1 dot_S256x256_S256x10_S256x10_1_0_0_1_n_n 256 (by decide) (by decide)).symm k) = ix2 b k := by
    funext a; apply Fin.ext
    match a with
    | ⟨0, _⟩ => rfl
    | ⟨1, _⟩ => exact contrEquiv1_symm_val dot_S256x256_S256x10_S256x10_1_0_0_1_n_n 256 (by decide) (by decide) k
  have hr : dot_S256x256_S256x10_S256x10_1_0_0_1_n_n.rhsIdx (ix2 b o)
      ((contrEquiv1 dot_S256x256_S256x10_S256x10_1_0_0_1_n_n 256 (by decide) (by decide)).symm k) = ix2 k o := by
    funext a; apply Fin.ext
    match a with
    | ⟨0, _⟩ => exact contrEquiv1_symm_val dot_S256x256_S256x10_S256x10_1_0_0_1_n_n 256 (by decide) (by decide) k
    | ⟨1, _⟩ => rfl
  rw [hl, hr, maximumf_apply, addf_apply, mulf_apply, broadcast_apply, broadcastTo_1b_ab_apply, broadcastTo_1b_ab_apply]

end Cert.ReferenceIdeal.Hand

end
-- ==== Proof.RFcValue.lean ====
/-
  Region 1 of the reference program, its value. For any number format: the activations' tile at point `t` is columns
  `8192 t … 8192 t + 8191` of the activations, the weights' tile rows `8192 t … 8192 t + 8191` of the weights, each
  small operand's block its whole array, and the output array after the region is what the last point stored. On the
  extended reals: the accumulator after point `n` is the sum of the terms of the points `0 … n`, and the output array
  at row `b`, class `o` is the closed formula of the six operand arrays stated in `value1`.
-/
import proofs.«177748_g2000301280579440_pallasbulk_580_2_alg».proof.Proof.RFc
import proofs.«177748_g2000301280579440_pallasbulk_580_2_alg».proof.Proof.RFcPay
import Idealize.ShloMosaic.Lib.Pipeline.Value
import Idealize.ShloMosaic.Lib.ValueIdx

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem Idealize.ShloMosaic.ValueIdx
open Idealize.ShloMosaic.Pipeline (Dat)

section Blocks

variable {F : FTy → Type} [FloatOps F]
variable (V : (c : Dev nD) → (b : Ref sig .tc) → Buf (Elt F) ((c : Thread nD τ).loc b))

/-! # Region 1: the windows' blocks as parts of the arrays, and the output array after the region -/

/-- The activations' tile at point `t` is columns `8192 t … 8192 t + 8191` of the activations. -/
theorem iblk1_0_apply (c : Dev nD) (t : Fin cfg1.N) (x : S256x8192.Idx) (k : S256x81920.Idx)
    (hk0 : (k 0).val = (x 0).val) (hk1 : (k 1).val = 8192 * t.val + (x 1).val) :
    (iblk1 V c 0 t : Vec F S256x8192 .f32) x = (V c main_v39 : S256x81920.Idx → Elt F .f32) k := by
  have hi : win1_0.index t 0 = 0 ∧ win1_0.index t 1 = t.val := by
    rcases fin_N1 t with rfl | rfl | rfl | rfl | rfl | rfl | rfl | rfl | rfl | rfl <;> decide
  unfold iblk1
  rw [View.read_apply]
  show V c main_v39 _ = V c main_v39 _
  congr 1
  funext a
  apply Fin.ext
  match a with
  | ⟨0, _⟩ => show win1_0.index t 0 * 256 + 1 * (x 0).val = (k 0).val; rw [hi.1, hk0]; omega
  | ⟨1, _⟩ => show win1_0.index t 1 * 8192 + 1 * (x 1).val = (k 1).val; rw [hi.2, hk1]; omega

/-- The weights' tile at point `t` is rows `8192 t … 8192 t + 8191` of the weights. -/
theorem iblk1_1_apply (c : Dev nD) (t : Fin cfg1.N) (x : S8192x256.Idx) (k : S81920x256.Idx)
    (hk0 : (k 0).val = 8192 * t.val + (x 0).val) (hk1 : (k 1).val = (x 1).val) :
    (iblk1 V c 1 t : Vec F S8192x256 .bf16) x = (V c main_v30 : S81920x256.Idx → Elt F .bf16) k := by
  have hi : win1_1.index t 0 = t.val ∧ win1_1.index t 1 = 0 := by
    rcases fin_N1 t with rfl | rfl | rfl | rfl | rfl | rfl | rfl | rfl | rfl | rfl <;> decide
  unfold iblk1
  rw [View.read_apply]
  show V c main_v30 _ = V c main_v30 _
  congr 1
  funext a
  apply Fin.ext
  match a with
  | ⟨0, _⟩ => show win1_1.index t 0 * 8192 + 1 * (x 0).val = (k 0).val; rw [hi.1, hk0]; omega
  | ⟨1, _⟩ => show win1_1.index t 1 * 256 + 1 * (x 1).val = (k 1).val; rw [hi.2, hk1]; omega

/-- At the last point each small operand's block is its whole array. -/
theorem iblk1_2_last (c : Dev nD) : (iblk1 V c 2 t1_9 : Vec F S1x256 .f32) = V c main_v22 := by
  have hz : (fun a => (win1_2.index t1_9) a * main_v22.ty.shape.size a) = fun _ => 0 := funext fun a => by fin_cases a <;> decide
  unfold iblk1
  exact Memref.read_access_unit_zero (Elt F) main_v22 hz (fun a => by fin_cases a <;> decide) _

theorem iblk1_3_last (c : Dev nD) : (iblk1 V c 3 t1_9 : Vec F S1x256 .f32) = V c main_v23 := by
  have hz : (fun a => (win1_3.index t1_9) a * main_v23.ty.shape.size a) = fun _ => 0 := funext fun a => by fin_cases a <;> decide
  unfold iblk1
  exact Memref.read_access_unit_zero (Elt F) main_v23 hz (fun a => by fin_cases a <;> decide) _

theorem iblk1_4_last (c : Dev nD) : (iblk1 V c 4 t1_9 : Vec F S256x10 .f32) = V c main_v31 := by
  have hz : (fun a => (win1_4.index t1_9) a * main_v31.ty.shape.size a) = fun _ => 0 := funext fun a => by fin_cases a <;> decide
  unfold iblk1
  exact Memref.read_access_unit_zero (Elt F) main_v31 hz (fun a => by fin_cases a <;> decide) _

theorem iblk1_5_last (c : Dev nD) : (iblk1 V c 5 t1_9 : Vec F S1x10 .f32) = V c main_v40 := by
  have hz : (fun a => (win1_5.index t1_9) a * main_v40.ty.shape.size a) = fun _ => 0 := funext fun a => by fin_cases a <;> decide
  unfold iblk1
  exact Memref.read_access_unit_zero (Elt F) main_v40 hz (fun a => by fin_cases a <;> decide) _

/-- The output array after the region: the one write-back, at the last point, writes the head over the whole array. -/
theorem arrAt1_6 (c : Dev nD) : (dat1 V c).arrAt 6 cfg1.N = head1 V c t1_9 := by
  have ho : ((cfg1.win 6).blk t1_9).view.read (Elt F) ((dat1 V c).arrAt 6 ((t1_9 : Fin cfg1.N).val + 1)) = (dat1 V c).flushed 6 t1_9 := by
    rw [(dat1 V c).arrAt_succ 6 t1_9]
    rw [show (cfg1.win 6).flush t1_9 = true from by decide +kernel, if_pos rfl]
    exact View.read_write_univ _ _
  have hz6 : (fun a => (win1_6.index t1_9) a * main_v41.ty.shape.size a) = fun _ => 0 := funext fun a => by fin_cases a <;> decide
  have hr6 := fun f => Memref.read_access_unit_zero (Elt F) main_v41 hz6 (fun a => by fin_cases a <;> decide) f
  have ho' : (dat1 V c).arrAt 6 ((t1_9 : Fin cfg1.N).val + 1) = (dat1 V c).flushed 6 t1_9 := (hr6 _).symm.trans ho
  have e : (dat1 V c).arrAt 6 cfg1.N = (dat1 V c).arrAt 6 ((t1_9 : Fin cfg1.N).val + 1) := congrArg _ N_1
  rw [e, ho']
  show (cfg1.win 6).cut _ ((dat1 V c).after 6 t1_9) = _
  rw [after1_6]
  rfl

end Blocks

section AtIdeal

variable (V : (c : Dev nD) → (b : Ref sig .tc) → Buf (Elt Ideal) ((c : Thread nD τ).loc b))

/-! # Region 1 at the ideal values: the output array as a function of the operands' arrays -/

/-- The zeroed accumulator is zero. -/
theorem fc_pay1_apply (y : S256x256.Idx) : k1_pay1 (F := Ideal) y = 0 := by
  unfold k1_pay1
  simp only [shapeCast_self]
  exact Ideal.ofBits_zero_f32

/-- The operands' arrays as the region finds them, and the output array after it. -/
abbrev opX (c : Dev nD) : S256x81920.Idx → EReal := V c main_v39
abbrev opW (c : Dev nD) : S81920x256.Idx → EReal := V c main_v30
abbrev opS (c : Dev nD) : S1x256.Idx → EReal := V c main_v22
abbrev opT (c : Dev nD) : S1x256.Idx → EReal := V c main_v23
abbrev opW4 (c : Dev nD) : S256x10.Idx → EReal := V c main_v31
abbrev opB4 (c : Dev nD) : S1x10.Idx → EReal := V c main_v40
abbrev out1 (c : Dev nD) : S256x10.Idx → EReal := (dat1 (F := Ideal) V c).arrAt 6 cfg1.N

/-- Point `j`'s term of the first layer's sum at row `b`, column `h`: the activations' columns of tile `j` times the
    weights' rows of tile `j`. -/
def term1 (c : Dev nD) (b h : Fin 256) (j : ℕ) : EReal :=
  if hj : j < 10 then
    ∑ k : Fin 8192, opX V c (ix2 b ⟨j * 8192 + k.val, by have := k.isLt; omega⟩)
      * opW V c (ix2 ⟨j * 8192 + k.val, by have := k.isLt; omega⟩ h)
  else 0

/-- One step of the accumulation adds the point's term. -/
theorem step1_apply (c : Dev nD) (t : Fin cfg1.N) (a : Vec Ideal S256x256 .f32) (b h : Fin 256) :
    k1_pay2 (F := Ideal) a (iblk1 V c 0 t) (iblk1 V c 1 t) (ix2 b h) = a (ix2 b h) + term1 V c b h t.val := by
  have hN : t.val < 10 := lt_of_lt_of_eq t.isLt (show cfg1.N = 10 from N_1)
  rw [fc_pay2_apply]
  refine congrArg (a (ix2 b h) + ·) ?_
  unfold term1
  rw [dif_pos hN]
  refine Finset.sum_congr rfl fun k _ => ?_
  rw [iblk1_0_apply V c t (ix2 b k) (ix2 b ⟨t.val * 8192 + k.val, by have := k.isLt; omega⟩) rfl
      (by show t.val * 8192 + k.val = 8192 * t.val + k.val; omega),
    iblk1_1_apply V c t (ix2 k h) (ix2 ⟨t.val * 8192 + k.val, by have := k.isLt; omega⟩ h)
      (by show t.val * 8192 + k.val = 8192 * t.val + k.val; omega) rfl]

/-- The accumulator after point `n`: the terms of the points up to `n`, summed. -/
theorem acc1_apply (c : Dev nD) (b h : Fin 256) : ∀ (n : ℕ) (hn : n < cfg1.N),
    acc1 V c n hn (ix2 b h) = ∑ j ∈ Finset.range (n + 1), term1 V c b h j
  | 0, hn => by
    rw [acc1_zero, step1_apply V c ⟨0, hn⟩, fc_pay1_apply, zero_add, Finset.sum_range_one]
  | n + 1, hn => by
    rw [acc1_succ, step1_apply V c ⟨n + 1, hn⟩, acc1_apply c b h n (Nat.lt_of_succ_lt hn), Finset.sum_range_succ _ (n + 1)]

/-- THE VALUE of region 1: after the region the output array holds, at row `b` and class `o`, the second layer
    (clipped at zero) of the first layer's sum over all ten tiles, scaled, shifted and clipped at zero. -/
theorem value1 (c : Dev nD) (b : Fin 256) (o : Fin 10) :
    out1 V c (ix2 b o)
      = max ((∑ h : Fin 256,
          max ((∑ j : Fin 10, ∑ k : Fin 8192,
                opX V c (ix2 b ⟨j.val * 8192 + k.val, by have := j.isLt; have := k.isLt; omega⟩)
                  * opW V c (ix2 ⟨j.val * 8192 + k.val, by have := j.isLt; have := k.isLt; omega⟩ h))
              * opS V c (ix2 (0 : Fin 1) h) + opT V c (ix2 (0 : Fin 1) h)) 0
            * opW4 V c (ix2 h o))
          + opB4 V c (ix2 (0 : Fin 1) o)) 0 := by
  show ((dat1 (F := Ideal) V c).arrAt 6 cfg1.N : S256x10.Idx → EReal) (ix2 b o) = _
  rw [arrAt1_6]
  unfold head1
  rw [fc_pay3_apply, iblk1_2_last, iblk1_3_last, iblk1_4_last, iblk1_5_last]
  refine congrArg (fun z => max (z + opB4 V c (ix2 (0 : Fin 1) o)) 0) (Finset.sum_congr rfl fun h _ => ?_)
  rw [acc1_apply V c b h, show (t1_9 : Fin cfg1.N).val + 1 = 10 from rfl, Finset.sum_range]
  refine congrArg (fun z => max (z * opS V c (ix2 (0 : Fin 1) h) + opT V c (ix2 (0 : Fin 1) h)) 0
      * opW4 V c (ix2 h o)) (Finset.sum_congr rfl fun j _ => ?_)
  unfold term1
  rw [dif_pos j.isLt]

/-- info: 'Cert.ReferenceIdeal.Hand.value1' depends on axioms: [propext, Classical.choice, Quot.sound] -/
#guard_msgs in #print axioms value1

end AtIdeal

end Cert.ReferenceIdeal.Hand

end
-- ==== Proof.RAlgebra.lean ====
/-
  The reference program's wide layer and head against the specification, as algebra on the extended reals.

  The reference contracts the wide layer over the 81920 positions numbered place-major, place · 80 + channel, in ten
  tiles of 8192; the specification numbers them channel-major, channel · 1024 + place. Both are the same finite sum: a
  sum over a range cut into equal blocks is the sum of the blocks' sums, and a double sum may be taken in either
  order. The head is the specification's, entry by entry. No distributivity and no finiteness of a value is used.
-/
import proofs.«177748_g2000301280579440_pallasbulk_580_2_alg».proof.Proof.Spec
import proofs.«177748_g2000301280579440_pallasbulk_580_2_alg».proof.Proof.FcSums

noncomputable section

namespace Cert.RAlgebra

open Idealize.ShloMosaic Idealize.ShloMosaic.ValueIdx Cert.HostLayout Cert.Spec

/-! ## Against the specification -/

section Against
variable (x : SX.Idx → EReal) (w1 : SW1.Idx → EReal) (b1 g1 be1 : (SV 256).Idx → EReal)
  (w2 : SW2.Idx → EReal) (b2 g2 be2 : (SV 80).Idx → EReal)
  (w3 : SW3.Idx → EReal) (b3 g3 be3 : (SV 256).Idx → EReal) (w4 : SW4.Idx → EReal) (b4 : (SV 10).Idx → EReal)

/-- The wide layer: ten tiles of positions numbered place-major are the specification's positions numbered
    channel-major. -/
theorem fcR_eq (flat : Fin 256 → Fin 81920 → EReal) (w3p : Fin 81920 → Fin 256 → EReal)
    (hflat : ∀ (b : Fin 256) (l : Fin 1024) (c2 : Fin 80) (k : Fin 81920), k.val = l.val * 80 + c2.val →
      flat b k = conv x w1 b1 g1 be1 w2 b2 g2 be2 b c2 l)
    (hw3 : ∀ (r : Fin 81920) (h : Fin 256) (l : Fin 1024) (c2 : Fin 80) (kk : Fin 81920),
      r.val = l.val * 80 + c2.val → kk.val = c2.val * 1024 + l.val → w3p r h = w3 (ix2 h kk))
    (b h : Fin 256) :
    (∑ j : Fin 10, ∑ k : Fin 8192,
        flat b ⟨j.val * 8192 + k.val, by have := j.isLt; have := k.isLt; omega⟩
          * w3p ⟨j.val * 8192 + k.val, by have := j.isLt; have := k.isLt; omega⟩ h)
      = fc x w1 b1 g1 be1 w2 b2 g2 be2 w3 b h := by
  rw [Cert.FcSums.sum_ten_tiles (fun n => flat b n * w3p n h)
    (fun j k => ⟨j.val * 8192 + k.val, by have := j.isLt; have := k.isLt; omega⟩) (fun _ _ => rfl)]
  unfold fc
  rw [Cert.FcSums.sum_place_major (fun n => flat b n * w3p n h)
      (fun l c => ⟨l.val * 80 + c.val, by have := c.isLt; have := l.isLt; omega⟩) (fun _ _ => rfl),
    Cert.FcSums.sum_channel_major _
      (fun c l => ⟨c.val * 1024 + l.val, by have := c.isLt; have := l.isLt; omega⟩) (fun _ _ => rfl),
    Finset.sum_comm]
  refine Finset.sum_congr rfl fun c2 _ => Finset.sum_congr rfl fun l _ => ?_
  have hc := c2.isLt
  have hl := l.isLt
  show flat b ⟨l.val * 80 + c2.val, _⟩ * w3p ⟨l.val * 80 + c2.val, _⟩ h
    = conv x w1 b1 g1 be1 w2 b2 g2 be2 b ⟨(c2.val * 1024 + l.val) / 1024, _⟩ ⟨(c2.val * 1024 + l.val) % 1024, _⟩
      * w3 (ix2 h ⟨c2.val * 1024 + l.val, _⟩)
  rw [hflat b l c2 _ rfl, hw3 _ h l c2 ⟨c2.val * 1024 + l.val, by omega⟩ rfl rfl]
  refine congrArg (· * w3 (ix2 h _)) ?_
  refine congr (congrArg _ (Fin.ext ?_)) (Fin.ext ?_)
  · show c2.val = (c2.val * 1024 + l.val) / 1024; omega
  · show l.val = (c2.val * 1024 + l.val) % 1024; omega

/-- The head is pointwise. -/
theorem outR_eq (F : Fin 256 → EReal) (s3 t3 : Fin 256 → EReal) (w4t : Fin 256 → Fin 10 → EReal) (b4r : Fin 10 → EReal)
    (b : Fin 256) (o : Fin 10)
    (hF : ∀ h, F h = fc x w1 b1 g1 be1 w2 b2 g2 be2 w3 b h)
    (hs3 : ∀ h, s3 h = scale g3 h) (ht3 : ∀ h, t3 h = shift b3 g3 be3 h)
    (hw4 : ∀ h, w4t h o = w4 (ix2 o h)) (hb4 : b4r o = b4 (ix1 o)) :
    max ((∑ h : Fin 256, max (F h * s3 h + t3 h) 0 * w4t h o) + b4r o) 0
      = out x w1 b1 g1 be1 w2 b2 g2 be2 w3 b3 g3 be3 w4 b4 b o := by
  unfold out
  rw [hb4]
  refine congrArg (fun z => max (z + b4 (ix1 o)) 0) (Finset.sum_congr rfl fun h _ => ?_)
  rw [hF, hs3, ht3, hw4]

end Against

end Cert.RAlgebra

end
-- ==== Proof.RValue.lean ====
/-
  The reference program's result array as the specification of its fifteen arguments, on the extended reals.

  The result is the second region's output array. That region's value is the head over the wide layer's ten-tile
  contraction of its operands; the operands are what the host leaves before the region: the first region's output with
  its trailing axes merged, which is the specification's second convolution, the wide layer's weights re-ordered
  place-major, the folded scale and shift rows, the last weights transposed and the last bias as a row. Each operand is
  read back to the arguments at launch, and the algebra of the contraction and the head closes the chain.
-/
import proofs.«177748_g2000301280579440_pallasbulk_580_2_alg».proof.Proof.RRun
import proofs.«177748_g2000301280579440_pallasbulk_580_2_alg».proof.Proof.RConvSpec
import proofs.«177748_g2000301280579440_pallasbulk_580_2_alg».proof.Proof.RFcValue
import proofs.«177748_g2000301280579440_pallasbulk_580_2_alg».proof.Proof.HostR
import proofs.«177748_g2000301280579440_pallasbulk_580_2_alg».proof.Proof.RAlgebra

set_option maxRecDepth 16384

noncomputable section

namespace Cert.ReferenceIdeal.Hand

open Cert.ReferenceIdeal Cert.ReferenceIdeal.Gen Cert.ReferenceIdeal.HostValue Cert.HostLayout
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg)

/-- A buffer that is no array of the first region and that the stretch before the second region does not write is,
    when the second region is entered, as the first region found it. -/
theorem V5_keep (c : Dev nD) (r : Ref sig .tc) (h39 : r ≠ main_v39) (h40 : r ≠ main_v40)
    (h0 : ∀ w, Pipeline.arrRef spec0 w ≠ r) :
    V5 m ρ c r = HostValue.W3 (W0 m ρ c) (r : DevRef τ sig) :=
  (hostOps1_keep (W4 m ρ c) r h39 h40).trans (W4_of_ne m ρ c r h0)

/-- The wide layer's activations operand, at `(b, l·80 + c2)`, is the specification's second convolution. -/
theorem opX_apply (c : Dev nD) (b : Fin 256) (l : Fin 1024) (c2 : Fin 80) (k : Fin 81920) (hk : k.val = l.val * 80 + c2.val) :
    opX (V5 m ρ) c (ix2 b k)
      = Cert.Spec.conv (aX (W0 m ρ c)) (aW1 (W0 m ρ c)) (aB1 (W0 m ρ c)) (aG1 (W0 m ρ c)) (aBe1 (W0 m ρ c))
          (aW2 (W0 m ρ c)) (aB2 (W0 m ρ c)) (aG2 (W0 m ρ c)) (aBe2 (W0 m ρ c)) b c2 l :=
  (v39_apply (W4 m ρ c) b l c2 k hk).trans <|
    (congrFun (W4_arr m ρ c 7) (ix3 b l c2)).trans <|
      (conv_value (V3 m ρ) c b l c2).trans (convAt_eq_spec (W0 m ρ c) b l c2)

/-- The wide layer's weights operand, at `(l·80 + c2, h)`, is the argument at `(h, c2·1024 + l)`. -/
theorem opW_apply (c : Dev nD) (r : Fin 81920) (h : Fin 256) (l : Fin 1024) (c2 : Fin 80) (kk : Fin 81920)
    (hr : r.val = l.val * 80 + c2.val) (hkk : kk.val = c2.val * 1024 + l.val) :
    opW (V5 m ρ) c (ix2 r h) = aW3 (W0 m ρ c) (ix2 h kk) :=
  (congrFun (V5_keep m ρ c main_v30 (by decide) (by decide) (by decide)) (ix2 r h)).trans
    (v30_apply (W0 m ρ c) r h l c2 kk hr hkk)

theorem opS_apply (c : Dev nD) (h : Fin 256) :
    opS (V5 m ρ) c (ix2 (0 : Fin 1) h) = Cert.Spec.scale (aG3 (W0 m ρ c)) h :=
  (congrFun (V5_keep m ρ c main_v22 (by decide) (by decide) (by decide)) (ix2 (0 : Fin 1) h)).trans
    (v22_apply (W0 m ρ c) 0 h)

theorem opT_apply (c : Dev nD) (h : Fin 256) :
    opT (V5 m ρ) c (ix2 (0 : Fin 1) h) = Cert.Spec.shift (aB3 (W0 m ρ c)) (aG3 (W0 m ρ c)) (aBe3 (W0 m ρ c)) h :=
  (congrFun (V5_keep m ρ c main_v23 (by decide) (by decide) (by decide)) (ix2 (0 : Fin 1) h)).trans
    (v23_apply (W0 m ρ c) 0 h)

theorem opW4_apply (c : Dev nD) (h : Fin 256) (o : Fin 10) :
    opW4 (V5 m ρ) c (ix2 h o) = aW4 (W0 m ρ c) (ix2 o h) :=
  (congrFun (V5_keep m ρ c main_v31 (by decide) (by decide) (by decide)) (ix2 h o)).trans
    (v31_apply (W0 m ρ c) h o)

/-- The last bias is an argument no host stretch writes and no region's array. -/
theorem arg14_kept (c : Dev nD) : W4 m ρ c (main_arg14 : DevRef τ sig) = W0 m ρ c (main_arg14 : DevRef τ sig) :=
  (W4_of_ne m ρ c main_arg14 (by decide)).trans <| (W3_of m ρ c main_arg14 (by decide)).trans <|
    (W2_of m ρ c main_arg14 (by decide)).trans (W1_of m ρ c main_arg14 (by decide))

theorem opB4_apply (c : Dev nD) (o : Fin 10) :
    opB4 (V5 m ρ) c (ix2 (0 : Fin 1) o) = aB4 (W0 m ρ c) (ix1 o) :=
  (v40_apply (W4 m ρ c) 0 o).trans (congrFun (arg14_kept m ρ c) (ix1 o))

/-- THE REFERENCE'S VALUE: its result array, entry by entry, is the specification of the arguments at launch. -/
theorem value_R (m : (ℓ : Loc nD τ sig) → Buf (Elt Ideal) ℓ) (ρ : Dev nD → PrngReg) (c : Dev nD) (b : Fin 256) (o : Fin 10) :
    (W6 m ρ c (Proc.devRef .tc main_v41) : S256x10.Idx → EReal) (ix2 b o)
      = Cert.Spec.out (aX (W0 m ρ c)) (aW1 (W0 m ρ c)) (aB1 (W0 m ρ c)) (aG1 (W0 m ρ c)) (aBe1 (W0 m ρ c)) (aW2 (W0 m ρ c)) (aB2 (W0 m ρ c)) (aG2 (W0 m ρ c)) (aBe2 (W0 m ρ c)) (aW3 (W0 m ρ c)) (aB3 (W0 m ρ c)) (aG3 (W0 m ρ c)) (aBe3 (W0 m ρ c)) (aW4 (W0 m ρ c)) (aB4 (W0 m ρ c)) b o := by
  refine (congrFun (W6_arr m ρ c 6) (ix2 b o)).trans ?_
  refine (value1 (V5 m ρ) c b o).trans ?_
  exact Cert.RAlgebra.outR_eq _ _ _ _ _ _ _ _ _ _ _ _ _ _ _
    (fun h => ∑ j : Fin 10, ∑ k : Fin 8192,
      opX (V5 m ρ) c (ix2 b ⟨j.val * 8192 + k.val, by have := j.isLt; have := k.isLt; omega⟩)
        * opW (V5 m ρ) c (ix2 ⟨j.val * 8192 + k.val, by have := j.isLt; have := k.isLt; omega⟩ h))
    (fun h => opS (V5 m ρ) c (ix2 (0 : Fin 1) h)) (fun h => opT (V5 m ρ) c (ix2 (0 : Fin 1) h))
    (fun h o => opW4 (V5 m ρ) c (ix2 h o)) (fun o => opB4 (V5 m ρ) c (ix2 (0 : Fin 1) o)) b o
    (fun h => Cert.RAlgebra.fcR_eq _ _ _ _ _ _ _ _ _ _
      (fun b k => opX (V5 m ρ) c (ix2 b k)) (fun r h => opW (V5 m ρ) c (ix2 r h))
      (fun b l c2 k hk => opX_apply m ρ c b l c2 k hk)
      (fun r h l c2 kk hr hkk => opW_apply m ρ c r h l c2 kk hr hkk) b h)
    (fun h => opS_apply m ρ c h) (fun h => opT_apply m ρ c h)
    (fun h => opW4_apply m ρ c h o) (opB4_apply m ρ c o)

end Cert.ReferenceIdeal.Hand

end
-- ==== Proof.Result.lean ====
/-
  The two programs' result arrays are one function of the arguments: each is the shared specification `Spec.out` of
  its own program's fifteen argument arrays (the kernel chain and the reference chain), and the two memories agree
  on the arguments.
-/
import proofs.«177748_g2000301280579440_pallasbulk_580_2_alg».proof.Defs
import proofs.«177748_g2000301280579440_pallasbulk_580_2_alg».proof.Proof.KIValue
import proofs.«177748_g2000301280579440_pallasbulk_580_2_alg».proof.Proof.RValue

noncomputable section

namespace Cert.Proof.Result

open Idealize.ShloMosaic Idealize.ShloMosaic.TcCoe Idealize.ShloMosaic.ValueIdx Idealize.SL.Sem

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (c : Dev Cert.ReferenceIdeal.nD) :
    Cert.ReferenceIdeal.Hand.W6 m' ρ' c (Proc.devRef .tc Cert.ReferenceIdeal.main_v41)
      = Cert.KernelIdeal.Hand.W8 m ρ c (Proc.devRef .tc Cert.KernelIdeal.main_v55) := by
  refine funext fun (i : Cert.KernelIdeal.S256x10.Idx) => ?_
  obtain ⟨b, o, rfl⟩ : ∃ (b : Fin 256) (o : Fin 10), i = ix2 b o := ⟨i 0, i 1, eq_ix2 i⟩
  refine (Cert.ReferenceIdeal.Hand.value_R m' ρ' c b o).trans (Eq.trans ?_ (Cert.KernelIdeal.Hand.value_K m ρ c b o).symm)
  obtain ⟨h0, h1, h2, h3, h4, h5, h6, h7, h8, h9, h10, h11, h12, h13, h14⟩ := hagree c
  have e0 : Cert.ReferenceIdeal.HostValue.aX (Cert.ReferenceIdeal.Hand.W0 m' ρ' c) = Cert.KernelIdeal.HostValue.aX (Cert.KernelIdeal.Hand.W0 m ρ c) := h0
  have e1 : Cert.ReferenceIdeal.HostValue.aW1 (Cert.ReferenceIdeal.Hand.W0 m' ρ' c) = Cert.KernelIdeal.HostValue.aW1 (Cert.KernelIdeal.Hand.W0 m ρ c) := h1
  have e2 : Cert.ReferenceIdeal.HostValue.aB1 (Cert.ReferenceIdeal.Hand.W0 m' ρ' c) = Cert.KernelIdeal.HostValue.aB1 (Cert.KernelIdeal.Hand.W0 m ρ c) := h2
  have e3 : Cert.ReferenceIdeal.HostValue.aG1 (Cert.ReferenceIdeal.Hand.W0 m' ρ' c) = Cert.KernelIdeal.HostValue.aG1 (Cert.KernelIdeal.Hand.W0 m ρ c) := h3
  have e4 : Cert.ReferenceIdeal.HostValue.aBe1 (Cert.ReferenceIdeal.Hand.W0 m' ρ' c) = Cert.KernelIdeal.HostValue.aBe1 (Cert.KernelIdeal.Hand.W0 m ρ c) := h4
  have e5 : Cert.ReferenceIdeal.HostValue.aW2 (Cert.ReferenceIdeal.Hand.W0 m' ρ' c) = Cert.KernelIdeal.HostValue.aW2 (Cert.KernelIdeal.Hand.W0 m ρ c) := h5
  have e6 : Cert.ReferenceIdeal.HostValue.aB2 (Cert.ReferenceIdeal.Hand.W0 m' ρ' c) = Cert.KernelIdeal.HostValue.aB2 (Cert.KernelIdeal.Hand.W0 m ρ c) := h6
  have e7 : Cert.ReferenceIdeal.HostValue.aG2 (Cert.ReferenceIdeal.Hand.W0 m' ρ' c) = Cert.KernelIdeal.HostValue.aG2 (Cert.KernelIdeal.Hand.W0 m ρ c) := h7
  have e8 : Cert.ReferenceIdeal.HostValue.aBe2 (Cert.ReferenceIdeal.Hand.W0 m' ρ' c) = Cert.KernelIdeal.HostValue.aBe2 (Cert.KernelIdeal.Hand.W0 m ρ c) := h8
  have e9 : Cert.ReferenceIdeal.HostValue.aW3 (Cert.ReferenceIdeal.Hand.W0 m' ρ' c) = Cert.KernelIdeal.HostValue.aW3 (Cert.KernelIdeal.Hand.W0 m ρ c) := h9
  have e10 : Cert.ReferenceIdeal.HostValue.aB3 (Cert.ReferenceIdeal.Hand.W0 m' ρ' c) = Cert.KernelIdeal.HostValue.aB3 (Cert.KernelIdeal.Hand.W0 m ρ c) := h10
  have e11 : Cert.ReferenceIdeal.HostValue.aG3 (Cert.ReferenceIdeal.Hand.W0 m' ρ' c) = Cert.KernelIdeal.HostValue.aG3 (Cert.KernelIdeal.Hand.W0 m ρ c) := h11
  have e12 : Cert.ReferenceIdeal.HostValue.aBe3 (Cert.ReferenceIdeal.Hand.W0 m' ρ' c) = Cert.KernelIdeal.HostValue.aBe3 (Cert.KernelIdeal.Hand.W0 m ρ c) := h12
  have e13 : Cert.ReferenceIdeal.HostValue.aW4 (Cert.ReferenceIdeal.Hand.W0 m' ρ' c) = Cert.KernelIdeal.HostValue.aW4 (Cert.KernelIdeal.Hand.W0 m ρ c) := h13
  have e14 : Cert.ReferenceIdeal.HostValue.aB4 (Cert.ReferenceIdeal.Hand.W0 m' ρ' c) = Cert.KernelIdeal.HostValue.aB4 (Cert.KernelIdeal.Hand.W0 m ρ c) := h14
  rw [e0, e1, e2, e3, e4, e5, e6, e7, e8, e9, e10, e11, e12, e13, e14]

end Cert.Proof.Result

end
-- ==== Proof.Algebraic.lean ====
/-
  The algebraic claim: at the exact reading of the floats both programs, run from memories that agree on the
  fifteen arguments, end with the same [256,10] result. Each program's run ends with its result buffer at the last
  boundary's contents (the two run modules); what remains is that those two arrays are one function of the
  arguments (the value modules and `Result.result_eq`).
-/
import proofs.«177748_g2000301280579440_pallasbulk_580_2_alg».proof.Defs
import proofs.«177748_g2000301280579440_pallasbulk_580_2_alg».proof.Proof.Gen.Pre_finite_inputs
import proofs.«177748_g2000301280579440_pallasbulk_580_2_alg».proof.Proof.KIRun
import proofs.«177748_g2000301280579440_pallasbulk_580_2_alg».proof.Proof.RRun
import proofs.«177748_g2000301280579440_pallasbulk_580_2_alg».proof.Proof.Result

noncomputable section

namespace Cert.Proof.Algebraic

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Hand.W8 m ρ c (Proc.devRef .tc Cert.KernelIdeal.main_v55), Cert.KernelIdeal.Hand.run (F := Ideal) m ρ, ?_⟩
  refine (θ_run Cert.ReferenceIdeal.defs _ _).mono (fun r h c => ⟨(h c).1.trans ?_, (h c).2⟩)
    (Cert.ReferenceIdeal.Hand.run (F := Ideal) m' ρ')
  exact Cert.Proof.Result.result_eq m ρ m' ρ' hagree c

end Cert.Proof.Algebraic

end
-- ==== Proof.lean ====
/- The proof of `Cert.Claim`. The three frames are the runs of the three programs as chains of host stretches and kernel
   regions (KRun, KIRun, RRun: every argument ends as launched); the idealized kernel program is the printed program
   read at the exact instance, so nothing is owed for `preserves`; the algebraic claim is the two idealized runs side
   by side with their result arrays one function of the arguments (Algebraic). -/
import proofs.«177748_g2000301280579440_pallasbulk_580_2_alg».proof.Defs
import proofs.«177748_g2000301280579440_pallasbulk_580_2_alg».proof.Proof.Gen.Kernel
import proofs.«177748_g2000301280579440_pallasbulk_580_2_alg».proof.Proof.Gen.KernelIdeal
import proofs.«177748_g2000301280579440_pallasbulk_580_2_alg».proof.Proof.Gen.ReferenceIdeal
import proofs.«177748_g2000301280579440_pallasbulk_580_2_alg».proof.Proof.Gen.Pre_finite_inputs
import proofs.«177748_g2000301280579440_pallasbulk_580_2_alg».proof.Proof.KRun
import proofs.«177748_g2000301280579440_pallasbulk_580_2_alg».proof.Proof.KIRun
import proofs.«177748_g2000301280579440_pallasbulk_580_2_alg».proof.Proof.RRun
import proofs.«177748_g2000301280579440_pallasbulk_580_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Algebraic.algebraic⟩

end Cert.Proof

end
